-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1024x16x64 : Shape := ⟨3, ![1024, 16, 64]⟩
abbrev S1024x16x1x64 : Shape := ⟨4, ![1024, 16, 1, 64]⟩
abbrev S1024x16x3x64 : Shape := ⟨4, ![1024, 16, 3, 64]⟩
abbrev S1024x16x192 : Shape := ⟨3, ![1024, 16, 192]⟩
abbrev S16x1024x192 : Shape := ⟨3, ![16, 1024, 192]⟩
abbrev S16x64 : Shape := ⟨2, ![16, 64]⟩
abbrev S16x1x64 : Shape := ⟨3, ![16, 1, 64]⟩
abbrev S16x3x64 : Shape := ⟨3, ![16, 3, 64]⟩
abbrev S16x192 : Shape := ⟨2, ![16, 192]⟩
abbrev S16x1x192 : Shape := ⟨3, ![16, 1, 192]⟩
abbrev S2x16x2048x64 : Shape := ⟨4, ![2, 16, 2048, 64]⟩
abbrev S1x2048x1024 : Shape := ⟨3, ![1, 2048, 1024]⟩
abbrev S1x1024x192 : Shape := ⟨3, ![1, 1024, 192]⟩
abbrev S1x1x192 : Shape := ⟨3, ![1, 1, 192]⟩
abbrev S1x1x2048x64 : Shape := ⟨4, ![1, 1, 2048, 64]⟩
abbrev S2048x1024 : Shape := ⟨2, ![2048, 1024]⟩
abbrev S1024x192 : Shape := ⟨2, ![1024, 192]⟩
abbrev S2048x192 : Shape := ⟨2, ![2048, 192]⟩
abbrev S1x192 : Shape := ⟨2, ![1, 192]⟩
abbrev S2048x64 : Shape := ⟨2, ![2048, 64]⟩
abbrev S16x64x1024 : Shape := ⟨3, ![16, 64, 1024]⟩
abbrev S1x1024 : Shape := ⟨2, ![1, 1024]⟩
abbrev S1x16x256x64 : Shape := ⟨4, ![1, 16, 256, 64]⟩
abbrev S1x16x2048x64 : Shape := ⟨4, ![1, 16, 2048, 64]⟩
abbrev S1x256x1024 : Shape := ⟨3, ![1, 256, 1024]⟩
abbrev S256x1024 : Shape := ⟨2, ![256, 1024]⟩
abbrev S1x1x256x64 : Shape := ⟨4, ![1, 1, 256, 64]⟩
abbrev S256x64 : Shape := ⟨2, ![256, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S1x64x1024 : Shape := ⟨3, ![1, 64, 1024]⟩
abbrev S64x1024 : Shape := ⟨2, ![64, 1024]⟩

abbrev nBuf : Space → Nat
  | .hbm => 35
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x16x64, .f32⟩
  | .hbm, ⟨10, _⟩ => ⟨S1024x16x64, .f32⟩
  | .hbm, ⟨11, _⟩ => ⟨S1024x16x64, .f32⟩
  | .hbm, ⟨12, _⟩ => ⟨S1024x16x1x64, .f32⟩
  | .hbm, ⟨13, _⟩ => ⟨S1024x16x1x64, .f32⟩
  | .hbm, ⟨14, _⟩ => ⟨S1024x16x1x64, .f32⟩
  | .hbm, ⟨15, _⟩ => ⟨S1024x16x3x64, .f32⟩
  | .hbm, ⟨16, _⟩ => ⟨S1024x16x192, .f32⟩
  | .hbm, ⟨17, _⟩ => ⟨S16x1024x192, .f32⟩
  | .hbm, ⟨18, _⟩ => ⟨S16x1024x192, .bf16⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x1x64, .f32⟩
  | .hbm, ⟨23, _⟩ => ⟨S16x1x64, .f32⟩
  | .hbm, ⟨24, _⟩ => ⟨S16x1x64, .f32⟩
  | .hbm, ⟨25, _⟩ => ⟨S16x3x64, .f32⟩
  | .hbm, ⟨26, _⟩ => ⟨S16x192, .f32⟩
  | .hbm, ⟨27, _⟩ => ⟨S16x1x192, .f32⟩
  | .hbm, ⟨28, _⟩ => ⟨S2x16x2048x64, .bf16⟩
  | .hbm, ⟨29, _⟩ => ⟨S2x16x2048x64, .bf16⟩
  | .hbm, ⟨30, _⟩ => ⟨S2x16x2048x64, .bf16⟩
  | .hbm, ⟨31, _⟩ => ⟨S16x64x1024, .f32⟩
  | .hbm, ⟨32, _⟩ => ⟨S16x64x1024, .bf16⟩
  | .hbm, ⟨33, _⟩ => ⟨S1x1024, .f32⟩
  | .hbm, ⟨34, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x192, .bf16⟩
  | .local _ .vmem, ⟨3, _⟩ => ⟨S1x1024x192, .bf16⟩
  | .local _ .vmem, ⟨4, _⟩ => ⟨S1x1x192, .f32⟩
  | .local _ .vmem, ⟨5, _⟩ => ⟨S1x1x192, .f32⟩
  | .local _ .vmem, ⟨6, _⟩ => ⟨S1x1x2048x64, .bf16⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x16x256x64, .bf16⟩
  | .local _ .vmem, ⟨13, _⟩ => ⟨S1x16x256x64, .bf16⟩
  | .local _ .vmem, ⟨14, _⟩ => ⟨S1x16x2048x64, .bf16⟩
  | .local _ .vmem, ⟨15, _⟩ => ⟨S1x16x2048x64, .bf16⟩
  | .local _ .vmem, ⟨16, _⟩ => ⟨S1x16x2048x64, .bf16⟩
  | .local _ .vmem, ⟨17, _⟩ => ⟨S1x16x2048x64, .bf16⟩
  | .local _ .vmem, ⟨18, _⟩ => ⟨S16x64x1024, .bf16⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

@[reducible] def k1_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k1_off1 (k1_t1 : Fin k1_t1_loop.trips) : Fin 4 → Nat :=
  let c0_5 : Index := 0#32
  let c0_i32 : BitVec 32 := 0#32
  let c1_i32 : BitVec 32 := 1#32
  let arg8 : BitVec 32 := Scf.iv c0_i32 c1_i32 k1_t1
  let v10 : Index := Scalar.indexCast arg8
  let c0_6 : Index := 0#32
  let c0_7 : Index := 0#32
  ![0, v10.toNat, 0, 0]
def k1_off2 (k1_t1 : Fin k1_t1_loop.trips) : Fin 4 → Nat :=
  let c0_8 : Index := 0#32
  let c0_i32 : BitVec 32 := 0#32
  let c1_i32 : BitVec 32 := 1#32
  let arg8 : BitVec 32 := Scf.iv c0_i32 c1_i32 k1_t1
  let v13 : Index := Scalar.indexCast arg8
  let c0_9 : Index := 0#32
  let c0_10 : Index := 0#32
  ![0, v13.toNat, 0, 0]
def k1_off3 (k1_t1 : Fin k1_t1_loop.trips) : Fin 3 → Nat :=
  let c0_i32 : BitVec 32 := 0#32
  let c1_i32 : BitVec 32 := 1#32
  let arg8 : BitVec 32 := Scf.iv c0_i32 c1_i32 k1_t1
  let v34 : Index := Scalar.indexCast arg8
  let c0_19 : Index := 0#32
  let c0_20 : Index := 0#32
  ![v34.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S16x64x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S1024x1024_S1024x16x64 : S1024x1024.ShapeCasts S1024x16x64
  bcast_S1024x16x64_S1024x16x1x64_0_1_3 : S1024x16x64.BroadcastsInDim S1024x16x1x64 (![0, 1, 3] : Fin 3 → Fin S1024x16x1x64.rank)
  concatenates_S1024x16x1x64_S1024x16x1x64_S1024x16x1x64_S1024x16x3x64_d2 : Shape.Concatenates [S1024x16x1x64, S1024x16x1x64, S1024x16x1x64] S1024x16x3x64 2
  shapeCasts_S1024x16x3x64_S1024x16x192 : S1024x16x3x64.ShapeCasts S1024x16x192
  transposes_S1024x16x192_S16x1024x192_1_0_2 : S1024x16x192.Transposes [1, 0, 2] S16x1024x192
  bitsLt_bf16_f32 : FTy.bits .bf16 < FTy.bits .f32
  shapeCasts_S1024_S16x64 : S1024.ShapeCasts S16x64
  bcast_S16x64_S16x1x64_0_2 : S16x64.BroadcastsInDim S16x1x64 (![0, 2] : Fin 2 → Fin S16x1x64.rank)
  concatenates_S16x1x64_S16x1x64_S16x1x64_S16x3x64_d1 : Shape.Concatenates [S16x1x64, S16x1x64, S16x1x64] S16x3x64 1
  shapeCasts_S16x3x64_S16x192 : S16x3x64.ShapeCasts S16x192
  shapeCasts_S16x192_S16x1x192 : S16x192.ShapeCasts S16x1x192
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x192_S1x1024x192_0_0_0 : ∀ a, (![0, 0, 0] : Fin 3 → Nat) a + S1x1024x192.size a ≤ S1x1024x192.size a
  h_S1x1024x192 : 0 < S1x1024x192.numel
  shapeCasts_S1x1024x192_S1024x192 : S1x1024x192.ShapeCasts S1024x192
  inb_S1x1x192_S1x1x192_0_0_0 : ∀ a, (![0, 0, 0] : Fin 3 → Nat) a + S1x1x192.size a ≤ S1x1x192.size a
  h_S1x1x192 : 0 < S1x1x192.numel
  shapeCasts_S1x1x192_S1x192 : S1x1x192.ShapeCasts S1x192
  broadcasts_S1x192_S2048x192 : S1x192.Broadcasts S2048x192
  slices_S2048x192_o0_0_S2048x64 : S2048x192.Slices ![0, 0] S2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  packedbf16_S1x1x2048x64_S1x1x2048x64_0_0_0_0 : (Rect.unit (s := S1x1x2048x64) ![0, 0, 0, 0] S1x1x2048x64.size inb_S1x1x2048x64_S1x1x2048x64_0_0_0_0).PackedRows (EltTy.packing .bf16)
  slices_S2048x192_o0_64_S2048x64 : S2048x192.Slices ![0, 64] S2048x64
  slices_S2048x192_o0_128_S2048x64 : S2048x192.Slices ![0, 128] S2048x64
  shapeCasts_S1024x1024_S16x64x1024 : S1024x1024.ShapeCasts S16x64x1024
  shapeCasts_S1024_S1x1024 : S1024.ShapeCasts S1x1024
  h_S1x1x256x64 : 0 < S1x1x256x64.numel
  shapeCasts_S1x1x256x64_S256x64 : S1x1x256x64.ShapeCasts S256x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S2048x1024_S1024x192_S2048x192_1_0_0_1_n_n_wf : DotDims.WF S2048x1024 S1024x192 S2048x192 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x192.size a ≤ S16x1024x192.size a
  hwx0_1 : ∀ i : grid0.Coords, EltTy.bits .bf16 = 32 ∨ (Rect.block (s := S16x1024x192) S1x1024x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x192.size a ≤ S16x1x192.size a
  hwx0_2 : ∀ i : grid0.Coords, EltTy.bits .f32 = 32 ∨ (Rect.block (s := S16x1x192) S1x1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x64.size a ≤ S2x16x2048x64.size a
  hwx0_3 : ∀ i : grid0.Coords, EltTy.bits .bf16 = 32 ∨ (Rect.block (s := S2x16x2048x64) S1x1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x64.size a ≤ S2x16x2048x64.size a
  hwx0_4 : ∀ i : grid0.Coords, EltTy.bits .bf16 = 32 ∨ (Rect.block (s := S2x16x2048x64) S1x1x2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x64.size a ≤ S2x16x2048x64.size a
  hwx0_5 : ∀ i : grid0.Coords, EltTy.bits .bf16 = 32 ∨ (Rect.block (s := S2x16x2048x64) S1x1x2048x64.size (cc0_transform_5 i) (hinb0_5 i)).WholeWords (EltTy.packing .bf16)
  hrank1 : 0 < grid1.rank
  k1_t1_ok : k1_t1_loop.OK
  k1_off1_inb : ∀ k1_t1 : Fin k1_t1_loop.trips, ∀ a, (k1_off1 k1_t1) a + S1x1x256x64.size a ≤ S1x16x256x64.size a
  k1_off2_inb : ∀ k1_t1 : Fin k1_t1_loop.trips, ∀ a, (k1_off2 k1_t1) a + S1x1x2048x64.size a ≤ S1x16x2048x64.size a
  k1_off3_inb : ∀ k1_t1 : Fin k1_t1_loop.trips, ∀ a, (k1_off3 k1_t1) a + S1x64x1024.size a ≤ S16x64x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x64.size a ≤ S2x16x2048x64.size a
  hwx1_0 : ∀ i : grid1.Coords, EltTy.bits .bf16 = 32 ∨ (Rect.block (s := S2x16x2048x64) S1x16x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x2048x64.size a ≤ S2x16x2048x64.size a
  hwx1_1 : ∀ i : grid1.Coords, EltTy.bits .bf16 = 32 ∨ (Rect.block (s := S2x16x2048x64) S1x16x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x2048x64.size a ≤ S2x16x2048x64.size a
  hwx1_2 : ∀ i : grid1.Coords, EltTy.bits .bf16 = 32 ∨ (Rect.block (s := S2x16x2048x64) S1x16x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64x1024.size a ≤ S16x64x1024.size a
  hwx1_3 : ∀ i : grid1.Coords, EltTy.bits .bf16 = 32 ∨ (Rect.block (s := S16x64x1024) S16x64x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S2x2048x1024.size a
  hwx1_5 : ∀ i : grid1.Coords, EltTy.bits .f32 = 32 ∨ (Rect.block (s := S2x2048x1024) S1x256x1024.size (cc1_transform_5 i) (hinb1_5 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1024x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_2) S1x1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S1x16x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S1x16x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19_2) S1x16x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S16x64x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Kernel.Projection.lean ====
/-
  The projection region (the first pallas_call): at each grid point (batch b, head h) the body reads the
  batch's rows x[b] (2048 x 1024), the head's concatenated weight block (1024 x 192: the head's 64 columns of
  Wq, Wk, Wv side by side) and its bias row (1 x 192), forms x[b] * W_h + bias_h (2048 x 192), and stores
  its three column groups of 64 whole into the head's q, k, v blocks.  This module states, at any contents V
  the region is entered from: each window's block at a point; what the three stores leave in the three
  output blocks as functions of the three input blocks; the body's triple; the per-point proof data and the
  body obligation the launch takes.
-/
import proofs.«174402_j5239860101318_2_alg».proof.Proof.Gen.Kernel.Launch
import proofs.«174402_j5239860101318_2_alg».proof.Proof.Gen.Kernel.Skeleton
import proofs.«174402_j5239860101318_2_alg».proof.Proof.Gen.Kernel.Points
import proofs.«174402_j5239860101318_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Projection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not (not fetched: the block index has not moved since the last fetch). -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rx : Rect S1x2048x1024 := Rect.unit (s := S1x2048x1024) ![0, 0, 0] S1x2048x1024.size inb_S1x2048x1024_S1x2048x1024_0_0_0
abbrev rw' : Rect S1x1024x192 := Rect.unit (s := S1x1024x192) ![0, 0, 0] S1x1024x192.size inb_S1x1024x192_S1x1024x192_0_0_0
abbrev rb : Rect S1x1x192 := Rect.unit (s := S1x1x192) ![0, 0, 0] S1x1x192.size inb_S1x1x192_S1x1x192_0_0_0
abbrev ro : Rect S1x1x2048x64 := Rect.unit (s := S1x1x2048x64) ![0, 0, 0, 0] S1x1x2048x64.size inb_S1x1x2048x64_S1x1x2048x64_0_0_0_0

/-! ## What the body leaves in the three output blocks -/

/-- The q block after the body: columns 0..63 of x[b] * W_h + bias_h. -/
def outQ (x0 : Vec F S1x2048x1024 .f32) (x1 : Vec F S1x1024x192 .bf16) (x2 : Vec F S1x1x192 .f32) : Vec F S1x1x2048x64 .bf16 :=
  View.canon [⟨ro, k0_pay2 (View.ld x0 rx) (View.ld x1 rw') (View.ld x2 rb)⟩]
/-- The k block after the body: columns 64..127. -/
def outK (x0 : Vec F S1x2048x1024 .f32) (x1 : Vec F S1x1024x192 .bf16) (x2 : Vec F S1x1x192 .f32) : Vec F S1x1x2048x64 .bf16 :=
  View.canon [⟨ro, k0_pay3 (View.ld x0 rx) (View.ld x1 rw') (View.ld x2 rb)⟩]
/-- The v block after the body: columns 128..191. -/
def outV (x0 : Vec F S1x2048x1024 .f32) (x1 : Vec F S1x1024x192 .bf16) (x2 : Vec F S1x1x192 .f32) : Vec F S1x1x2048x64 .bf16 :=
  View.canon [⟨ro, k0_pay4 (View.ld x0 rx) (View.ld x1 rw') (View.ld x2 rb)⟩]

/-- One whole-block store covers the block. -/
theorem cover_o (p0 : Vec F S1x1x2048x64 .bf16) (y : S1x1x2048x64.Idx) :
    ∃ pc ∈ ([⟨ro, p0⟩] : List (View.Piece (Elt F) S1x1x2048x64 .bf16)), y ∈ pc.1.set :=
  View.cover_of_tiled [⟨ro, p0⟩] S1x1x2048x64.size (by rfl) y

/-! ## The body's triple -/

set_option maxHeartbeats 4000000 in
/-- On whole staging memrefs, the three inputs' at read contents x0 x1 x2 and the three outputs' at anything, the
    body runs to the continuation with the inputs as they were and the outputs at outQ, outK, outV of them. -/
theorem sound_kernel (c : Dev nD) (E : Set ℕ) (i : grid0.Coords)
    (arg2 : Memref sig .tc .vmem S1x2048x1024 .f32) (harg2 : arg2.IsWhole) (arg3 : Memref sig .tc .vmem S1x1024x192 .bf16) (harg3 : arg3.IsWhole)
    (arg4 : Memref sig .tc .vmem S1x1x192 .f32) (harg4 : arg4.IsWhole) (arg5 : Memref sig .tc .vmem S1x1x2048x64 .bf16) (harg5 : arg5.IsWhole)
    (arg6 : Memref sig .tc .vmem S1x1x2048x64 .bf16) (harg6 : arg6.IsWhole) (arg7 : Memref sig .tc .vmem S1x1x2048x64 .bf16) (harg7 : arg7.IsWhole)
    (x0 : Vec F S1x2048x1024 .f32) (x1 : Vec F S1x1024x192 .bf16) (x2 : Vec F S1x1x192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outQ x0 x1 x2) ∗ owns (c : Thread nD τ) arg6 fullShare (outK x0 x1 x2)
            ∗ owns (c : Thread nD τ) arg7 fullShare (outV x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_o _)
  isplitl [H4]
  · iexists _; isplitr
    swap; · iexact H4
    ipureintro
    exact View.read_writes_eq_canon _ _ _ (cover_o _)
  iexists _; isplitr
  swap; · iexact H5
  ipureintro
  exact View.read_writes_eq_canon _ _ _ (cover_o _)

/-! ## The per-point proof data -/

/-- The region's proof data on core c: the arrays as the region finds them; after the body at point t each
    input's buffer still at its block and the three outputs' at outQ, outK, outV of the three input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outQ (iblk V c 0 t) (iblk V c 1 t) (iblk V c 2 t)
    | ⟨4, _⟩ => outK (iblk V c 0 t) (iblk V c 1 t) (iblk V c 2 t)
    | ⟨5, _⟩ => outV (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outQ (iblk V c 0 t) (iblk V c 1 t) (iblk V c 2 t) := by dsimp only [dat]
theorem after_4 (c : Dev nD) (t : Fin cfg0.N) : (dat V c).after 4 t = outK (iblk V c 0 t) (iblk V c 1 t) (iblk V c 2 t) := by dsimp only [dat]
theorem after_5 (c : Dev nD) (t : Fin cfg0.N) : (dat V c).after 5 t = outV (iblk V c 0 t) (iblk V c 1 t) (iblk V c 2 t) := by dsimp only [dat]

theorem before_0 (c : Dev nD) (t : Fin cfg0.N) (d) : (dat V c).before 0 t d = iblk V c 0 t :=
  before_x_of V (dat V c) (A_eq V c 0) (after_0 V c) t d
theorem before_1 (c : Dev nD) (t : Fin cfg0.N) (d) : (dat V c).before 1 t d = iblk V c 1 t :=
  before_w_of V (dat V c) (A_eq V c 1) (after_1 V c) t d
theorem before_2 (c : Dev nD) (t : Fin cfg0.N) (d) : (dat V c).before 2 t d = iblk V c 2 t :=
  before_b_of V (dat V c) (A_eq V c 2) (after_2 V c) t d

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation (c : Dev nD) : BodyObligation (dat (F := F) V c) (defs₀ (F := F)) Variants.none () Set.univ := fun t => by
  rw [bigSep_W0, bigSep_W0]
  exact sound_body V c t

end Cert.Kernel.Projection

end
-- ==== Proof.Kernel.Attention.lean ====
/-
  The attention region (the second pallas_call): at each grid point (batch b, query tile j of 256 rows) the
  body holds the tile's q rows for all 16 heads, the batch's k and v for all heads, the output weight
  split by head (16 x 64 x 1024) and the output bias row.  A counted loop over the 16 heads carries a
  256 x 1024 accumulator from zero: each trip forms the head's scores q_h k_h^T / 8, their row softmax
  (subtract the row maximum, exponentiate, divide by the row sum), the head's output softmax * v_h, and adds
  its product with the head's 64 x 1024 slice of the output weight.  After the loop the bias row is added
  and the tile is stored whole.  This module states, at any contents V the region is entered from, each
  window's block at a point, what the one store leaves in the output block as a function of the five input
  blocks (through the loop's carried value, a recursion on the trips), the body's triple, the per-point
  proof data and the body obligation the launch takes.
-/
import proofs.«174402_j5239860101318_2_alg».proof.Proof.Gen.Kernel.Launch
import proofs.«174402_j5239860101318_2_alg».proof.Proof.Gen.Kernel.Skeleton
import proofs.«174402_j5239860101318_2_alg».proof.Proof.Gen.Kernel.Points
import proofs.«174402_j5239860101318_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it
    there or not (not fetched: the block index has not moved since the last fetch). -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses outside the loop: the bias row and the output tile, each whole -/

abbrev rbo : Rect S1x1024 := Rect.unit (s := S1x1024) ![0, 0] S1x1024.size inb_S1x1024_S1x1024_0_0
abbrev ro : Rect S1x256x1024 := Rect.unit (s := S1x256x1024) ![0, 0, 0] S1x256x1024.size inb_S1x256x1024_S1x256x1024_0_0_0

/-! ## What the body leaves in the output block -/

/-- The accumulator after all 16 heads, from zero: the loop's carried value after its last trip, over the four
    operands the trips read, given by their read contents. -/
def heads (c : Dev nD) (i : grid1.Coords) (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x16x256x64 .bf16) (x1 : Vec F S1x16x2048x64 .bf16) (x2 : Vec F S1x16x2048x64 .bf16) (x3 : Vec F S16x64x1024 .bf16) : FVec F S256x1024 .f32 :=
  st_k1_t1 Variants.none c none i arg2 harg2 arg3 harg3 arg4 harg4 arg5 harg5 arg6 harg6 arg7 harg7 (harg2.unread x0) (harg3.unread x1) (harg4.unread x2) (harg5.unread x3)
    k1_pay1 (Scf.trips k1_t1_loop.lb k1_t1_loop.ub k1_t1_loop.st)

/-- The output tile after the body: the 16 heads' accumulated contributions plus the bias row, stored whole. -/
def outO (c : Dev nD) (i : grid1.Coords) (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x16x256x64 .bf16) (x1 : Vec F S1x16x2048x64 .bf16) (x2 : Vec F S1x16x2048x64 .bf16) (x3 : Vec F S16x64x1024 .bf16) (x4 : Vec F S1x1024 .f32) : Vec F S1x256x1024 .f32 :=
  View.canon [⟨ro, k1_pay3 (heads c i arg2 harg2 arg3 harg3 arg4 harg4 arg5 harg5 arg6 harg6 arg7 harg7 x0 x1 x2 x3) (View.ld x4 rbo)⟩]

/-- One whole-block store covers the block. -/
theorem cover_o (p0 : Vec F S1x256x1024 .f32) (y : S1x256x1024.Idx) :
    ∃ pc ∈ ([⟨ro, p0⟩] : List (View.Piece (Elt F) S1x256x1024 .f32)), y ∈ pc.1.set :=
  View.cover_of_tiled [⟨ro, p0⟩] S1x256x1024.size (by rfl) y

/-! ## The body's triple -/

set_option maxHeartbeats 4000000 in
/-- On whole staging memrefs, the five inputs' at read contents x0 … x4 and the output's at anything, the body runs
    to the continuation with the inputs as they were and the output at outO of them: the loop is passed by its
    invariant over a symbolic trip, never unrolled. -/
theorem sound_kernel (c : Dev nD) (E : Set ℕ) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x16x256x64 .bf16) (x1 : Vec F S1x16x2048x64 .bf16) (x2 : Vec F S1x16x2048x64 .bf16) (x3 : Vec F S16x64x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outO c i arg2 harg2 arg3 harg3 arg4 harg4 arg5 harg5 arg6 harg6 arg7 harg7 x0 x1 x2 x3 x4)) -∗ K ⟨⟩))
      ⊢ wp frame (wpE (defs₀ (F := F)) Variants.none c none) E (cc1__attn_o_kernel i arg2 harg2 arg3 harg3 arg4 harg4 arg5 harg5 arg6 harg6 arg7 harg7) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold outO heads
  rw [Memref.IsWhole.unread_read, Memref.IsWhole.unread_read, Memref.IsWhole.unread_read, Memref.IsWhole.unread_read]
  exact View.read_writes_eq_canon _ _ _ (cover_o _)

/-! ## The per-point proof data -/

/-- The region's proof data on core c: the arrays as the region finds them; after the body at point t each
    input's buffer still at its block and the output's at outO of the five input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outO c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outO c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d
theorem before_4 (c : Dev nD) (t : Fin cfg1.N) (d) : (dat V c).before 4 t d = iblk V c 4 t :=
  before_in4_of V (dat V c) (A_eq V c 4) (after_4 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation (c : Dev nD) : BodyObligation (dat (F := F) V c) (defs₀ (F := F)) Variants.none () Set.univ := fun t => by
  rw [bigSep_W1, bigSep_W1]
  exact sound_body V c t

end Cert.Kernel.Attention

end
-- ==== Proof.Kernel.Run.lean ====
/-
  The whole run: @main is a stretch of host operations (the per-head re-layout of the three projection weights and
  biases), the projection region, a second stretch (the output weight split by head, the bias as a row), and the
  attention region.  This module follows the contents of every unscoped buffer through those four segments as a fold
  from the launch memory — a host stretch applies its operations, a region leaves each of its output arrays at what
  its write-backs put there and every other buffer as it found it —, reads each argument array back through the
  fold to its launch contents, and launches the segments: every weakly fair execution terminates without a fault
  in a state whose unscoped buffers hold the fold's last contents.
-/
import proofs.«174402_j5239860101318_2_alg».proof.Proof.Gen.Kernel.Launch
import proofs.«174402_j5239860101318_2_alg».proof.Proof.Gen.Kernel.Skeleton
import proofs.«174402_j5239860101318_2_alg».proof.Proof.Gen.Kernel.Points
import proofs.«174402_j5239860101318_2_alg».proof.Proof.Gen.Kernel.Loops
import proofs.«174402_j5239860101318_2_alg».proof.Proof.Gen.Kernel.Regions
import proofs.«174402_j5239860101318_2_alg».proof.Proof.Kernel.Projection
import proofs.«174402_j5239860101318_2_alg».proof.Proof.Kernel.Attention
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev atLaunch : Dev nD → Valuation τ sig (Elt F) := fun c b => (s₀ m ρ).mem ((c : Dev nD), b)
/-- After the first host stretch: what the projection region is entered from. -/
abbrev atProj : Dev nD → Valuation τ sig (Elt F) := fun c => StableHlo.after hostOps0 (atLaunch m ρ c)
abbrev vProj : (c : Dev nD) → (b : Ref sig .tc) → Buf (Elt F) ((c : Thread nD τ).loc b) := fun c b => atProj m ρ c b
/-- At the projection region's exit: q, k, v at what its write-backs leave, every other buffer as entered. -/
def afterProj (c : Dev nD) : Valuation τ sig (Elt F) :=
  Pipeline.withArrays spec0 c (atProj m ρ c) fun w => (Projection.dat (vProj m ρ) c).arrAt w cfg0.N
theorem afterProj_arr (c : Dev nD) (w : Fin cfg0.W) :
    afterProj m ρ c (Proc.devRef .tc (Pipeline.arrRef spec0 w)) = (Projection.dat (vProj m ρ) c).arrAt w cfg0.N := by
  unfold afterProj; exact Pipeline.withArrays_arr spec0 launch0.win.arr_inj c _ _ w
theorem afterProj_of_ne (c : Dev nD) (b : Ref sig .tc) (hb : ∀ w, Pipeline.arrRef spec0 w ≠ b) :
    afterProj m ρ c (Proc.devRef .tc b) = atProj m ρ c (Proc.devRef .tc b) := by
  unfold afterProj; exact Pipeline.withArrays_of_ne spec0 c _ _ b hb
abbrev vProjOut : (c : Dev nD) → (b : Ref sig .tc) → Buf (Elt F) ((c : Thread nD τ).loc b) := fun c b => afterProj m ρ c b
theorem hF0 (c : Dev nD) (w : Fin cfg0.W) : (Projection.dat (vProj m ρ) c).arrAt w cfg0.N = vProjOut m ρ c (Pipeline.arrRef spec0 w) :=
  (afterProj_arr m ρ c w).symm
theorem hrest0 (c : Dev nD) : ∀ b, b ∉ Finset.univ.image (Pipeline.arrRef spec0) → vProjOut m ρ c b = vProj m ρ c b :=
  fun b hb => afterProj_of_ne m ρ c b fun w e => hb (Finset.mem_image.mpr ⟨w, Finset.mem_univ _, e⟩)

/-- After the second host stretch: what the attention region is entered from. -/
abbrev atAttn : Dev nD → Valuation τ sig (Elt F) := fun c => StableHlo.after hostOps1 (afterProj m ρ c)
abbrev vAttn : (c : Dev nD) → (b : Ref sig .tc) → Buf (Elt F) ((c : Thread nD τ).loc b) := fun c b => atAttn m ρ c b
/-- At the attention region's exit: the result array at what its write-backs leave, every other buffer as entered. -/
def afterAttn (c : Dev nD) : Valuation τ sig (Elt F) :=
  Pipeline.withArrays spec1 c (atAttn m ρ c) fun w => (Attention.dat (vAttn m ρ) c).arrAt w cfg1.N
theorem afterAttn_arr (c : Dev nD) (w : Fin cfg1.W) :
    afterAttn m ρ c (Proc.devRef .tc (Pipeline.arrRef spec1 w)) = (Attention.dat (vAttn m ρ) c).arrAt w cfg1.N := by
  unfold afterAttn; exact Pipeline.withArrays_arr spec1 launch1.win.arr_inj c _ _ w
theorem afterAttn_of_ne (c : Dev nD) (b : Ref sig .tc) (hb : ∀ w, Pipeline.arrRef spec1 w ≠ b) :
    afterAttn m ρ c (Proc.devRef .tc b) = atAttn m ρ c (Proc.devRef .tc b) := by
  unfold afterAttn; exact Pipeline.withArrays_of_ne spec1 c _ _ b hb
abbrev vAttnOut : (c : Dev nD) → (b : Ref sig .tc) → Buf (Elt F) ((c : Thread nD τ).loc b) := fun c b => afterAttn m ρ c b
theorem hF1 (c : Dev nD) (w : Fin cfg1.W) : (Attention.dat (vAttn m ρ) c).arrAt w cfg1.N = vAttnOut m ρ c (Pipeline.arrRef spec1 w) :=
  (afterAttn_arr m ρ c w).symm
theorem hrest1 (c : Dev nD) : ∀ b, b ∉ Finset.univ.image (Pipeline.arrRef spec1) → vAttnOut m ρ c b = vAttn m ρ c b :=
  fun b hb => afterAttn_of_ne m ρ c b fun w e => hb (Finset.mem_image.mpr ⟨w, Finset.mem_univ _, e⟩)

/-! ### The arguments end as launched: no host operation writes one, the projection region reads x through an input
    window, and no other argument is a window of either region -/

theorem afterAttn_main_arg0 (c : Dev nD) : afterAttn m ρ c (Proc.devRef .tc main_arg0) = m ((c : Thread nD τ).loc main_arg0) :=
  calc afterAttn m ρ c (Proc.devRef .tc main_arg0)
    _ = atAttn m ρ c (Proc.devRef .tc main_arg0) := afterAttn_of_ne m ρ c main_arg0 (by decide)
    _ = afterProj m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg0) := (afterProj_arr m ρ c 0).trans (((Projection.dat (vProj m ρ) c).arrAt_in 0 rfl _).trans (Projection.A_eq (vProj m ρ) c 0))
    _ = atLaunch m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem afterAttn_main_arg1 (c : Dev nD) : afterAttn m ρ c (Proc.devRef .tc main_arg1) = m ((c : Thread nD τ).loc main_arg1) :=
  calc afterAttn m ρ c (Proc.devRef .tc main_arg1)
    _ = atAttn m ρ c (Proc.devRef .tc main_arg1) := afterAttn_of_ne m ρ c main_arg1 (by decide)
    _ = afterProj m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg1) := afterProj_of_ne m ρ c main_arg1 (by decide)
    _ = atLaunch m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem afterAttn_main_arg2 (c : Dev nD) : afterAttn m ρ c (Proc.devRef .tc main_arg2) = m ((c : Thread nD τ).loc main_arg2) :=
  calc afterAttn m ρ c (Proc.devRef .tc main_arg2)
    _ = atAttn m ρ c (Proc.devRef .tc main_arg2) := afterAttn_of_ne m ρ c main_arg2 (by decide)
    _ = afterProj m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg2) := afterProj_of_ne m ρ c main_arg2 (by decide)
    _ = atLaunch m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem afterAttn_main_arg3 (c : Dev nD) : afterAttn m ρ c (Proc.devRef .tc main_arg3) = m ((c : Thread nD τ).loc main_arg3) :=
  calc afterAttn m ρ c (Proc.devRef .tc main_arg3)
    _ = atAttn m ρ c (Proc.devRef .tc main_arg3) := afterAttn_of_ne m ρ c main_arg3 (by decide)
    _ = afterProj m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg3) := afterProj_of_ne m ρ c main_arg3 (by decide)
    _ = atLaunch m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem afterAttn_main_arg4 (c : Dev nD) : afterAttn m ρ c (Proc.devRef .tc main_arg4) = m ((c : Thread nD τ).loc main_arg4) :=
  calc afterAttn m ρ c (Proc.devRef .tc main_arg4)
    _ = atAttn m ρ c (Proc.devRef .tc main_arg4) := afterAttn_of_ne m ρ c main_arg4 (by decide)
    _ = afterProj m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg4) := afterProj_of_ne m ρ c main_arg4 (by decide)
    _ = atLaunch m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem afterAttn_main_arg5 (c : Dev nD) : afterAttn m ρ c (Proc.devRef .tc main_arg5) = m ((c : Thread nD τ).loc main_arg5) :=
  calc afterAttn m ρ c (Proc.devRef .tc main_arg5)
    _ = atAttn m ρ c (Proc.devRef .tc main_arg5) := afterAttn_of_ne m ρ c main_arg5 (by decide)
    _ = afterProj m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg5) := afterProj_of_ne m ρ c main_arg5 (by decide)
    _ = atLaunch m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem afterAttn_main_arg6 (c : Dev nD) : afterAttn m ρ c (Proc.devRef .tc main_arg6) = m ((c : Thread nD τ).loc main_arg6) :=
  calc afterAttn m ρ c (Proc.devRef .tc main_arg6)
    _ = atAttn m ρ c (Proc.devRef .tc main_arg6) := afterAttn_of_ne m ρ c main_arg6 (by decide)
    _ = afterProj m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg6) := afterProj_of_ne m ρ c main_arg6 (by decide)
    _ = atLaunch m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem afterAttn_main_arg7 (c : Dev nD) : afterAttn m ρ c (Proc.devRef .tc main_arg7) = m ((c : Thread nD τ).loc main_arg7) :=
  calc afterAttn m ρ c (Proc.devRef .tc main_arg7)
    _ = atAttn m ρ c (Proc.devRef .tc main_arg7) := afterAttn_of_ne m ρ c main_arg7 (by decide)
    _ = afterProj m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg7) := afterProj_of_ne m ρ c main_arg7 (by decide)
    _ = atLaunch m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem afterAttn_main_arg8 (c : Dev nD) : afterAttn m ρ c (Proc.devRef .tc main_arg8) = m ((c : Thread nD τ).loc main_arg8) :=
  calc afterAttn m ρ c (Proc.devRef .tc main_arg8)
    _ = atAttn m ρ c (Proc.devRef .tc main_arg8) := afterAttn_of_ne m ρ c main_arg8 (by decide)
    _ = afterProj m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg8) := afterProj_of_ne m ρ c main_arg8 (by decide)
    _ = atLaunch m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Projection.dat (vProj m ρ) c
  | ⟨1, _⟩ => fun c => Attention.dat (vAttn m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (afterAttn m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Projection.body_obligation (vProj m ρ) c).loose
  hwaits := Pipeline.hwaits_of_owed_zero _ _ _ _ L lv 0 fun _ _ => rfl
  pre c := iprop(StableHlo.held (c : Thread nD τ) (Pipeline.ucRefs τ sig) (atProj m ρ c) ∗ R c)
  post c := iprop(StableHlo.held (c : Thread nD τ) (Pipeline.ucRefs τ sig) (afterProj m ρ c) ∗ R c)
  X c := iprop(∃ r, prngReg c r)
  Y c := iprop(∃ r, prngReg c r)
  Z c := Pipeline.unscopedRest (Ix := Unit) (Name := ℕ) (U := UR sig nD τ) (Lvl := ℕ) spec0 c (vProj m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (vProj m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (vProj m ρ c) (vProjOut m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attention.body_obligation (vAttn m ρ) c).loose
  hwaits := Pipeline.hwaits_of_owed_zero _ _ _ _ L lv 1 fun _ _ => rfl
  pre c := iprop(StableHlo.held (c : Thread nD τ) (Pipeline.ucRefs τ sig) (atAttn m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (vAttn m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (vAttn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (vAttn m ρ c) (vAttnOut m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (atLaunch m ρ)),
    .region (reg0 m ρ),
    .host (hseg hostOps1 hostOps1_sub hostOps1_fresh (afterProj m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, in a state
    whose every unscoped buffer holds the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = afterAttn m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterAttn m ρ c b)
    (hfin := fun c s' => by
      iintro ⟨⟨Hh, -⟩, HSI⟩
      unfold StableHlo.held
      imodintro
      iapply (pointsTo_read_all (Pipeline.ucRefs τ sig) (fun b => (((c : Thread nD τ)).1, b)) (afterAttn m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (afterAttn_main_arg0 m ρ c),
     (h c _ (mem_uc main_arg1 (by decide))).trans (afterAttn_main_arg1 m ρ c),
     (h c _ (mem_uc main_arg2 (by decide))).trans (afterAttn_main_arg2 m ρ c),
     (h c _ (mem_uc main_arg3 (by decide))).trans (afterAttn_main_arg3 m ρ c),
     (h c _ (mem_uc main_arg4 (by decide))).trans (afterAttn_main_arg4 m ρ c),
     (h c _ (mem_uc main_arg5 (by decide))).trans (afterAttn_main_arg5 m ρ c),
     (h c _ (mem_uc main_arg6 (by decide))).trans (afterAttn_main_arg6 m ρ c),
     (h c _ (mem_uc main_arg7 (by decide))).trans (afterAttn_main_arg7 m ρ c),
     (h c _ (mem_uc main_arg8 (by decide))).trans (afterAttn_main_arg8 m ρ c)⟩)
    (run_all m ρ)

end Cert.Kernel.Run

end
-- ==== Proof.KernelIdeal.Projection.lean ====
/-
  The projection region (the first pallas_call): at each grid point (batch b, head h) the body reads the
  batch's rows x[b] (2048 x 1024), the head's concatenated weight block (1024 x 192: the head's 64 columns of
  Wq, Wk, Wv side by side) and its bias row (1 x 192), forms x[b] * W_h + bias_h (2048 x 192), and stores
  its three column groups of 64 whole into the head's q, k, v blocks.  This module states, at any contents V
  the region is entered from: each window's block at a point; what the three stores leave in the three
  output blocks as functions of the three input blocks; the body's triple; the per-point proof data and the
  body obligation the launch takes.
-/
import proofs.«174402_j5239860101318_2_alg».proof.Proof.Gen.KernelIdeal.Launch
import proofs.«174402_j5239860101318_2_alg».proof.Proof.Gen.KernelIdeal.Skeleton
import proofs.«174402_j5239860101318_2_alg».proof.Proof.Gen.KernelIdeal.Points
import proofs.«174402_j5239860101318_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Projection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not (not fetched: the block index has not moved since the last fetch). -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole block -/

abbrev rx : Rect S1x2048x1024 := Rect.unit (s := S1x2048x1024) ![0, 0, 0] S1x2048x1024.size inb_S1x2048x1024_S1x2048x1024_0_0_0
abbrev rw' : Rect S1x1024x192 := Rect.unit (s := S1x1024x192) ![0, 0, 0] S1x1024x192.size inb_S1x1024x192_S1x1024x192_0_0_0
abbrev rb : Rect S1x1x192 := Rect.unit (s := S1x1x192) ![0, 0, 0] S1x1x192.size inb_S1x1x192_S1x1x192_0_0_0
abbrev ro : Rect S1x1x2048x64 := Rect.unit (s := S1x1x2048x64) ![0, 0, 0, 0] S1x1x2048x64.size inb_S1x1x2048x64_S1x1x2048x64_0_0_0_0

/-! ## What the body leaves in the three output blocks -/

/-- The q block after the body: columns 0..63 of x[b] * W_h + bias_h. -/
def outQ (x0 : Vec F S1x2048x1024 .f32) (x1 : Vec F S1x1024x192 .bf16) (x2 : Vec F S1x1x192 .f32) : Vec F S1x1x2048x64 .bf16 :=
  View.canon [⟨ro, k0_pay2 (View.ld x0 rx) (View.ld x1 rw') (View.ld x2 rb)⟩]
/-- The k block after the body: columns 64..127. -/
def outK (x0 : Vec F S1x2048x1024 .f32) (x1 : Vec F S1x1024x192 .bf16) (x2 : Vec F S1x1x192 .f32) : Vec F S1x1x2048x64 .bf16 :=
  View.canon [⟨ro, k0_pay3 (View.ld x0 rx) (View.ld x1 rw') (View.ld x2 rb)⟩]
/-- The v block after the body: columns 128..191. -/
def outV (x0 : Vec F S1x2048x1024 .f32) (x1 : Vec F S1x1024x192 .bf16) (x2 : Vec F S1x1x192 .f32) : Vec F S1x1x2048x64 .bf16 :=
  View.canon [⟨ro, k0_pay4 (View.ld x0 rx) (View.ld x1 rw') (View.ld x2 rb)⟩]

/-- One whole-block store covers the block. -/
theorem cover_o (p0 : Vec F S1x1x2048x64 .bf16) (y : S1x1x2048x64.Idx) :
    ∃ pc ∈ ([⟨ro, p0⟩] : List (View.Piece (Elt F) S1x1x2048x64 .bf16)), y ∈ pc.1.set :=
  View.cover_of_tiled [⟨ro, p0⟩] S1x1x2048x64.size (by rfl) y

/-! ## The body's triple -/

set_option maxHeartbeats 4000000 in
/-- On whole staging memrefs, the three inputs' at read contents x0 x1 x2 and the three outputs' at anything, the
    body runs to the continuation with the inputs as they were and the outputs at outQ, outK, outV of them. -/
theorem sound_kernel (c : Dev nD) (E : Set ℕ) (i : grid0.Coords)
    (arg2 : Memref sig .tc .vmem S1x2048x1024 .f32) (harg2 : arg2.IsWhole) (arg3 : Memref sig .tc .vmem S1x1024x192 .bf16) (harg3 : arg3.IsWhole)
    (arg4 : Memref sig .tc .vmem S1x1x192 .f32) (harg4 : arg4.IsWhole) (arg5 : Memref sig .tc .vmem S1x1x2048x64 .bf16) (harg5 : arg5.IsWhole)
    (arg6 : Memref sig .tc .vmem S1x1x2048x64 .bf16) (harg6 : arg6.IsWhole) (arg7 : Memref sig .tc .vmem S1x1x2048x64 .bf16) (harg7 : arg7.IsWhole)
    (x0 : Vec F S1x2048x1024 .f32) (x1 : Vec F S1x1024x192 .bf16) (x2 : Vec F S1x1x192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outQ x0 x1 x2) ∗ owns (c : Thread nD τ) arg6 fullShare (outK x0 x1 x2)
            ∗ owns (c : Thread nD τ) arg7 fullShare (outV x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_o _)
  isplitl [H4]
  · iexists _; isplitr
    swap; · iexact H4
    ipureintro
    exact View.read_writes_eq_canon _ _ _ (cover_o _)
  iexists _; isplitr
  swap; · iexact H5
  ipureintro
  exact View.read_writes_eq_canon _ _ _ (cover_o _)

/-! ## The per-point proof data -/

/-- The region's proof data on core c: the arrays as the region finds them; after the body at point t each
    input's buffer still at its block and the three outputs' at outQ, outK, outV of the three input blocks; the
    invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outQ (iblk V c 0 t) (iblk V c 1 t) (iblk V c 2 t)
    | ⟨4, _⟩ => outK (iblk V c 0 t) (iblk V c 1 t) (iblk V c 2 t)
    | ⟨5, _⟩ => outV (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outQ (iblk V c 0 t) (iblk V c 1 t) (iblk V c 2 t) := by dsimp only [dat]
theorem after_4 (c : Dev nD) (t : Fin cfg0.N) : (dat V c).after 4 t = outK (iblk V c 0 t) (iblk V c 1 t) (iblk V c 2 t) := by dsimp only [dat]
theorem after_5 (c : Dev nD) (t : Fin cfg0.N) : (dat V c).after 5 t = outV (iblk V c 0 t) (iblk V c 1 t) (iblk V c 2 t) := by dsimp only [dat]

theorem before_0 (c : Dev nD) (t : Fin cfg0.N) (d) : (dat V c).before 0 t d = iblk V c 0 t :=
  before_x_of V (dat V c) (A_eq V c 0) (after_0 V c) t d
theorem before_1 (c : Dev nD) (t : Fin cfg0.N) (d) : (dat V c).before 1 t d = iblk V c 1 t :=
  before_w_of V (dat V c) (A_eq V c 1) (after_1 V c) t d
theorem before_2 (c : Dev nD) (t : Fin cfg0.N) (d) : (dat V c).before 2 t d = iblk V c 2 t :=
  before_b_of V (dat V c) (A_eq V c 2) (after_2 V c) t d

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation (c : Dev nD) : BodyObligation (dat (F := F) V c) (defs₀ (F := F)) Variants.none () Set.univ := fun t => by
  rw [bigSep_W0, bigSep_W0]
  exact sound_body V c t

end Cert.KernelIdeal.Projection

end
-- ==== Proof.KernelIdeal.Attention.lean ====
/-
  The attention region (the second pallas_call): at each grid point (batch b, query tile j of 256 rows) the
  body holds the tile's q rows for all 16 heads, the batch's k and v for all heads, the output weight
  split by head (16 x 64 x 1024) and the output bias row.  A counted loop over the 16 heads carries a
  256 x 1024 accumulator from zero: each trip forms the head's scores q_h k_h^T / 8, their row softmax
  (subtract the row maximum, exponentiate, divide by the row sum), the head's output softmax * v_h, and adds
  its product with the head's 64 x 1024 slice of the output weight.  After the loop the bias row is added
  and the tile is stored whole.  This module states, at any contents V the region is entered from, each
  window's block at a point, what the one store leaves in the output block as a function of the five input
  blocks (through the loop's carried value, a recursion on the trips), the body's triple, the per-point
  proof data and the body obligation the launch takes.
-/
import proofs.«174402_j5239860101318_2_alg».proof.Proof.Gen.KernelIdeal.Launch
import proofs.«174402_j5239860101318_2_alg».proof.Proof.Gen.KernelIdeal.Skeleton
import proofs.«174402_j5239860101318_2_alg».proof.Proof.Gen.KernelIdeal.Points
import proofs.«174402_j5239860101318_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it
    there or not (not fetched: the block index has not moved since the last fetch). -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses outside the loop: the bias row and the output tile, each whole -/

abbrev rbo : Rect S1x1024 := Rect.unit (s := S1x1024) ![0, 0] S1x1024.size inb_S1x1024_S1x1024_0_0
abbrev ro : Rect S1x256x1024 := Rect.unit (s := S1x256x1024) ![0, 0, 0] S1x256x1024.size inb_S1x256x1024_S1x256x1024_0_0_0

/-! ## What the body leaves in the output block -/

/-- The accumulator after all 16 heads, from zero: the loop's carried value after its last trip, over the four
    operands the trips read, given by their read contents. -/
def heads (c : Dev nD) (i : grid1.Coords) (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x16x256x64 .bf16) (x1 : Vec F S1x16x2048x64 .bf16) (x2 : Vec F S1x16x2048x64 .bf16) (x3 : Vec F S16x64x1024 .bf16) : FVec F S256x1024 .f32 :=
  st_k1_t1 Variants.none c none i arg2 harg2 arg3 harg3 arg4 harg4 arg5 harg5 arg6 harg6 arg7 harg7 (harg2.unread x0) (harg3.unread x1) (harg4.unread x2) (harg5.unread x3)
    k1_pay1 (Scf.trips k1_t1_loop.lb k1_t1_loop.ub k1_t1_loop.st)

/-- The output tile after the body: the 16 heads' accumulated contributions plus the bias row, stored whole. -/
def outO (c : Dev nD) (i : grid1.Coords) (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x16x256x64 .bf16) (x1 : Vec F S1x16x2048x64 .bf16) (x2 : Vec F S1x16x2048x64 .bf16) (x3 : Vec F S16x64x1024 .bf16) (x4 : Vec F S1x1024 .f32) : Vec F S1x256x1024 .f32 :=
  View.canon [⟨ro, k1_pay3 (heads c i arg2 harg2 arg3 harg3 arg4 harg4 arg5 harg5 arg6 harg6 arg7 harg7 x0 x1 x2 x3) (View.ld x4 rbo)⟩]

/-- One whole-block store covers the block. -/
theorem cover_o (p0 : Vec F S1x256x1024 .f32) (y : S1x256x1024.Idx) :
    ∃ pc ∈ ([⟨ro, p0⟩] : List (View.Piece (Elt F) S1x256x1024 .f32)), y ∈ pc.1.set :=
  View.cover_of_tiled [⟨ro, p0⟩] S1x256x1024.size (by rfl) y

/-! ## The body's triple -/

set_option maxHeartbeats 4000000 in
/-- On whole staging memrefs, the five inputs' at read contents x0 … x4 and the output's at anything, the body runs
    to the continuation with the inputs as they were and the output at outO of them: the loop is passed by its
    invariant over a symbolic trip, never unrolled. -/
theorem sound_kernel (c : Dev nD) (E : Set ℕ) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x16x256x64 .bf16) (x1 : Vec F S1x16x2048x64 .bf16) (x2 : Vec F S1x16x2048x64 .bf16) (x3 : Vec F S16x64x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outO c i arg2 harg2 arg3 harg3 arg4 harg4 arg5 harg5 arg6 harg6 arg7 harg7 x0 x1 x2 x3 x4)) -∗ K ⟨⟩))
      ⊢ wp frame (wpE (defs₀ (F := F)) Variants.none c none) E (cc1__attn_o_kernel i arg2 harg2 arg3 harg3 arg4 harg4 arg5 harg5 arg6 harg6 arg7 harg7) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold outO heads
  rw [Memref.IsWhole.unread_read, Memref.IsWhole.unread_read, Memref.IsWhole.unread_read, Memref.IsWhole.unread_read]
  exact View.read_writes_eq_canon _ _ _ (cover_o _)

/-! ## The per-point proof data -/

/-- The region's proof data on core c: the arrays as the region finds them; after the body at point t each
    input's buffer still at its block and the output's at outO of the five input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outO c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outO c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d
theorem before_4 (c : Dev nD) (t : Fin cfg1.N) (d) : (dat V c).before 4 t d = iblk V c 4 t :=
  before_in4_of V (dat V c) (A_eq V c 4) (after_4 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's body obligation, at every point. -/
theorem body_obligation (c : Dev nD) : BodyObligation (dat (F := F) V c) (defs₀ (F := F)) Variants.none () Set.univ := fun t => by
  rw [bigSep_W1, bigSep_W1]
  exact sound_body V c t

end Cert.KernelIdeal.Attention

end
-- ==== Proof.KernelIdeal.Run.lean ====
/-
  The whole run: @main is a stretch of host operations (the per-head re-layout of the three projection weights and
  biases), the projection region, a second stretch (the output weight split by head, the bias as a row), and the
  attention region.  This module follows the contents of every unscoped buffer through those four segments as a fold
  from the launch memory — a host stretch applies its operations, a region leaves each of its output arrays at what
  its write-backs put there and every other buffer as it found it —, reads each argument array back through the
  fold to its launch contents, and launches the segments: every weakly fair execution terminates without a fault
  in a state whose unscoped buffers hold the fold's last contents.
-/
import proofs.«174402_j5239860101318_2_alg».proof.Proof.Gen.KernelIdeal.Launch
import proofs.«174402_j5239860101318_2_alg».proof.Proof.Gen.KernelIdeal.Skeleton
import proofs.«174402_j5239860101318_2_alg».proof.Proof.Gen.KernelIdeal.Points
import proofs.«174402_j5239860101318_2_alg».proof.Proof.Gen.KernelIdeal.Loops
import proofs.«174402_j5239860101318_2_alg».proof.Proof.Gen.KernelIdeal.Regions
import proofs.«174402_j5239860101318_2_alg».proof.Proof.KernelIdeal.Projection
import proofs.«174402_j5239860101318_2_alg».proof.Proof.KernelIdeal.Attention
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev atLaunch : Dev nD → Valuation τ sig (Elt F) := fun c b => (s₀ m ρ).mem ((c : Dev nD), b)
/-- After the first host stretch: what the projection region is entered from. -/
abbrev atProj : Dev nD → Valuation τ sig (Elt F) := fun c => StableHlo.after hostOps0 (atLaunch m ρ c)
abbrev vProj : (c : Dev nD) → (b : Ref sig .tc) → Buf (Elt F) ((c : Thread nD τ).loc b) := fun c b => atProj m ρ c b
/-- At the projection region's exit: q, k, v at what its write-backs leave, every other buffer as entered. -/
def afterProj (c : Dev nD) : Valuation τ sig (Elt F) :=
  Pipeline.withArrays spec0 c (atProj m ρ c) fun w => (Projection.dat (vProj m ρ) c).arrAt w cfg0.N
theorem afterProj_arr (c : Dev nD) (w : Fin cfg0.W) :
    afterProj m ρ c (Proc.devRef .tc (Pipeline.arrRef spec0 w)) = (Projection.dat (vProj m ρ) c).arrAt w cfg0.N := by
  unfold afterProj; exact Pipeline.withArrays_arr spec0 launch0.win.arr_inj c _ _ w
theorem afterProj_of_ne (c : Dev nD) (b : Ref sig .tc) (hb : ∀ w, Pipeline.arrRef spec0 w ≠ b) :
    afterProj m ρ c (Proc.devRef .tc b) = atProj m ρ c (Proc.devRef .tc b) := by
  unfold afterProj; exact Pipeline.withArrays_of_ne spec0 c _ _ b hb
abbrev vProjOut : (c : Dev nD) → (b : Ref sig .tc) → Buf (Elt F) ((c : Thread nD τ).loc b) := fun c b => afterProj m ρ c b
theorem hF0 (c : Dev nD) (w : Fin cfg0.W) : (Projection.dat (vProj m ρ) c).arrAt w cfg0.N = vProjOut m ρ c (Pipeline.arrRef spec0 w) :=
  (afterProj_arr m ρ c w).symm
theorem hrest0 (c : Dev nD) : ∀ b, b ∉ Finset.univ.image (Pipeline.arrRef spec0) → vProjOut m ρ c b = vProj m ρ c b :=
  fun b hb => afterProj_of_ne m ρ c b fun w e => hb (Finset.mem_image.mpr ⟨w, Finset.mem_univ _, e⟩)

/-- After the second host stretch: what the attention region is entered from. -/
abbrev atAttn : Dev nD → Valuation τ sig (Elt F) := fun c => StableHlo.after hostOps1 (afterProj m ρ c)
abbrev vAttn : (c : Dev nD) → (b : Ref sig .tc) → Buf (Elt F) ((c : Thread nD τ).loc b) := fun c b => atAttn m ρ c b
/-- At the attention region's exit: the result array at what its write-backs leave, every other buffer as entered. -/
def afterAttn (c : Dev nD) : Valuation τ sig (Elt F) :=
  Pipeline.withArrays spec1 c (atAttn m ρ c) fun w => (Attention.dat (vAttn m ρ) c).arrAt w cfg1.N
theorem afterAttn_arr (c : Dev nD) (w : Fin cfg1.W) :
    afterAttn m ρ c (Proc.devRef .tc (Pipeline.arrRef spec1 w)) = (Attention.dat (vAttn m ρ) c).arrAt w cfg1.N := by
  unfold afterAttn; exact Pipeline.withArrays_arr spec1 launch1.win.arr_inj c _ _ w
theorem afterAttn_of_ne (c : Dev nD) (b : Ref sig .tc) (hb : ∀ w, Pipeline.arrRef spec1 w ≠ b) :
    afterAttn m ρ c (Proc.devRef .tc b) = atAttn m ρ c (Proc.devRef .tc b) := by
  unfold afterAttn; exact Pipeline.withArrays_of_ne spec1 c _ _ b hb
abbrev vAttnOut : (c : Dev nD) → (b : Ref sig .tc) → Buf (Elt F) ((c : Thread nD τ).loc b) := fun c b => afterAttn m ρ c b
theorem hF1 (c : Dev nD) (w : Fin cfg1.W) : (Attention.dat (vAttn m ρ) c).arrAt w cfg1.N = vAttnOut m ρ c (Pipeline.arrRef spec1 w) :=
  (afterAttn_arr m ρ c w).symm
theorem hrest1 (c : Dev nD) : ∀ b, b ∉ Finset.univ.image (Pipeline.arrRef spec1) → vAttnOut m ρ c b = vAttn m ρ c b :=
  fun b hb => afterAttn_of_ne m ρ c b fun w e => hb (Finset.mem_image.mpr ⟨w, Finset.mem_univ _, e⟩)

/-! ### The arguments end as launched: no host operation writes one, the projection region reads x through an input
    window, and no other argument is a window of either region -/

theorem afterAttn_main_arg0 (c : Dev nD) : afterAttn m ρ c (Proc.devRef .tc main_arg0) = m ((c : Thread nD τ).loc main_arg0) :=
  calc afterAttn m ρ c (Proc.devRef .tc main_arg0)
    _ = atAttn m ρ c (Proc.devRef .tc main_arg0) := afterAttn_of_ne m ρ c main_arg0 (by decide)
    _ = afterProj m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg0) := (afterProj_arr m ρ c 0).trans (((Projection.dat (vProj m ρ) c).arrAt_in 0 rfl _).trans (Projection.A_eq (vProj m ρ) c 0))
    _ = atLaunch m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem afterAttn_main_arg1 (c : Dev nD) : afterAttn m ρ c (Proc.devRef .tc main_arg1) = m ((c : Thread nD τ).loc main_arg1) :=
  calc afterAttn m ρ c (Proc.devRef .tc main_arg1)
    _ = atAttn m ρ c (Proc.devRef .tc main_arg1) := afterAttn_of_ne m ρ c main_arg1 (by decide)
    _ = afterProj m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg1) := afterProj_of_ne m ρ c main_arg1 (by decide)
    _ = atLaunch m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem afterAttn_main_arg2 (c : Dev nD) : afterAttn m ρ c (Proc.devRef .tc main_arg2) = m ((c : Thread nD τ).loc main_arg2) :=
  calc afterAttn m ρ c (Proc.devRef .tc main_arg2)
    _ = atAttn m ρ c (Proc.devRef .tc main_arg2) := afterAttn_of_ne m ρ c main_arg2 (by decide)
    _ = afterProj m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg2) := afterProj_of_ne m ρ c main_arg2 (by decide)
    _ = atLaunch m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem afterAttn_main_arg3 (c : Dev nD) : afterAttn m ρ c (Proc.devRef .tc main_arg3) = m ((c : Thread nD τ).loc main_arg3) :=
  calc afterAttn m ρ c (Proc.devRef .tc main_arg3)
    _ = atAttn m ρ c (Proc.devRef .tc main_arg3) := afterAttn_of_ne m ρ c main_arg3 (by decide)
    _ = afterProj m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg3) := afterProj_of_ne m ρ c main_arg3 (by decide)
    _ = atLaunch m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem afterAttn_main_arg4 (c : Dev nD) : afterAttn m ρ c (Proc.devRef .tc main_arg4) = m ((c : Thread nD τ).loc main_arg4) :=
  calc afterAttn m ρ c (Proc.devRef .tc main_arg4)
    _ = atAttn m ρ c (Proc.devRef .tc main_arg4) := afterAttn_of_ne m ρ c main_arg4 (by decide)
    _ = afterProj m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg4) := afterProj_of_ne m ρ c main_arg4 (by decide)
    _ = atLaunch m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem afterAttn_main_arg5 (c : Dev nD) : afterAttn m ρ c (Proc.devRef .tc main_arg5) = m ((c : Thread nD τ).loc main_arg5) :=
  calc afterAttn m ρ c (Proc.devRef .tc main_arg5)
    _ = atAttn m ρ c (Proc.devRef .tc main_arg5) := afterAttn_of_ne m ρ c main_arg5 (by decide)
    _ = afterProj m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg5) := afterProj_of_ne m ρ c main_arg5 (by decide)
    _ = atLaunch m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem afterAttn_main_arg6 (c : Dev nD) : afterAttn m ρ c (Proc.devRef .tc main_arg6) = m ((c : Thread nD τ).loc main_arg6) :=
  calc afterAttn m ρ c (Proc.devRef .tc main_arg6)
    _ = atAttn m ρ c (Proc.devRef .tc main_arg6) := afterAttn_of_ne m ρ c main_arg6 (by decide)
    _ = afterProj m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg6) := afterProj_of_ne m ρ c main_arg6 (by decide)
    _ = atLaunch m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem afterAttn_main_arg7 (c : Dev nD) : afterAttn m ρ c (Proc.devRef .tc main_arg7) = m ((c : Thread nD τ).loc main_arg7) :=
  calc afterAttn m ρ c (Proc.devRef .tc main_arg7)
    _ = atAttn m ρ c (Proc.devRef .tc main_arg7) := afterAttn_of_ne m ρ c main_arg7 (by decide)
    _ = afterProj m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg7) := afterProj_of_ne m ρ c main_arg7 (by decide)
    _ = atLaunch m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem afterAttn_main_arg8 (c : Dev nD) : afterAttn m ρ c (Proc.devRef .tc main_arg8) = m ((c : Thread nD τ).loc main_arg8) :=
  calc afterAttn m ρ c (Proc.devRef .tc main_arg8)
    _ = atAttn m ρ c (Proc.devRef .tc main_arg8) := afterAttn_of_ne m ρ c main_arg8 (by decide)
    _ = afterProj m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = atProj m ρ c (Proc.devRef .tc main_arg8) := afterProj_of_ne m ρ c main_arg8 (by decide)
    _ = atLaunch m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Projection.dat (vProj m ρ) c
  | ⟨1, _⟩ => fun c => Attention.dat (vAttn m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (afterAttn m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Projection.body_obligation (vProj m ρ) c).loose
  hwaits := Pipeline.hwaits_of_owed_zero _ _ _ _ L lv 0 fun _ _ => rfl
  pre c := iprop(StableHlo.held (c : Thread nD τ) (Pipeline.ucRefs τ sig) (atProj m ρ c) ∗ R c)
  post c := iprop(StableHlo.held (c : Thread nD τ) (Pipeline.ucRefs τ sig) (afterProj m ρ c) ∗ R c)
  X c := iprop(∃ r, prngReg c r)
  Y c := iprop(∃ r, prngReg c r)
  Z c := Pipeline.unscopedRest (Ix := Unit) (Name := ℕ) (U := UR sig nD τ) (Lvl := ℕ) spec0 c (vProj m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (vProj m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (vProj m ρ c) (vProjOut m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attention.body_obligation (vAttn m ρ) c).loose
  hwaits := Pipeline.hwaits_of_owed_zero _ _ _ _ L lv 1 fun _ _ => rfl
  pre c := iprop(StableHlo.held (c : Thread nD τ) (Pipeline.ucRefs τ sig) (atAttn m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (vAttn m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (vAttn m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (vAttn m ρ c) (vAttnOut m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (atLaunch m ρ)),
    .region (reg0 m ρ),
    .host (hseg hostOps1 hostOps1_sub hostOps1_fresh (afterProj m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, in a state
    whose every unscoped buffer holds the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = afterAttn m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterAttn m ρ c b)
    (hfin := fun c s' => by
      iintro ⟨⟨Hh, -⟩, HSI⟩
      unfold StableHlo.held
      imodintro
      iapply (pointsTo_read_all (Pipeline.ucRefs τ sig) (fun b => (((c : Thread nD τ)).1, b)) (afterAttn m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (afterAttn_main_arg0 m ρ c),
     (h c _ (mem_uc main_arg1 (by decide))).trans (afterAttn_main_arg1 m ρ c),
     (h c _ (mem_uc main_arg2 (by decide))).trans (afterAttn_main_arg2 m ρ c),
     (h c _ (mem_uc main_arg3 (by decide))).trans (afterAttn_main_arg3 m ρ c),
     (h c _ (mem_uc main_arg4 (by decide))).trans (afterAttn_main_arg4 m ρ c),
     (h c _ (mem_uc main_arg5 (by decide))).trans (afterAttn_main_arg5 m ρ c),
     (h c _ (mem_uc main_arg6 (by decide))).trans (afterAttn_main_arg6 m ρ c),
     (h c _ (mem_uc main_arg7 (by decide))).trans (afterAttn_main_arg7 m ρ c),
     (h c _ (mem_uc main_arg8 (by decide))).trans (afterAttn_main_arg8 m ρ c)⟩)
    (run_all m ρ)

end Cert.KernelIdeal.Run

end
-- ==== Proof.KernelIdeal.HeadLoop.lean ====
/-
  The head loop of the attention region, read as mathematics.  One trip of the loop at head k takes the carried
  256 x 1024 accumulator to itself plus that head's contribution, computed from the head's slab of each of the
  four operands the loop reads (slab k of the query tile, of the keys, of the values, and of the output weight);
  sixteen trips from the zero accumulator therefore leave the sum of the sixteen heads' contributions.
-/
import proofs.«174402_j5239860101318_2_alg».proof.Proof.Gen.KernelIdeal.Launch
import proofs.«174402_j5239860101318_2_alg».proof.Proof.Gen.KernelIdeal.Skeleton
import proofs.«174402_j5239860101318_2_alg».proof.Proof.Gen.KernelIdeal.Points
import proofs.«174402_j5239860101318_2_alg».proof.Proof.Gen.KernelIdeal.Loops
import proofs.«174402_j5239860101318_2_alg».proof.Proof.KernelIdeal.Attention
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HeadLoop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The loop runs sixteen trips. -/
theorem trips_eq : k1_t1_loop.trips = 16 := by decide

/-- Head k's slab of the query tile, of the keys (and of the values), and of the output weight. -/
abbrev slabQ (k : Fin k1_t1_loop.trips) : Rect S1x16x256x64 := Rect.unit (s := S1x16x256x64) (k1_off1 k) S1x1x256x64.size (k1_off1_inb k)
abbrev slabKV (k : Fin k1_t1_loop.trips) : Rect S1x16x2048x64 := Rect.unit (s := S1x16x2048x64) (k1_off2 k) S1x1x2048x64.size (k1_off2_inb k)
abbrev slabW (k : Fin k1_t1_loop.trips) : Rect S16x64x1024 := Rect.unit (s := S16x64x1024) (k1_off3 k) S1x64x1024.size (k1_off3_inb k)

/-- One trip, from what the four operands' buffers hold: the head step of the four slabs. -/
theorem tripR_eq (𝒱 : Variants) (c : Dev nD) (bd : Option 𝒱.V) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (X2 : BufTy.Contents (Elt F) arg2.view.ty) (X3 : BufTy.Contents (Elt F) arg3.view.ty) (X4 : BufTy.Contents (Elt F) arg4.view.ty) (X5 : BufTy.Contents (Elt F) arg5.view.ty)
    (k : Fin k1_t1_loop.trips) (acc : FVec F S256x1024 .f32) :
    tripR_k1_t1 (F := F) 𝒱 c bd i arg2 harg2 arg3 harg3 arg4 harg4 arg5 harg5 arg6 harg6 arg7 harg7 X2 X3 X4 X5 k acc
      = k1_pay2 acc (View.readAt (Elt F) arg2.view (slabQ k).toLoadRect X2) (View.readAt (Elt F) arg3.view (slabKV k).toLoadRect X3)
          (View.readAt (Elt F) arg4.view (slabKV k).toLoadRect X4) (View.readAt (Elt F) arg5.view (slabW k).toLoadRect X5) := by
  unfold tripR_k1_t1 trip_k1_t1
  rfl

/-- A slab of a block given by its read contents is those contents at the head's coordinate. -/
theorem slabQ_apply (x0 : Vec F S1x16x256x64 .bf16) (k : Fin k1_t1_loop.trips) (r : Fin 256) (c' : Fin 64) :
    View.ld x0 (slabQ k) (ix4 (0 : Fin 1) (0 : Fin 1) r c') = x0 (ix4 (0 : Fin 1) (⟨k.val, trips_eq ▸ k.isLt⟩ : Fin 16) r c') := by
  have e := k1_off1_eq k
  refine congrArg x0 (funext fun a => Fin.ext ?_)
  match a with
  | ⟨0, _⟩ => show (k1_off1 k) 0 + 1 * 0 = 0; rw [e]; rfl
  | ⟨1, _⟩ => show (k1_off1 k) 1 + 1 * 0 = k.val; rw [e]; rfl
  | ⟨2, _⟩ => show (k1_off1 k) 2 + 1 * r.val = r.val; rw [e]; show 0 + 1 * r.val = r.val; omega
  | ⟨3, _⟩ => show (k1_off1 k) 3 + 1 * c'.val = c'.val; rw [e]; show 0 + 1 * c'.val = c'.val; omega
theorem slabKV_apply (x1 : Vec F S1x16x2048x64 .bf16) (k : Fin k1_t1_loop.trips) (n : Fin 2048) (c' : Fin 64) :
    View.ld x1 (slabKV k) (ix4 (0 : Fin 1) (0 : Fin 1) n c') = x1 (ix4 (0 : Fin 1) (⟨k.val, trips_eq ▸ k.isLt⟩ : Fin 16) n c') := by
  have e := k1_off2_eq k
  refine congrArg x1 (funext fun a => Fin.ext ?_)
  match a with
  | ⟨0, _⟩ => show (k1_off2 k) 0 + 1 * 0 = 0; rw [e]; rfl
  | ⟨1, _⟩ => show (k1_off2 k) 1 + 1 * 0 = k.val; rw [e]; rfl
  | ⟨2, _⟩ => show (k1_off2 k) 2 + 1 * n.val = n.val; rw [e]; show 0 + 1 * n.val = n.val; omega
  | ⟨3, _⟩ => show (k1_off2 k) 3 + 1 * c'.val = c'.val; rw [e]; show 0 + 1 * c'.val = c'.val; omega
theorem slabW_apply (x3 : Vec F S16x64x1024 .bf16) (k : Fin k1_t1_loop.trips) (c' : Fin 64) (e' : Fin 1024) :
    View.ld x3 (slabW k) (ix3 (0 : Fin 1) c' e') = x3 (ix3 (⟨k.val, trips_eq ▸ k.isLt⟩ : Fin 16) c' e') := by
  have e := k1_off3_eq k
  refine congrArg x3 (funext fun a => Fin.ext ?_)
  match a with
  | ⟨0, _⟩ => show (k1_off3 k) 0 + 1 * 0 = k.val; rw [e]; rfl
  | ⟨1, _⟩ => show (k1_off3 k) 1 + 1 * c'.val = c'.val; rw [e]; show 0 + 1 * c'.val = c'.val; omega
  | ⟨2, _⟩ => show (k1_off3 k) 2 + 1 * e'.val = e'.val; rw [e]; show 0 + 1 * e'.val = e'.val; omega

/-! ## Sixteen trips add sixteen contributions -/

/-- If one trip at head k adds step k to the accumulator entry by entry, then n trips from init leave init plus the
    sum of the first n steps. -/
theorem st_sum (𝒱 : Variants) (c : Dev nD) (bd : Option 𝒱.V) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (init : FVec Ideal S256x1024 .f32) (step : Fin 16 → Fin 256 → Fin 1024 → EReal)
    (hstep : ∀ (k : Fin k1_t1_loop.trips) (acc : FVec Ideal S256x1024 .f32) (r : Fin 256) (e : Fin 1024),
      tripR_k1_t1 (F := Ideal) 𝒱 c bd i arg2 harg2 arg3 harg3 arg4 harg4 arg5 harg5 arg6 harg6 arg7 harg7 X2 X3 X4 X5 k acc (ix2 r e) = acc (ix2 r e) + step ⟨k.val, trips_eq ▸ k.isLt⟩ r e)
    (r : Fin 256) (e : Fin 1024) : ∀ n : Nat, n ≤ 16 →
      st_k1_t1 (F := Ideal) 𝒱 c bd i arg2 harg2 arg3 harg3 arg4 harg4 arg5 harg5 arg6 harg6 arg7 harg7 X2 X3 X4 X5 init n (ix2 r e)
        = init (ix2 r e) + ∑ k ∈ Finset.range n, (if h : k < 16 then step ⟨k, h⟩ r e else 0)
  | 0, _ => by rw [st_k1_t1_zero, Finset.sum_range_zero, add_zero]
  | n + 1, hn => by
      have hn' : n < k1_t1_loop.trips := by rw [trips_eq]; omega
      have hs := st_k1_t1_succ (F := Ideal) 𝒱 c bd i arg2 harg2 arg3 harg3 arg4 harg4 arg5 harg5 arg6 harg6 arg7 harg7 X2 X3 X4 X5 init ⟨n, hn'⟩
      rw [show n + 1 = (⟨n, hn'⟩ : Fin k1_t1_loop.trips).val + 1 from rfl, hs, hstep,
        st_sum 𝒱 c bd i arg2 harg2 arg3 harg3 arg4 harg4 arg5 harg5 arg6 harg6 arg7 harg7 X2 X3 X4 X5 init step hstep r e n (by omega), Finset.sum_range_succ, dif_pos (show n < 16 by omega), add_assoc]

/-- Hence all sixteen trips leave init plus the sum over the sixteen heads. -/
theorem st_all (𝒱 : Variants) (c : Dev nD) (bd : Option 𝒱.V) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
    (init : FVec Ideal S256x1024 .f32) (step : Fin 16 → Fin 256 → Fin 1024 → EReal)
    (hstep : ∀ (k : Fin k1_t1_loop.trips) (acc : FVec Ideal S256x1024 .f32) (r : Fin 256) (e : Fin 1024),
      tripR_k1_t1 (F := Ideal) 𝒱 c bd i arg2 harg2 arg3 harg3 arg4 harg4 arg5 harg5 arg6 harg6 arg7 harg7 X2 X3 X4 X5 k acc (ix2 r e) = acc (ix2 r e) + step ⟨k.val, trips_eq ▸ k.isLt⟩ r e)
    (r : Fin 256) (e : Fin 1024) :
    st_k1_t1 (F := Ideal) 𝒱 c bd i arg2 harg2 arg3 harg3 arg4 harg4 arg5 harg5 arg6 harg6 arg7 harg7 X2 X3 X4 X5 init (Scf.trips k1_t1_loop.lb k1_t1_loop.ub k1_t1_loop.st) (ix2 r e)
      = init (ix2 r e) + ∑ h : Fin 16, step h r e := by
  rw [show Scf.trips k1_t1_loop.lb k1_t1_loop.ub k1_t1_loop.st = 16 from trips_eq,
    st_sum 𝒱 c bd i arg2 harg2 arg3 harg3 arg4 harg4 arg5 harg5 arg6 harg6 arg7 harg7 X2 X3 X4 X5 init step hstep r e 16 (le_refl _), ← Fin.sum_univ_eq_sum_range (fun k => if h : k < 16 then step ⟨k, h⟩ r e else 0) 16]
  refine congrArg (init (ix2 r e) + ·) (Finset.sum_congr rfl fun h _ => ?_)
  rw [dif_pos h.isLt]

end Cert.KernelIdeal.HeadLoop

end
-- ==== Proof.Spec.lean ====
/-
  Multi-head self-attention over the extended reals, as ONE function of the nine argument arrays: the statement both
  programs are compared with.  With x of shape 2 x 2048 x 1024, four 1024 x 1024 weights and four bias vectors,
  16 heads of width 64 (column h*64 + c of the model dimension is head h's column c):

    proj x W b  (batch, head, row, column)  =  sum over d of x[batch, row, d] * W[d, h*64+c]  +  b[h*64+c]
    score       (batch, head, row n, row m) =  (sum over c of q[.., n, c] * k[.., m, c]) * 1/8
    soft        = the row softmax: subtract the row's maximum, exponentiate, divide by the row's sum
    headOut     (batch, head, row, column)  =  sum over m of soft[n, m] * v[.., m, c]
    mha         [batch, row, e]             =  sum over heads h and columns c of headOut * Wo[h*64+c, e]  +  bo[e]

  The scale 1/8 is written as the binary32 word of 0.125 (exactly one eighth), the row maximum as the fold of max from
  the word of minus infinity (the bottom element), so that each program's own spelling meets it with one law.
-/
import Idealize.ShloMosaic.PureOps.Ideal
import Idealize.ShloMosaic.Lib.ValueIdx

noncomputable section

open scoped BigOperators

namespace Cert.Mha

open Idealize.ShloMosaic Idealize.ShloMosaic.ValueIdx

/-- Column c of head h in the model dimension. -/
def col (h : Fin 16) (c : Fin 64) : Fin 1024 := ⟨h.val * 64 + c.val, by omega⟩

abbrev Act : Type := (⟨3, ![2, 2048, 1024]⟩ : Shape).Idx → EReal
abbrev Mat : Type := (⟨2, ![1024, 1024]⟩ : Shape).Idx → EReal
abbrev Vc : Type := (⟨1, ![1024]⟩ : Shape).Idx → EReal
/-- A per-head array: batch, head, row, column. -/
abbrev Heads : Type := Fin 2 → Fin 16 → Fin 2048 → Fin 64 → EReal

/-- One projection, laid out by head. -/
def proj (x : Act) (W : Mat) (b : Vc) : Heads := fun bb h n c =>
  (∑ d : Fin 1024, x (ix3 bb n d) * W (ix2 d (col h c))) + b (ix1 (col h c))

/-- The scaled scores of query row n against key row m. -/
def score (q k : Heads) (bb : Fin 2) (h : Fin 16) (n m : Fin 2048) : EReal :=
  (∑ c : Fin 64, q bb h n c * k bb h m c) * Ideal.ofBits .f32 0x3E000000#32

/-- A row's maximum, from minus infinity. -/
def rowMax (s : Fin 2048 → EReal) : EReal :=
  (Finset.univ : Finset (Fin 2048)).fold max (Ideal.ofBits .f32 0xFF800000#32) s

/-- The row shifted by its maximum and exponentiated. -/
def expo (s : Fin 2048 → EReal) (m : Fin 2048) : EReal := Ideal.exp (s m - rowMax s)

/-- The row softmax. -/
def soft (s : Fin 2048 → EReal) (m : Fin 2048) : EReal := Ideal.div (expo s m) (∑ m' : Fin 2048, expo s m')

/-- One head's attention output. -/
def headOut (q k v : Heads) : Heads := fun bb h n c =>
  ∑ m : Fin 2048, soft (score q k bb h n) m * v bb h m c

/-- The result at (batch, row, output column). -/
def mhaAt (x : Act) (Wq : Mat) (bq : Vc) (Wk : Mat) (bk : Vc) (Wv : Mat) (bv : Vc) (Wo : Mat) (bo : Vc)
    (bb : Fin 2) (n : Fin 2048) (e : Fin 1024) : EReal :=
  (∑ h : Fin 16, ∑ c : Fin 64, headOut (proj x Wq bq) (proj x Wk bk) (proj x Wv bv) bb h n c * Wo (ix2 (col h c) e)) + bo (ix1 e)

/-- The result array. -/
def mha (x : Act) (Wq : Mat) (bq : Vc) (Wk : Mat) (bk : Vc) (Wv : Mat) (bv : Vc) (Wo : Mat) (bo : Vc) : Act :=
  fun i => mhaAt x Wq bq Wk bk Wv bv Wo bo (i 0) (i 1) (i 2)

end Cert.Mha

end
-- ==== Proof.KernelIdeal.AttnValue.lean ====
/-
  The attention region's result array as ONE function of the arrays the region is entered from.  At a grid point
  (batch b, query tile j) the body's one store leaves, at row r and output column e of the tile, the sum over the
  sixteen heads h and the head's 64 columns c of  headOut[b, h, j*256 + r, c] * wo[h, c, e],  plus the bias at e —
  where headOut is the row softmax of the scaled scores of the tile's query rows against all 2048 key rows, applied
  to the values.  The sixteen tiles of each batch tile the result array, so the array ends holding that function
  everywhere.
-/
import proofs.«174402_j5239860101318_2_alg».proof.Proof.Gen.KernelIdeal.Launch
import proofs.«174402_j5239860101318_2_alg».proof.Proof.Gen.KernelIdeal.Skeleton
import proofs.«174402_j5239860101318_2_alg».proof.Proof.Gen.KernelIdeal.Points
import proofs.«174402_j5239860101318_2_alg».proof.Proof.Gen.KernelIdeal.Loops
import proofs.«174402_j5239860101318_2_alg».proof.Proof.KernelIdeal.HeadLoop
import proofs.«174402_j5239860101318_2_alg».proof.Proof.Spec
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AttnValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.HeadLoop Cert.KernelIdeal.Attention

theorem hz3 : (![0, 0, 0] : Fin 3 → Nat) = fun _ => 0 := funext fun a => by fin_cases a <;> rfl
theorem hz2 : (![0, 0] : Fin 2 → Nat) = fun _ => 0 := funext fun a => by fin_cases a <;> rfl

/-! ## The result as one function of the arrays the region is entered from -/

/-- The result array from the three per-head arrays q, k, v (batch, head, row, column), the output weight split by
    head (head, column, output column) and the bias row. -/
def GA (q k v : S2x16x2048x64.Idx → EReal) (wo : S16x64x1024.Idx → EReal) (bo : S1x1024.Idx → EReal) : S2x2048x1024.Idx → EReal := fun i =>
  (∑ h : Fin 16, ∑ c' : Fin 64, Cert.Mha.headOut (fun bb h n c => q (ix4 bb h n c)) (fun bb h n c => k (ix4 bb h n c)) (fun bb h n c => v (ix4 bb h n c)) (i 0) h (i 1) c' * wo (ix3 h c' (i 2)))
    + bo (ix2 (0 : Fin 1) (i 2))

/-! ## The index maps, decided once over the sixteen grid points -/

/-- The query window moves with the output tile (batch on axis 0, tile on the row axis); the key and value windows
    follow the batch only; the weight and the bias are whole; the output's block indices stay in range. -/
theorem idx_facts : ∀ t : Fin cfg1.N,
    win1_0.index t (0 : Fin 4) = win1_5.index t (0 : Fin 3) ∧ win1_0.index t (1 : Fin 4) = 0
    ∧ win1_0.index t (2 : Fin 4) = win1_5.index t (1 : Fin 3) ∧ win1_0.index t (3 : Fin 4) = 0
    ∧ win1_1.index t (0 : Fin 4) = win1_5.index t (0 : Fin 3) ∧ win1_1.index t (1 : Fin 4) = 0
    ∧ win1_1.index t (2 : Fin 4) = 0 ∧ win1_1.index t (3 : Fin 4) = 0
    ∧ win1_2.index t (0 : Fin 4) = win1_5.index t (0 : Fin 3) ∧ win1_2.index t (1 : Fin 4) = 0
    ∧ win1_2.index t (2 : Fin 4) = 0 ∧ win1_2.index t (3 : Fin 4) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) ≤ 1 ∧ win1_5.index t (1 : Fin 3) ≤ 7 ∧ win1_5.index t (2 : Fin 3) = 0 :=
  (by decide +kernel : ∀ t : Fin grid1.N, _)

/-- Every tile of every batch is some point's. -/
theorem idx_onto : ∀ (q0 : Fin 2) (q1 : Fin 8), ∃ t : Fin cfg1.N, win1_5.index t = ![q0.val, q1.val, 0] :=
  (by decide +kernel : ∀ (q0 : Fin 2) (q1 : Fin 8), ∃ t : Fin grid1.N, win1_5.index t = ![q0.val, q1.val, 0])

/-! ## Each window's block at a point, read in the array's coordinates -/

section Blocks
variable (V : (c : Dev nD) → (b : Ref sig .tc) → Buf (Elt Ideal) ((c : Thread nD τ).loc b)) (c : Dev nD) (t : Fin cfg1.N)

theorem blkQ (h : Fin 16) (r : Fin 256) (c' : Fin 64) (bb : Fin 2) (n : Fin 2048)
    (hb : bb.val = win1_5.index t (0 : Fin 3)) (hn : n.val = win1_5.index t (1 : Fin 3) * 256 + r.val) :
    iblk V c 0 t (ix4 (0 : Fin 1) h r c') = V c main_v19_0 (ix4 bb h n c') := by
  obtain ⟨e0, e1, e2, e3, -⟩ := idx_facts t
  show V c main_v19_0 (((cfg1.win 0).blk t).view.emb (ix4 (0 : Fin 1) h r c')) = _
  refine congrArg (V c main_v19_0) (funext fun a => Fin.ext ?_)
  match a with
  | ⟨0, _⟩ => show win1_0.index t (0 : Fin 4) * 1 + 1 * 0 = bb.val; omega
  | ⟨1, _⟩ => show win1_0.index t (1 : Fin 4) * 16 + 1 * h.val = h.val; omega
  | ⟨2, _⟩ => show win1_0.index t (2 : Fin 4) * 256 + 1 * r.val = n.val; omega
  | ⟨3, _⟩ => show win1_0.index t (3 : Fin 4) * 64 + 1 * c'.val = c'.val; omega

theorem blkK (h : Fin 16) (m : Fin 2048) (c' : Fin 64) (bb : Fin 2) (hb : bb.val = win1_5.index t (0 : Fin 3)) :
    iblk V c 1 t (ix4 (0 : Fin 1) h m c') = V c main_v19_1 (ix4 bb h m c') := by
  obtain ⟨-, -, -, -, e0, e1, e2, e3, -⟩ := idx_facts t
  show V c main_v19_1 (((cfg1.win 1).blk t).view.emb (ix4 (0 : Fin 1) h m c')) = _
  refine congrArg (V c main_v19_1) (funext fun a => Fin.ext ?_)
  match a with
  | ⟨0, _⟩ => show win1_1.index t (0 : Fin 4) * 1 + 1 * 0 = bb.val; omega
  | ⟨1, _⟩ => show win1_1.index t (1 : Fin 4) * 16 + 1 * h.val = h.val; omega
  | ⟨2, _⟩ => show win1_1.index t (2 : Fin 4) * 2048 + 1 * m.val = m.val; omega
  | ⟨3, _⟩ => show win1_1.index t (3 : Fin 4) * 64 + 1 * c'.val = c'.val; omega

theorem blkV (h : Fin 16) (m : Fin 2048) (c' : Fin 64) (bb : Fin 2) (hb : bb.val = win1_5.index t (0 : Fin 3)) :
    iblk V c 2 t (ix4 (0 : Fin 1) h m c') = V c main_v19_2 (ix4 bb h m c') := by
  obtain ⟨-, -, -, -, -, -, -, -, e0, e1, e2, e3, -⟩ := idx_facts t
  show V c main_v19_2 (((cfg1.win 2).blk t).view.emb (ix4 (0 : Fin 1) h m c')) = _
  refine congrArg (V c main_v19_2) (funext fun a => Fin.ext ?_)
  match a with
  | ⟨0, _⟩ => show win1_2.index t (0 : Fin 4) * 1 + 1 * 0 = bb.val; omega
  | ⟨1, _⟩ => show win1_2.index t (1 : Fin 4) * 16 + 1 * h.val = h.val; omega
  | ⟨2, _⟩ => show win1_2.index t (2 : Fin 4) * 2048 + 1 * m.val = m.val; omega
  | ⟨3, _⟩ => show win1_2.index t (3 : Fin 4) * 64 + 1 * c'.val = c'.val; omega

theorem blkW (h : Fin 16) (c' : Fin 64) (e e' : Fin 1024) (he : e'.val = e.val) :
    iblk V c 3 t (ix3 h c' e) = V c main_v21 (ix3 h c' e') := by
  obtain ⟨-, -, -, -, -, -, -, -, -, -, -, -, e0, e1, e2, -⟩ := idx_facts t
  show V c main_v21 (((cfg1.win 3).blk t).view.emb (ix3 h c' e)) = _
  refine congrArg (V c main_v21) (funext fun a => Fin.ext ?_)
  match a with
  | ⟨0, _⟩ => show win1_3.index t (0 : Fin 3) * 16 + 1 * h.val = h.val; omega
  | ⟨1, _⟩ => show win1_3.index t (1 : Fin 3) * 64 + 1 * c'.val = c'.val; omega
  | ⟨2, _⟩ => show win1_3.index t (2 : Fin 3) * 1024 + 1 * e.val = e'.val; omega

theorem blkB (e e' : Fin 1024) (he : e'.val = e.val) :
    iblk V c 4 t (ix2 (0 : Fin 1) e) = V c main_v22 (ix2 (0 : Fin 1) e') := by
  obtain ⟨-, -, -, -, -, -, -, -, -, -, -, -, -, -, -, e0, e1, -⟩ := idx_facts t
  show V c main_v22 (((cfg1.win 4).blk t).view.emb (ix2 (0 : Fin 1) e)) = _
  refine congrArg (V c main_v22) (funext fun a => Fin.ext ?_)
  match a with
  | ⟨0, _⟩ => show win1_4.index t (0 : Fin 2) * 1 + 1 * 0 = 0; omega
  | ⟨1, _⟩ => show win1_4.index t (1 : Fin 2) * 1024 + 1 * e.val = e'.val; omega

end Blocks

/-- A tile entry written through the blocks equals the closed form at the array's coordinates, given that each block
    entry it reads is the corresponding array entry. -/
theorem tile_congr (q k v : S2x16x2048x64.Idx → EReal) (wo : S16x64x1024.Idx → EReal) (bo : S1x1024.Idx → EReal)
    (x0 : Vec Ideal S1x16x256x64 .bf16) (x1 : Vec Ideal S1x16x2048x64 .bf16) (x2 : Vec Ideal S1x16x2048x64 .bf16) (x3 : Vec Ideal S16x64x1024 .bf16) (x4 : Vec Ideal S1x1024 .f32)
    (bb : Fin 2) (n : Fin 2048) (r : Fin 256) (e e' : Fin 1024)
    (hQ : ∀ (h : Fin 16) (c' : Fin 64), x0 (ix4 (0 : Fin 1) h r c') = q (ix4 bb h n c'))
    (hK : ∀ (h : Fin 16) (m : Fin 2048) (c' : Fin 64), x1 (ix4 (0 : Fin 1) h m c') = k (ix4 bb h m c'))
    (hV : ∀ (h : Fin 16) (m : Fin 2048) (c' : Fin 64), x2 (ix4 (0 : Fin 1) h m c') = v (ix4 bb h m c'))
    (hW : ∀ (h : Fin 16) (c' : Fin 64), x3 (ix3 h c' e) = wo (ix3 h c' e'))
    (hB : x4 (ix2 (0 : Fin 1) e) = bo (ix2 (0 : Fin 1) e')) :
    (∑ h : Fin 16, ∑ c' : Fin 64, (∑ m : Fin 2048, Cert.Mha.soft (fun m' : Fin 2048 => (∑ c'' : Fin 64, x0 (ix4 (0 : Fin 1) h r c'') * x1 (ix4 (0 : Fin 1) h m' c'')) * Ideal.ofBits .f32 0x3E000000#32) m * x2 (ix4 (0 : Fin 1) h m c')) * x3 (ix3 h c' e)) + x4 (ix2 (0 : Fin 1) e)
      = (∑ h : Fin 16, ∑ c' : Fin 64, Cert.Mha.headOut (fun bb h n c => q (ix4 bb h n c)) (fun bb h n c => k (ix4 bb h n c)) (fun bb h n c => v (ix4 bb h n c)) bb h n c' * wo (ix3 h c' e'))
          + bo (ix2 (0 : Fin 1) e') := by
  unfold Cert.Mha.headOut Cert.Mha.score
  refine congrArg₂ (· + ·) (Finset.sum_congr rfl fun h _ => Finset.sum_congr rfl fun c' _ => ?_) hB
  refine congrArg₂ (· * ·) (Finset.sum_congr rfl fun m _ => ?_) (hW h c')
  refine congrArg₂ (· * ·) ?_ (hV h m c')
  refine congrArg (fun s => Cert.Mha.soft s m) (funext fun m' => ?_)
  refine congrArg (· * _) (Finset.sum_congr rfl fun c'' _ => ?_)
  exact congrArg₂ (· * ·) (hQ h c'') (hK h m' c'')

/-! ## The tiles cover the result array -/

/-- An index of the result array is in point t's tile iff each coordinate is in the tile's range on its axis. -/
theorem mem_blk (t : Fin cfg1.N) (i : S2x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v23).slice (win1_5.rect t)).set ↔ _
  rw [View.set_slice_whole, Rect.mem_set_unit]
  exact Iff.rfl

/-- Row n of batch b lies in the tile n / 256 of that batch. -/
theorem cover (i : S2x2048x1024.Idx) : ∃ t : Fin cfg1.N, (cfg1.win 5).flush t = true ∧ i ∈ ((cfg1.win 5).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

section
-- One head step read at an index, taken here as hypotheses: the start value is zero; a trip adds the head's
-- contribution (the row softmax of the scaled scores applied to the values, times the head's weight slice); the
-- final store adds the bias row.  The module on the head step proves the three.
variable (pay1_apply : ∀ (r : Fin 256) (e : Fin 1024), (k1_pay1 (F := Ideal)) (ix2 r e) = 0)
variable (pay2_apply : ∀ (acc : FVec Ideal S256x1024 .f32) (v11 : Vec Ideal S1x1x256x64 .bf16) (v14 v17 : Vec Ideal S1x1x2048x64 .bf16) (v35 : Vec Ideal S1x64x1024 .bf16) (r : Fin 256) (e : Fin 1024),
      k1_pay2 acc v11 v14 v17 v35 (ix2 r e)
        = acc (ix2 r e) + ∑ c : Fin 64, (∑ m : Fin 2048, Cert.Mha.soft (fun m' : Fin 2048 => (∑ c' : Fin 64, v11 (ix4 0 0 r c') * v14 (ix4 0 0 m' c')) * Ideal.ofBits .f32 0x3E000000#32) m * v17 (ix4 0 0 m c)) * v35 (ix3 0 c e))
variable (pay3_apply : ∀ (v2 : FVec Ideal S256x1024 .f32) (v3 : Vec Ideal S1x1024 .f32) (r : Fin 256) (e : Fin 1024),
      k1_pay3 v2 v3 (ix3 0 r e) = v2 (ix2 r e) + v3 (ix2 0 e))

include pay1_apply pay2_apply pay3_apply

/-! ## The tile after the body, entry by entry -/

/-- The accumulator after the sixteen heads, at row r and column e of the tile: the sum of the heads' contributions,
    each read off the head's slab of the four blocks. -/
theorem heads_apply (c : Dev nD) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec Ideal S1x16x256x64 .bf16) (x1 : Vec Ideal S1x16x2048x64 .bf16) (x2 : Vec Ideal S1x16x2048x64 .bf16) (x3 : Vec Ideal S16x64x1024 .bf16)
    (r : Fin 256) (e : Fin 1024) :
    heads (F := Ideal) c i arg2 harg2 arg3 harg3 arg4 harg4 arg5 harg5 arg6 harg6 arg7 harg7 x0 x1 x2 x3 (ix2 r e)
      = ∑ h : Fin 16, ∑ c' : Fin 64, (∑ m : Fin 2048, Cert.Mha.soft (fun m' : Fin 2048 => (∑ c'' : Fin 64, x0 (ix4 (0 : Fin 1) h r c'') * x1 (ix4 (0 : Fin 1) h m' c'')) * Ideal.ofBits .f32 0x3E000000#32) m * x2 (ix4 (0 : Fin 1) h m c')) * x3 (ix3 h c' e) := by
  unfold heads
  rw [st_all Variants.none c none i arg2 harg2 arg3 harg3 arg4 harg4 arg5 harg5 arg6 harg6 arg7 harg7 _ _ _ _ k1_pay1
    (fun h r e => ∑ c' : Fin 64, (∑ m : Fin 2048, Cert.Mha.soft (fun m' : Fin 2048 => (∑ c'' : Fin 64, x0 (ix4 (0 : Fin 1) h r c'') * x1 (ix4 (0 : Fin 1) h m' c'')) * Ideal.ofBits .f32 0x3E000000#32) m * x2 (ix4 (0 : Fin 1) h m c')) * x3 (ix3 h c' e)) ?_ r e, pay1_apply, zero_add]
  intro k acc r e
  rw [tripR_eq, View.readAt_eq_ld, View.readAt_eq_ld, View.readAt_eq_ld, View.readAt_eq_ld,
    Memref.IsWhole.read_unread, Memref.IsWhole.read_unread, Memref.IsWhole.read_unread, Memref.IsWhole.read_unread, pay2_apply]
  refine congrArg (acc (ix2 r e) + ·) (Finset.sum_congr rfl fun c' _ => ?_)
  rw [slabW_apply]
  refine congrArg (· * _) (Finset.sum_congr rfl fun m _ => ?_)
  rw [slabKV_apply]
  refine congrArg (· * _) ?_
  refine congrArg (fun s => Cert.Mha.soft s m) (funext fun m' => ?_)
  refine congrArg (· * _) (Finset.sum_congr rfl fun c'' _ => ?_)
  rw [slabQ_apply, slabKV_apply]

/-- The stored tile at row r, column e: the sixteen heads' sum plus the bias. -/
theorem outO_apply (c : Dev nD) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec Ideal S1x16x256x64 .bf16) (x1 : Vec Ideal S1x16x2048x64 .bf16) (x2 : Vec Ideal S1x16x2048x64 .bf16) (x3 : Vec Ideal S16x64x1024 .bf16) (x4 : Vec Ideal S1x1024 .f32)
    (r : Fin 256) (e : Fin 1024) :
    outO (F := Ideal) c i arg2 harg2 arg3 harg3 arg4 harg4 arg5 harg5 arg6 harg6 arg7 harg7 x0 x1 x2 x3 x4 (ix3 (0 : Fin 1) r e)
      = (∑ h : Fin 16, ∑ c' : Fin 64, (∑ m : Fin 2048, Cert.Mha.soft (fun m' : Fin 2048 => (∑ c'' : Fin 64, x0 (ix4 (0 : Fin 1) h r c'') * x1 (ix4 (0 : Fin 1) h m' c'')) * Ideal.ofBits .f32 0x3E000000#32) m * x2 (ix4 (0 : Fin 1) h m c')) * x3 (ix3 h c' e)) + x4 (ix2 (0 : Fin 1) e) := by
  unfold outO
  rw [View.canon_unit_zero hz3, pay3_apply, heads_apply pay1_apply pay2_apply pay3_apply, View.ld_unit_zero (S := S1x1024) hz2]

/-- The stored tile as one function of its block index. -/
theorem outO_eq (c : Dev nD) (i : grid1.Coords)
    (arg2 : Memref sig .tc .vmem S1x16x256x64 .bf16) (harg2 : arg2.IsWhole) (arg3 : Memref sig .tc .vmem S1x16x2048x64 .bf16) (harg3 : arg3.IsWhole)
    (arg4 : Memref sig .tc .vmem S1x16x2048x64 .bf16) (harg4 : arg4.IsWhole) (arg5 : Memref sig .tc .vmem S16x64x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec Ideal S1x16x256x64 .bf16) (x1 : Vec Ideal S1x16x2048x64 .bf16) (x2 : Vec Ideal S1x16x2048x64 .bf16) (x3 : Vec Ideal S16x64x1024 .bf16) (x4 : Vec Ideal S1x1024 .f32) :
    outO (F := Ideal) c i arg2 harg2 arg3 harg3 arg4 harg4 arg5 harg5 arg6 harg6 arg7 harg7 x0 x1 x2 x3 x4
      = fun y : S1x256x1024.Idx => (∑ h : Fin 16, ∑ c' : Fin 64, (∑ m : Fin 2048, Cert.Mha.soft (fun m' : Fin 2048 => (∑ c'' : Fin 64, x0 (ix4 (0 : Fin 1) h (y 1 : Fin 256) c'') * x1 (ix4 (0 : Fin 1) h m' c'')) * Ideal.ofBits .f32 0x3E000000#32) m * x2 (ix4 (0 : Fin 1) h m c')) * x3 (ix3 h c' (y 2 : Fin 1024))) + x4 (ix2 (0 : Fin 1) (y 2 : Fin 1024)) := by
  funext y
  obtain ⟨a, r, e, rfl⟩ : ∃ (a : Fin 1) (r : Fin 256) (e : Fin 1024), y = ix3 a r e := ⟨y 0, y 1, y 2, eq_ix3 y⟩
  obtain rfl : a = 0 := Subsingleton.elim _ _
  exact outO_apply pay1_apply pay2_apply pay3_apply c i arg2 harg2 arg3 harg3 arg4 harg4 arg5 harg5 arg6 harg6 arg7 harg7 x0 x1 x2 x3 x4 r e

set_option maxHeartbeats 1000000 in
/-- WHAT POINT t WRITES BACK is tile t of GA of the arrays the region is entered from. -/
theorem flushed_eq (V : (c : Dev nD) → (b : Ref sig .tc) → Buf (Elt Ideal) ((c : Thread nD τ).loc b)) (c : Dev nD) (t : Fin cfg1.N) :
    (dat (F := Ideal) V c).flushed 5 t
      = ((cfg1.win 5).blk t).view.read (Elt Ideal) (GA (V c main_v19_0) (V c main_v19_1) (V c main_v19_2) (V c main_v21) (V c main_v22)) := by
  show (cfg1.win 5).cut (grid1.coords t) ((dat V c).after 5 t) = _
  rw [after_5]
  refine (outO_eq pay1_apply pay2_apply pay3_apply c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (iblk V c 0 t) (iblk V c 1 t) (iblk V c 2 t) (iblk V c 3 t) (iblk V c 4 t)).trans ?_
  funext j
  obtain ⟨-, -, -, -, -, -, -, -, -, -, -, -, -, -, -, -, -, f0, f1, f2⟩ := idx_facts t
  -- the tile's element j sits in the array at (batch, tile * 256 + row, column)
  have hb : (((cfg1.win 5).blk t).view.emb j (0 : Fin 3)).val = win1_5.index t (0 : Fin 3) := by
    show win1_5.index t (0 : Fin 3) * 1 + 1 * (j 0).val = _; have : (j 0).val < 1 := (j 0).isLt; omega
  have hn : (((cfg1.win 5).blk t).view.emb j (1 : Fin 3)).val = win1_5.index t (1 : Fin 3) * 256 + (j 1).val := by
    show win1_5.index t (1 : Fin 3) * 256 + 1 * (j 1).val = _; omega
  have he : (((cfg1.win 5).blk t).view.emb j (2 : Fin 3)).val = (j 2).val := by
    show win1_5.index t (2 : Fin 3) * 1024 + 1 * (j 2).val = _; omega
  exact tile_congr (V c main_v19_0) (V c main_v19_1) (V c main_v19_2) (V c main_v21) (V c main_v22)
    (iblk V c 0 t) (iblk V c 1 t) (iblk V c 2 t) (iblk V c 3 t) (iblk V c 4 t)
    (((cfg1.win 5).blk t).view.emb j (0 : Fin 3)) (((cfg1.win 5).blk t).view.emb j (1 : Fin 3)) (j 1) (j 2) (((cfg1.win 5).blk t).view.emb j (2 : Fin 3))
    (fun h c' => blkQ V c t h _ c' _ _ hb hn) (fun h m c' => blkK V c t h m c' _ hb) (fun h m c' => blkV V c t h m c' _ hb)
    (fun h c' => blkW V c t h c' _ _ he) (blkB V c t _ _ he)

/-- THE RESULT ARRAY after the region: GA of the arrays it was entered from. -/
theorem attn_final (V : (c : Dev nD) → (b : Ref sig .tc) → Buf (Elt Ideal) ((c : Thread nD τ).loc b)) (c : Dev nD) :
    (dat (F := Ideal) V c).arrAt 5 cfg1.N = GA (V c main_v19_0) (V c main_v19_1) (V c main_v19_2) (V c main_v21) (V c main_v22) :=
  (dat (F := Ideal) V c).arrAt_eq_of_cover 5 _ (fun t _ => flushed_eq pay1_apply pay2_apply pay3_apply V c t) cover

end

end Cert.KernelIdeal.AttnValue

end
-- ==== Proof.KernelIdeal.HeadStep.lean ====
/-
  One trip of the attention region's head loop read at an index, at the ideal values: the zero the loop starts from,
  the step (scores, row softmax, weighted values, output projection, added to the carried accumulator) and the bias
  row added after the loop. Pure mathematics over vectors of literal shapes.
-/
import proofs.«174402_j5239860101318_2_alg».proof.Proof.Gen.KernelIdeal.Skeleton
import proofs.«174402_j5239860101318_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HeadStep

open Cert.KernelIdeal Cert.KernelIdeal.Gen Idealize.ShloMosaic Idealize.ShloMosaic.ValueIdx

/-! ## Layout operations at an index -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The value the loop starts from and the value stored after it -/

/-- The loop starts from the zero accumulator. -/
theorem pay1_apply (r : Fin 256) (e : Fin 1024) : (k1_pay1 (F := Ideal)) (ix2 r e) = 0 :=
  Ideal.ofBits_zero_f32

/-- After the loop the bias row is added to every row of the accumulator. -/
theorem pay3_apply (v2 : FVec Ideal S256x1024 .f32) (v3 : Vec Ideal S1x1024 .f32) (r : Fin 256) (e : Fin 1024) :
    k1_pay3 v2 v3 (ix3 0 r e) = v2 (ix2 r e) + v3 (ix2 0 e) := by
  unfold k1_pay3
  refine (shapeCast_ab_1ab_apply _ _ (0 : Fin 1) r e).trans ?_
  refine (addf_apply _ _ _).trans ?_
  refine congrArg (v2 (ix2 r e) + ·) ?_
  refine (broadcastTo_1b_ab_apply _ _ r e).trans ?_
  rw [shapeCast_self]

/-! ## The three products at an index -/

theorem matmul_scores_apply_lhs0 (i : S256x2048.Idx) (c : dot_S256x64_S64x2048_S256x2048_1_0_0_1_n_n.contr.Idx) : (dot_S256x64_S64x2048_S256x2048_1_0_0_1_n_n.lhsIdx i c 0).val = (i 0).val := by
  unfold DotDims.lhsIdx
  rw [dif_neg (show ¬(0 : Fin S256x64.rank) ∈ dot_S256x64_S64x2048_S256x2048_1_0_0_1_n_n.lhsBatch by decide),
    dif_pos (show (0 : Fin S256x64.rank) ∈ dot_S256x64_S64x2048_S256x2048_1_0_0_1_n_n.lhsNonContracting by decide)]
  rfl
theorem matmul_scores_apply_rhs1 (i : S256x2048.Idx) (c : dot_S256x64_S64x2048_S256x2048_1_0_0_1_n_n.contr.Idx) : (dot_S256x64_S64x2048_S256x2048_1_0_0_1_n_n.rhsIdx i c 1).val = (i 1).val := by
  unfold DotDims.rhsIdx
  rw [dif_neg (show ¬(1 : Fin S64x2048.rank) ∈ dot_S256x64_S64x2048_S256x2048_1_0_0_1_n_n.rhsBatch by decide),
    dif_pos (show (1 : Fin S64x2048.rank) ∈ dot_S256x64_S64x2048_S256x2048_1_0_0_1_n_n.rhsNonContracting by decide)]
  rfl
/-- The query tile times the transposed keys: entry (p, q) is the sum over the head's 64 columns. -/
theorem matmul_scores_apply (lhs : FVec Ideal S256x64 .bf16) (rhs : FVec Ideal S64x2048 .bf16) (p : Fin 256) (q : Fin 2048) :
    matmul dot_S256x64_S64x2048_S256x2048_1_0_0_1_n_n none lhs rhs (constant (F := Ideal) S256x2048 .f32 0x00000000#32) (ix2 p q)
      = ∑ k : Fin 64, lhs (ix2 p k) * rhs (ix2 k q) := by
  refine (Ideal.matmul_constant_zero_apply dot_S256x64_S64x2048_S256x2048_1_0_0_1_n_n none lhs rhs (ix2 p q)).trans ?_
  rw [← Equiv.sum_comp (contrEquiv1 dot_S256x64_S64x2048_S256x2048_1_0_0_1_n_n 64 rfl rfl).symm]
  refine Finset.sum_congr rfl fun k _ => ?_
  have hk := contrEquiv1_symm_val dot_S256x64_S64x2048_S256x2048_1_0_0_1_n_n 64 rfl rfl k
  have el : dot_S256x64_S64x2048_S256x2048_1_0_0_1_n_n.lhsIdx (ix2 p q) ((contrEquiv1 dot_S256x64_S64x2048_S256x2048_1_0_0_1_n_n 64 rfl rfl).symm k) = ix2 p k :=
    funext fun a => Fin.ext (by
      match a with
      | ⟨0, _⟩ => exact matmul_scores_apply_lhs0 _ _
      | ⟨1, _⟩ => exact (dot_S256x64_S64x2048_S256x2048_1_0_0_1_n_n.lhsIdx_val_of_single rfl _ _).trans hk)
  have er : dot_S256x64_S64x2048_S256x2048_1_0_0_1_n_n.rhsIdx (ix2 p q) ((contrEquiv1 dot_S256x64_S64x2048_S256x2048_1_0_0_1_n_n 64 rfl rfl).symm k) = ix2 k q :=
    funext fun a => Fin.ext (by
      match a with
      | ⟨0, _⟩ => exact (dot_S256x64_S64x2048_S256x2048_1_0_0_1_n_n.rhsIdx_val_of_single rfl _ _).trans hk
      | ⟨1, _⟩ => exact matmul_scores_apply_rhs1 _ _)
  rw [el, er]

theorem matmul_values_apply_lhs0 (i : S256x64.Idx) (c : dot_S256x2048_S2048x64_S256x64_1_0_0_1_n_n.contr.Idx) : (dot_S256x2048_S2048x64_S256x64_1_0_0_1_n_n.lhsIdx i c 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem matmul_values_apply_rhs1 (i : S256x64.Idx) (c : dot_S256x2048_S2048x64_S256x64_1_0_0_1_n_n.contr.Idx) : (dot_S256x2048_S2048x64_S256x64_1_0_0_1_n_n.rhsIdx i c 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl
/-- The weights times the values: entry (p, q) is the sum over the 2048 key rows. -/
theorem matmul_values_apply (lhs : FVec Ideal S256x2048 .bf16) (rhs : FVec Ideal S2048x64 .bf16) (p : Fin 256) (q : Fin 64) :
    matmul dot_S256x2048_S2048x64_S256x64_1_0_0_1_n_n none lhs rhs (constant (F := Ideal) S256x64 .f32 0x00000000#32) (ix2 p q)
      = ∑ k : Fin 2048, lhs (ix2 p k) * rhs (ix2 k q) := by
  refine (Ideal.matmul_constant_zero_apply dot_S256x2048_S2048x64_S256x64_1_0_0_1_n_n none lhs rhs (ix2 p q)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p q) ((contrEquiv1 dot_S256x2048_S2048x64_S256x64_1_0_0_1_n_n 2048 rfl rfl).symm k) = ix2 p k :=
    funext fun a => Fin.ext (by
      match a with
      | ⟨0, _⟩ => exact matmul_values_apply_lhs0 _ _
      | ⟨1, _⟩ => exact (dot_S256x2048_S2048x64_S256x64_1_0_0_1_n_n.lhsIdx_val_of_single rfl _ _).trans hk)
  have er : dot_S256x2048_S2048x64_S256x64_1_0_0_1_n_n.rhsIdx (ix2 p q) ((contrEquiv1 dot_S256x2048_S2048x64_S256x64_1_0_0_1_n_n 2048 rfl rfl).symm k) = ix2 k q :=
    funext fun a => Fin.ext (by
      match a with
      | ⟨0, _⟩ => exact (dot_S256x2048_S2048x64_S256x64_1_0_0_1_n_n.rhsIdx_val_of_single rfl _ _).trans hk
      | ⟨1, _⟩ => exact matmul_values_apply_rhs1 _ _)
  rw [el, er]

theorem matmul_out_apply_lhs0 (i : S256x1024.Idx) (c : dot_S256x64_S64x1024_S256x1024_1_0_0_1_n_n.contr.Idx) : (dot_S256x64_S64x1024_S256x1024_1_0_0_1_n_n.lhsIdx i c 0).val = (i 0).val := by
  unfold DotDims.lhsIdx
  rw [dif_neg (show ¬(0 : Fin S256x64.rank) ∈ dot_S256x64_S64x1024_S256x1024_1_0_0_1_n_n.lhsBatch by decide),
    dif_pos (show (0 : Fin S256x64.rank) ∈ dot_S256x64_S64x1024_S256x1024_1_0_0_1_n_n.lhsNonContracting by decide)]
  rfl
theorem matmul_out_apply_rhs1 (i : S256x1024.Idx) (c : dot_S256x64_S64x1024_S256x1024_1_0_0_1_n_n.contr.Idx) : (dot_S256x64_S64x1024_S256x1024_1_0_0_1_n_n.rhsIdx i c 1).val = (i 1).val := by
  unfold DotDims.rhsIdx
  rw [dif_neg (show ¬(1 : Fin S64x1024.rank) ∈ dot_S256x64_S64x1024_S256x1024_1_0_0_1_n_n.rhsBatch by decide),
    dif_pos (show (1 : Fin S64x1024.rank) ∈ dot_S256x64_S64x1024_S256x1024_1_0_0_1_n_n.rhsNonContracting by decide)]
  rfl
/-- The head's output times its slice of the output weight: entry (p, q) is the sum over the head's 64 columns. -/
theorem matmul_out_apply (lhs : FVec Ideal S256x64 .bf16) (rhs : FVec Ideal S64x1024 .bf16) (p : Fin 256) (q : Fin 1024) :
    matmul dot_S256x64_S64x1024_S256x1024_1_0_0_1_n_n none lhs rhs (constant (F := Ideal) S256x1024 .f32 0x00000000#32) (ix2 p q)
      = ∑ k : Fin 64, lhs (ix2 p k) * rhs (ix2 k q) := by
  refine (Ideal.matmul_constant_zero_apply dot_S256x64_S64x1024_S256x1024_1_0_0_1_n_n none lhs rhs (ix2 p q)).trans ?_
  rw [← Equiv.sum_comp (contrEquiv1 dot_S256x64_S64x1024_S256x1024_1_0_0_1_n_n 64 rfl rfl).symm]
  refine Finset.sum_congr rfl fun k _ => ?_
  have hk := contrEquiv1_symm_val dot_S256x64_S64x1024_S256x1024_1_0_0_1_n_n 64 rfl rfl k
  have el : dot_S256x64_S64x1024_S256x1024_1_0_0_1_n_n.lhsIdx (ix2 p q) ((contrEquiv1 dot_S256x64_S64x1024_S256x1024_1_0_0_1_n_n 64 rfl rfl).symm k) = ix2 p k :=
    funext fun a => Fin.ext (by
      match a with
      | ⟨0, _⟩ => exact matmul_out_apply_lhs0 _ _
      | ⟨1, _⟩ => exact (dot_S256x64_S64x1024_S256x1024_1_0_0_1_n_n.lhsIdx_val_of_single rfl _ _).trans hk)
  have er : dot_S256x64_S64x1024_S256x1024_1_0_0_1_n_n.rhsIdx (ix2 p q) ((contrEquiv1 dot_S256x64_S64x1024_S256x1024_1_0_0_1_n_n 64 rfl rfl).symm k) = ix2 k q :=
    funext fun a => Fin.ext (by
      match a with
      | ⟨0, _⟩ => exact (dot_S256x64_S64x1024_S256x1024_1_0_0_1_n_n.rhsIdx_val_of_single rfl _ _).trans hk
      | ⟨1, _⟩ => exact matmul_out_apply_rhs1 _ _)
  rw [el, er]
/-! ## The two lane reductions at an index -/

/-- Inserting coordinate `k` on axis 1 of the reduced index `p` gives `(p, k)`. -/
theorem lift_ix1 (h : S256x2048.Reduces [1] S256) (p : Fin 256) (k : Fin 2048) : h.lift (ix1 p) k = ix2 p k :=
  funext fun a => Fin.ext (by
    match a with
    | ⟨0, _⟩ => rfl
    | ⟨1, _⟩ => rfl)

/-- A row's maximum: the fold of `max` from minus infinity over the row. -/
theorem rowMax_apply (x : FVec Ideal S256x2048 .f32) (hφ : FTy.f32 = FTy.f32 ∨ FTy.f32 = FTy.bf16)
    (hacc : (0xFF800000#32 : BitVec 32) = 0xFF800000#32) (p : Fin 256) :
    multiReduction (F := Ideal) .maximumf [1] S256 x 0xFF800000#32 reduces_S256x2048_S256 hφ hacc (ix1 p)
      = (Finset.univ : Finset (Fin 2048)).fold max (Ideal.ofBits .f32 0xFF800000#32) (fun m => x (ix2 p m)) := by
  refine (Ideal.multiReduction_maximumf_single x 0xFF800000#32 reduces_S256x2048_S256 hφ hacc (ix1 p)).trans ?_
  refine congrArg (Finset.fold max (Ideal.ofBits .f32 0xFF800000#32) · (Finset.univ : Finset (Fin 2048))) ?_
  exact funext fun m => congrArg x (lift_ix1 _ p m)

/-- A row's sum. -/
theorem rowSum_apply (x : FVec Ideal S256x2048 .f32) (hφ : FTy.f32 = FTy.f32 ∨ FTy.f32 = FTy.bf16)
    (hacc : (0x00000000#32 : BitVec 32) = 0x00000000#32) (p : Fin 256) :
    multiReduction (F := Ideal) .add [1] S256 x 0x00000000#32 reduces_S256x2048_S256 hφ hacc (ix1 p)
      = ∑ m : Fin 2048, x (ix2 p m) := by
  refine (Ideal.multiReduction_add_single x 0x00000000#32 reduces_S256x2048_S256 hφ hacc (ix1 p)).trans ?_
  exact Finset.sum_congr rfl fun m _ => congrArg x (lift_ix1 _ p m)

/-- The transposed keys at `(c, m)` are the keys at `(m, c)`. -/
theorem keysT_apply (x : FVec Ideal S2048x64 .bf16) (c : Fin 64) (m : Fin 2048) :
    transpose S64x2048 [1, 0] x transposes_S2048x64_p1_0_S64x2048 (ix2 c m) = x (ix2 m c) :=
  transpose_ix2_apply x _ c m

/-! ## One trip of the head loop at an index -/

/-- The exponential of a vector at an index. -/
theorem exp_apply {s : Shape} {φ : FTy} (a : FVec Ideal s φ) (i : s.Idx) : Idealize.ShloMosaic.exp a i = Ideal.exp (a i) := rfl

/-- One trip: the accumulator plus, summed over the head's 64 columns, the head's attention output (the row softmax of
    the scaled scores against the values) times the head's slice of the output weight. -/
theorem pay2_apply (acc : FVec Ideal S256x1024 .f32) (v11 : Vec Ideal S1x1x256x64 .bf16) (v14 v17 : Vec Ideal S1x1x2048x64 .bf16)
    (v35 : Vec Ideal S1x64x1024 .bf16) (r : Fin 256) (e : Fin 1024) :
    k1_pay2 acc v11 v14 v17 v35 (ix2 r e)
      = acc (ix2 r e) + ∑ c : Fin 64, (∑ m : Fin 2048,
          Cert.Mha.soft (fun m' : Fin 2048 => (∑ c' : Fin 64, v11 (ix4 0 0 r c') * v14 (ix4 0 0 m' c')) * Ideal.ofBits .f32 0x3E000000#32) m
            * v17 (ix4 0 0 m c)) * v35 (ix3 0 c e) := by
  unfold k1_pay2
  simp -index only [addf_apply, matmul_out_apply, truncf_apply, matmul_values_apply, divf_apply, broadcastTo_a1_ab_apply,
    shapeCast_a_a1_apply, rowSum_apply, exp_apply, subf_apply, rowMax_apply, mulf_apply, broadcast_apply,
    matmul_scores_apply, keysT_apply, shapeCast_11ab_ab_apply, shapeCast_1ab_ab_apply]
  unfold Cert.Mha.soft Cert.Mha.expo Cert.Mha.rowMax
  rfl

end Cert.KernelIdeal.HeadStep

end
-- ==== Proof.KernelIdeal.ProjValue.lean ====
/-
  The value of the projection region (the program's first region) over the extended reals: after the region the q, k, v
  arrays hold the three projections of the specification, laid out by head.
  The body's payload x[b] W_h + bias_h at row n and column j is the sum over the model dimension d of
  x[b, n, d] * W_h[d, j] plus bias_h[j]; its three column groups of 64 are the q, k, v blocks.  The host operations
  before the region lay the three weight matrices out by head: reshape [1024, 1024] to [1024, 16, 64], insert a unit
  axis, concatenate the three along it, reshape [1024, 16, 3, 64] to [1024, 16, 192], transpose to [16, 1024, 192] —
  so that the array at (h, d, p * 64 + c) is matrix p at (d, h * 64 + c) — and the three bias vectors likewise to
  [16, 1, 192]; the activation argument is not written by them.  Grid point t is batch t / 16 and head t % 16: its
  activation block is x[t / 16], its weight and bias blocks are head t % 16 of the two arrays, and its three output
  blocks are (t / 16, t % 16, *, *) of q, k, v; every index (b, h, n, c) lies in the block of point b * 16 + h.
-/
import proofs.«174402_j5239860101318_2_alg».proof.Proof.KernelIdeal.Run
import proofs.«174402_j5239860101318_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.ProjValue

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-! ## The body's arithmetic at an index -/

/-- The matmul's operand indices at a result index and a contraction index, axis by axis. -/
theorem lhs_0 (i : S2048x192.Idx) (q : dot_S2048x1024_S1024x192_S2048x192_1_0_0_1_n_n.contr.Idx) :
    (dot_S2048x1024_S1024x192_S2048x192_1_0_0_1_n_n.lhsIdx i q 0).val = (i 0).val := by
  unfold DotDims.lhsIdx
  rw [dif_neg (show ¬(0 : Fin S2048x1024.rank) ∈ dot_S2048x1024_S1024x192_S2048x192_1_0_0_1_n_n.lhsBatch by decide), dif_pos (show (0 : Fin S2048x1024.rank) ∈ dot_S2048x1024_S1024x192_S2048x192_1_0_0_1_n_n.lhsNonContracting by decide)]
  rfl
theorem lhs_1 (i : S2048x192.Idx) (q : dot_S2048x1024_S1024x192_S2048x192_1_0_0_1_n_n.contr.Idx) :
    (dot_S2048x1024_S1024x192_S2048x192_1_0_0_1_n_n.lhsIdx i q 1).val = (q ⟨0, by decide⟩).val :=
  dot_S2048x1024_S1024x192_S2048x192_1_0_0_1_n_n.lhsIdx_val_of_single rfl i q
theorem rhs_0 (i : S2048x192.Idx) (q : dot_S2048x1024_S1024x192_S2048x192_1_0_0_1_n_n.contr.Idx) :
    (dot_S2048x1024_S1024x192_S2048x192_1_0_0_1_n_n.rhsIdx i q 0).val = (q ⟨0, by decide⟩).val :=
  dot_S2048x1024_S1024x192_S2048x192_1_0_0_1_n_n.rhsIdx_val_of_single rfl i q
theorem rhs_1 (i : S2048x192.Idx) (q : dot_S2048x1024_S1024x192_S2048x192_1_0_0_1_n_n.contr.Idx) :
    (dot_S2048x1024_S1024x192_S2048x192_1_0_0_1_n_n.rhsIdx i q 1).val = (i 1).val := by
  unfold DotDims.rhsIdx
  rw [dif_neg (show ¬(1 : Fin S1024x192.rank) ∈ dot_S2048x1024_S1024x192_S2048x192_1_0_0_1_n_n.rhsBatch by decide), dif_pos (show (1 : Fin S1024x192.rank) ∈ dot_S2048x1024_S1024x192_S2048x192_1_0_0_1_n_n.rhsNonContracting by decide)]
  rfl

/-- x[b] W_h + bias_h at row n and column j: the sum over the model dimension of the row's entries times the
    column's, plus the column's bias. -/
theorem pay1_apply (x0 : Vec Ideal S1x2048x1024 .f32) (x1 : Vec Ideal S1x1024x192 .bf16) (x2 : Vec Ideal S1x1x192 .f32)
    (n : Fin 2048) (j : Fin 192) :
    k0_pay1 x0 x1 x2 (ix2 n j) = (∑ d : Fin 1024, x0 (ix3 (0 : Fin 1) n d) * x1 (ix3 (0 : Fin 1) d j)) + x2 (ix3 (0 : Fin 1) (0 : Fin 1) j) := by
  unfold k0_pay1
  refine (addf_apply _ _ _).trans ?_
  refine congrArg₂ (· + ·) ?_ ?_
  · refine (Ideal.matmul_constant_zero_apply dot_S2048x1024_S1024x192_S2048x192_1_0_0_1_n_n none _ _ _).trans ?_
    rw [← Equiv.sum_comp (contrEquiv1 dot_S2048x1024_S1024x192_S2048x192_1_0_0_1_n_n 1024 rfl rfl).symm]
    refine Finset.sum_congr rfl fun d _ => ?_
    have hd := contrEquiv1_symm_val dot_S2048x1024_S1024x192_S2048x192_1_0_0_1_n_n 1024 rfl rfl d
    have el : dot_S2048x1024_S1024x192_S2048x192_1_0_0_1_n_n.lhsIdx (ix2 n j) ((contrEquiv1 dot_S2048x1024_S1024x192_S2048x192_1_0_0_1_n_n 1024 rfl rfl).symm d) = ix2 n d := funext fun a => Fin.ext (by
      match a with
      | ⟨0, _⟩ => exact lhs_0 _ _
      | ⟨1, _⟩ => exact (lhs_1 _ _).trans hd)
    have er : dot_S2048x1024_S1024x192_S2048x192_1_0_0_1_n_n.rhsIdx (ix2 n j) ((contrEquiv1 dot_S2048x1024_S1024x192_S2048x192_1_0_0_1_n_n 1024 rfl rfl).symm d) = ix2 d j := funext fun a => Fin.ext (by
      match a with
      | ⟨0, _⟩ => exact (rhs_0 _ _).trans hd
      | ⟨1, _⟩ => exact rhs_1 _ _)
    rw [el, er]
    refine congrArg₂ (· * ·) ?_ ?_
    · refine (truncf_apply (ψ := .bf16) _ bitsLt_bf16_f32 _).trans ?_
      refine shapeCast_apply x0 _ (ix2 n d) (ix3 (0 : Fin 1) n d) ?_
      rw [Shape.rowMajor_val_three, Shape.rowMajor_val_two]
      show ((0 : Nat) * 2048 + n.val) * 1024 + d.val = n.val * 1024 + d.val
      omega
    · refine shapeCast_apply x1 _ (ix2 d j) (ix3 (0 : Fin 1) d j) ?_
      rw [Shape.rowMajor_val_three, Shape.rowMajor_val_two]
      show ((0 : Nat) * 1024 + d.val) * 192 + j.val = d.val * 192 + j.val
      omega
  · refine (broadcastTo_apply _ _ (ix2 n j) (ix2 (0 : Fin 1) j) (fun a => ?_)).trans ?_
    · match a with
      | ⟨0, _⟩ => show (0 : Nat) = if (1 : Nat) = 1 then 0 else n.val; rw [if_pos rfl]
      | ⟨1, _⟩ => show j.val = if (192 : Nat) = 1 then 0 else j.val; rw [if_neg (by decide)]
    · refine shapeCast_apply x2 _ (ix2 (0 : Fin 1) j) (ix3 (0 : Fin 1) (0 : Fin 1) j) ?_
      rw [Shape.rowMajor_val_three, Shape.rowMajor_val_two]
      show ((0 : Nat) * 1 + 0) * 192 + j.val = 0 * 192 + j.val
      omega

/-- The q block after the body at row n and column c: column c of x[b] W_h + bias_h. -/
theorem pay2_apply (x0 : Vec Ideal S1x2048x1024 .f32) (x1 : Vec Ideal S1x1024x192 .bf16) (x2 : Vec Ideal S1x1x192 .f32)
    (n : Fin 2048) (cc : Fin 64) :
    k0_pay2 x0 x1 x2 (ix4 (0 : Fin 1) (0 : Fin 1) n cc)
      = (∑ d : Fin 1024, x0 (ix3 (0 : Fin 1) n d) * x1 (ix3 (0 : Fin 1) d (⟨cc.val, by omega⟩ : Fin 192)))
        + x2 (ix3 (0 : Fin 1) (0 : Fin 1) (⟨cc.val, by omega⟩ : Fin 192)) := by
  unfold k0_pay2
  refine (shapeCast_apply _ _ (ix4 (0 : Fin 1) (0 : Fin 1) n cc) (ix2 n cc) ?_).trans ?_
  · rw [Shape.rowMajor_val_two, Shape.rowMajor_val_four]
    show n.val * 64 + cc.val = (((0 : Nat) * 1 + 0) * 2048 + n.val) * 64 + cc.val
    omega
  refine (truncf_apply (ψ := .bf16) _ bitsLt_bf16_f32 _).trans ?_
  refine (extractStridedSlice_apply _ _ _ (ix2 n cc) (ix2 n (⟨cc.val, by omega⟩ : Fin 192)) (fun a => ?_)).trans (pay1_apply x0 x1 x2 n _)
  match a with
  | ⟨0, _⟩ => show n.val = 0 + n.val; omega
  | ⟨1, _⟩ => show cc.val = 0 + cc.val; omega

/-- The k block after the body at row n and column c: column 64 + c of x[b] W_h + bias_h. -/
theorem pay3_apply (x0 : Vec Ideal S1x2048x1024 .f32) (x1 : Vec Ideal S1x1024x192 .bf16) (x2 : Vec Ideal S1x1x192 .f32)
    (n : Fin 2048) (cc : Fin 64) :
    k0_pay3 x0 x1 x2 (ix4 (0 : Fin 1) (0 : Fin 1) n cc)
      = (∑ d : Fin 1024, x0 (ix3 (0 : Fin 1) n d) * x1 (ix3 (0 : Fin 1) d (⟨64 + cc.val, by omega⟩ : Fin 192)))
        + x2 (ix3 (0 : Fin 1) (0 : Fin 1) (⟨64 + cc.val, by omega⟩ : Fin 192)) := by
  unfold k0_pay3
  refine (shapeCast_apply _ _ (ix4 (0 : Fin 1) (0 : Fin 1) n cc) (ix2 n cc) ?_).trans ?_
  · rw [Shape.rowMajor_val_two, Shape.rowMajor_val_four]
    show n.val * 64 + cc.val = (((0 : Nat) * 1 + 0) * 2048 + n.val) * 64 + cc.val
    omega
  refine (truncf_apply (ψ := .bf16) _ bitsLt_bf16_f32 _).trans ?_
  refine (extractStridedSlice_apply _ _ _ (ix2 n cc) (ix2 n (⟨64 + cc.val, by omega⟩ : Fin 192)) (fun a => ?_)).trans (pay1_apply x0 x1 x2 n _)
  match a with
  | ⟨0, _⟩ => show n.val = 0 + n.val; omega
  | ⟨1, _⟩ => show 64 + cc.val = 64 + cc.val; omega

/-- The v block after the body at row n and column c: column 128 + c of x[b] W_h + bias_h. -/
theorem pay4_apply (x0 : Vec Ideal S1x2048x1024 .f32) (x1 : Vec Ideal S1x1024x192 .bf16) (x2 : Vec Ideal S1x1x192 .f32)
    (n : Fin 2048) (cc : Fin 64) :
    k0_pay4 x0 x1 x2 (ix4 (0 : Fin 1) (0 : Fin 1) n cc)
      = (∑ d : Fin 1024, x0 (ix3 (0 : Fin 1) n d) * x1 (ix3 (0 : Fin 1) d (⟨128 + cc.val, by omega⟩ : Fin 192)))
        + x2 (ix3 (0 : Fin 1) (0 : Fin 1) (⟨128 + cc.val, by omega⟩ : Fin 192)) := by
  unfold k0_pay4
  refine (shapeCast_apply _ _ (ix4 (0 : Fin 1) (0 : Fin 1) n cc) (ix2 n cc) ?_).trans ?_
  · rw [Shape.rowMajor_val_two, Shape.rowMajor_val_four]
    show n.val * 64 + cc.val = (((0 : Nat) * 1 + 0) * 2048 + n.val) * 64 + cc.val
    omega
  refine (truncf_apply (ψ := .bf16) _ bitsLt_bf16_f32 _).trans ?_
  refine (extractStridedSlice_apply _ _ _ (ix2 n cc) (ix2 n (⟨128 + cc.val, by omega⟩ : Fin 192)) (fun a => ?_)).trans (pay1_apply x0 x1 x2 n _)
  match a with
  | ⟨0, _⟩ => show n.val = 0 + n.val; omega
  | ⟨1, _⟩ => show 128 + cc.val = 128 + cc.val; omega

/-- The same at any index of the block. -/
theorem pay2_at (x0 : Vec Ideal S1x2048x1024 .f32) (x1 : Vec Ideal S1x1024x192 .bf16) (x2 : Vec Ideal S1x1x192 .f32)
    (y : S1x1x2048x64.Idx) :
    k0_pay2 x0 x1 x2 y
      = (∑ d : Fin 1024, x0 (ix3 (0 : Fin 1) (y 2) d) * x1 (ix3 (0 : Fin 1) d (⟨(y 3).val, by have h3 : (y 3).val < 64 := (y 3).isLt; omega⟩ : Fin 192)))
        + x2 (ix3 (0 : Fin 1) (0 : Fin 1) (⟨(y 3).val, by have h3 : (y 3).val < 64 := (y 3).isLt; omega⟩ : Fin 192)) := by
  have hy : y = ix4 (0 : Fin 1) (0 : Fin 1) (y 2) (y 3) := by
    funext a
    match a with
    | ⟨0, _⟩ => exact Fin.ext (by have h0 : (y 0).val < 1 := (y 0).isLt; show (y 0).val = 0; omega)
    | ⟨1, _⟩ => exact Fin.ext (by have h1 : (y 1).val < 1 := (y 1).isLt; show (y 1).val = 0; omega)
    | ⟨2, _⟩ => rfl
    | ⟨3, _⟩ => rfl
  exact (congrArg (k0_pay2 x0 x1 x2) hy).trans (pay2_apply x0 x1 x2 (y 2) (y 3))

/-- The same at any index of the block. -/
theorem pay3_at (x0 : Vec Ideal S1x2048x1024 .f32) (x1 : Vec Ideal S1x1024x192 .bf16) (x2 : Vec Ideal S1x1x192 .f32)
    (y : S1x1x2048x64.Idx) :
    k0_pay3 x0 x1 x2 y
      = (∑ d : Fin 1024, x0 (ix3 (0 : Fin 1) (y 2) d) * x1 (ix3 (0 : Fin 1) d (⟨64 + (y 3).val, by have h3 : (y 3).val < 64 := (y 3).isLt; omega⟩ : Fin 192)))
        + x2 (ix3 (0 : Fin 1) (0 : Fin 1) (⟨64 + (y 3).val, by have h3 : (y 3).val < 64 := (y 3).isLt; omega⟩ : Fin 192)) := by
  have hy : y = ix4 (0 : Fin 1) (0 : Fin 1) (y 2) (y 3) := by
    funext a
    match a with
    | ⟨0, _⟩ => exact Fin.ext (by have h0 : (y 0).val < 1 := (y 0).isLt; show (y 0).val = 0; omega)
    | ⟨1, _⟩ => exact Fin.ext (by have h1 : (y 1).val < 1 := (y 1).isLt; show (y 1).val = 0; omega)
    | ⟨2, _⟩ => rfl
    | ⟨3, _⟩ => rfl
  exact (congrArg (k0_pay3 x0 x1 x2) hy).trans (pay3_apply x0 x1 x2 (y 2) (y 3))

/-- The same at any index of the block. -/
theorem pay4_at (x0 : Vec Ideal S1x2048x1024 .f32) (x1 : Vec Ideal S1x1024x192 .bf16) (x2 : Vec Ideal S1x1x192 .f32)
    (y : S1x1x2048x64.Idx) :
    k0_pay4 x0 x1 x2 y
      = (∑ d : Fin 1024, x0 (ix3 (0 : Fin 1) (y 2) d) * x1 (ix3 (0 : Fin 1) d (⟨128 + (y 3).val, by have h3 : (y 3).val < 64 := (y 3).isLt; omega⟩ : Fin 192)))
        + x2 (ix3 (0 : Fin 1) (0 : Fin 1) (⟨128 + (y 3).val, by have h3 : (y 3).val < 64 := (y 3).isLt; omega⟩ : Fin 192)) := by
  have hy : y = ix4 (0 : Fin 1) (0 : Fin 1) (y 2) (y 3) := by
    funext a
    match a with
    | ⟨0, _⟩ => exact Fin.ext (by have h0 : (y 0).val < 1 := (y 0).isLt; show (y 0).val = 0; omega)
    | ⟨1, _⟩ => exact Fin.ext (by have h1 : (y 1).val < 1 := (y 1).isLt; show (y 1).val = 0; omega)
    | ⟨2, _⟩ => rfl
    | ⟨3, _⟩ => rfl
  exact (congrArg (k0_pay4 x0 x1 x2) hy).trans (pay4_apply x0 x1 x2 (y 2) (y 3))

/-! ## What the host operations before the region leave in the weight and bias arrays it reads -/

/-- One head-split bias vector as a 16 x 1 x 64 piece. -/
abbrev biasPiece (b : S1024.Idx → EReal) : S16x1x64.Idx → EReal :=
  broadcastInDim S16x1x64 ![0, 2] bcast_S16x64_S16x1x64_0_2 (shapeCast S16x64 b shapeCasts_S1024_S16x64)

/-- The bias array the region reads, as the host operations' term of the three bias vectors. -/
def biasTerm (bq bk bv : S1024.Idx → EReal) : S16x1x192.Idx → EReal :=
  shapeCast S16x1x192 (shapeCast S16x192 (concatenate S16x3x64 1
    [⟨S16x1x64, biasPiece bq⟩, ⟨S16x1x64, biasPiece bk⟩, ⟨S16x1x64, biasPiece bv⟩]
    concatenates_S16x1x64_S16x1x64_S16x1x64_S16x3x64_d1) shapeCasts_S16x3x64_S16x192) shapeCasts_S16x192_S16x1x192

/-- One head-split weight matrix as a 1024 x 16 x 1 x 64 piece. -/
abbrev weightPiece (W : S1024x1024.Idx → EReal) : S1024x16x1x64.Idx → EReal :=
  broadcastInDim S1024x16x1x64 ![0, 1, 3] bcast_S1024x16x64_S1024x16x1x64_0_1_3 (shapeCast S1024x16x64 W shapeCasts_S1024x1024_S1024x16x64)

/-- The weight array the region reads, as the host operations' term of the three weight matrices. -/
def weightTerm (Wq Wk Wv : S1024x1024.Idx → EReal) : S16x1024x192.Idx → EReal :=
  truncf (F := Ideal) .bf16 (transpose S16x1024x192 [1, 0, 2] (shapeCast S1024x16x192 (concatenate S1024x16x3x64 2
    [⟨S1024x16x1x64, weightPiece Wq⟩, ⟨S1024x16x1x64, weightPiece Wk⟩, ⟨S1024x16x1x64, weightPiece Wv⟩]
    concatenates_S1024x16x1x64_S1024x16x1x64_S1024x16x1x64_S1024x16x3x64_d2) shapeCasts_S1024x16x3x64_S1024x16x192)
    transposes_S1024x16x192_S16x1024x192_1_0_2) bitsLt_bf16_f32

variable (m : (ℓ : Loc nD τ sig) → Buf (Elt Ideal) ℓ) (ρ : Dev nD → PrngReg)

theorem vProj_bias (c : Dev nD) : (Run.vProj m ρ c main_v18 : S16x1x192.Idx → EReal)
    = biasTerm (m ((c : Thread nD τ).loc main_arg2)) (m ((c : Thread nD τ).loc main_arg4)) (m ((c : Thread nD τ).loc main_arg6)) := by
  dsimp only [Run.vProj, Run.atProj, hostOps0]
  after_results
  rfl

theorem vProj_weight (c : Dev nD) : (Run.vProj m ρ c main_v9 : S16x1024x192.Idx → EReal)
    = weightTerm (m ((c : Thread nD τ).loc main_arg1)) (m ((c : Thread nD τ).loc main_arg3)) (m ((c : Thread nD τ).loc main_arg5)) := by
  dsimp only [Run.vProj, Run.atProj, hostOps0]
  after_results
  rfl

theorem vProj_x (c : Dev nD) : Run.vProj m ρ c main_arg0 = m ((c : Thread nD τ).loc main_arg0) := by
  dsimp only [Run.vProj, Run.atProj, hostOps0]
  after_results

/-- The bias array at head h and column c is the q bias at the head's column c. -/
theorem biasTerm_q (bq bk bv : S1024.Idx → EReal) (h : Fin 16) (cc : Fin 64) :
    biasTerm bq bk bv (ix3 h (0 : Fin 1) (⟨cc.val, by omega⟩ : Fin 192)) = bq (ix1 (Cert.Mha.col h cc)) := by
  unfold biasTerm
  refine (shapeCast_apply _ _ (ix3 h (0 : Fin 1) (⟨cc.val, by omega⟩ : Fin 192)) (ix2 h (⟨cc.val, by omega⟩ : Fin 192)) ?_).trans ?_
  · rw [Shape.rowMajor_val_two, Shape.rowMajor_val_three]
    show h.val * 192 + (cc.val) = (h.val * 1 + 0) * 192 + (cc.val)
    omega
  refine (shapeCast_apply _ _ (ix2 h (⟨cc.val, by omega⟩ : Fin 192)) (ix3 h (⟨0, by omega⟩ : Fin 3) cc) ?_).trans ?_
  · rw [Shape.rowMajor_val_three, Shape.rowMajor_val_two]
    show (h.val * 3 + 0) * 64 + cc.val = h.val * 192 + (cc.val)
    omega
  refine (concatenate_apply_piece (t := S16x3x64) (1 : Fin 3) [⟨S16x1x64, biasPiece bq⟩, ⟨S16x1x64, biasPiece bk⟩, ⟨S16x1x64, biasPiece bv⟩] concatenates_S16x1x64_S16x1x64_S16x1x64_S16x3x64_d1 (ix3 h (⟨0, by omega⟩ : Fin 3) cc) 0 (by show (0 : Nat) < 3; omega) S16x1x64 (biasPiece bq) rfl rfl 0 rfl
    (ix3 h (0 : Fin 1) cc) (fun b hb => ?_) ?_).trans ?_
  · match b with
    | ⟨0, _⟩ => rfl
    | ⟨1, _⟩ => exact absurd rfl hb
    | ⟨2, _⟩ => rfl
  · rfl
  refine (broadcastInDim_apply _ _ _ (ix3 h (0 : Fin 1) cc) (ix2 h cc) (fun a => ?_)).trans ?_
  · match a with
    | ⟨0, _⟩ => show h.val = if (16 : Nat) = 1 then 0 else h.val; rw [if_neg (by decide)]
    | ⟨1, _⟩ => show cc.val = if (64 : Nat) = 1 then 0 else cc.val; rw [if_neg (by decide)]
  refine shapeCast_apply bq _ (ix2 h cc) (ix1 (Cert.Mha.col h cc)) ?_
  rw [Shape.rowMajor_val_one, Shape.rowMajor_val_two]
  rfl

/-- The bias array at head h and column 64 + c is the k bias at the head's column c. -/
theorem biasTerm_k (bq bk bv : S1024.Idx → EReal) (h : Fin 16) (cc : Fin 64) :
    biasTerm bq bk bv (ix3 h (0 : Fin 1) (⟨64 + cc.val, by omega⟩ : Fin 192)) = bk (ix1 (Cert.Mha.col h cc)) := by
  unfold biasTerm
  refine (shapeCast_apply _ _ (ix3 h (0 : Fin 1) (⟨64 + cc.val, by omega⟩ : Fin 192)) (ix2 h (⟨64 + cc.val, by omega⟩ : Fin 192)) ?_).trans ?_
  · rw [Shape.rowMajor_val_two, Shape.rowMajor_val_three]
    show h.val * 192 + (64 + cc.val) = (h.val * 1 + 0) * 192 + (64 + cc.val)
    omega
  refine (shapeCast_apply _ _ (ix2 h (⟨64 + cc.val, by omega⟩ : Fin 192)) (ix3 h (⟨1, by omega⟩ : Fin 3) cc) ?_).trans ?_
  · rw [Shape.rowMajor_val_three, Shape.rowMajor_val_two]
    show (h.val * 3 + 1) * 64 + cc.val = h.val * 192 + (64 + cc.val)
    omega
  refine (concatenate_apply_piece (t := S16x3x64) (1 : Fin 3) [⟨S16x1x64, biasPiece bq⟩, ⟨S16x1x64, biasPiece bk⟩, ⟨S16x1x64, biasPiece bv⟩] concatenates_S16x1x64_S16x1x64_S16x1x64_S16x3x64_d1 (ix3 h (⟨1, by omega⟩ : Fin 3) cc) 1 (by show (1 : Nat) < 3; omega) S16x1x64 (biasPiece bk) rfl rfl 1 rfl
    (ix3 h (0 : Fin 1) cc) (fun b hb => ?_) ?_).trans ?_
  · match b with
    | ⟨0, _⟩ => rfl
    | ⟨1, _⟩ => exact absurd rfl hb
    | ⟨2, _⟩ => rfl
  · rfl
  refine (broadcastInDim_apply _ _ _ (ix3 h (0 : Fin 1) cc) (ix2 h cc) (fun a => ?_)).trans ?_
  · match a with
    | ⟨0, _⟩ => show h.val = if (16 : Nat) = 1 then 0 else h.val; rw [if_neg (by decide)]
    | ⟨1, _⟩ => show cc.val = if (64 : Nat) = 1 then 0 else cc.val; rw [if_neg (by decide)]
  refine shapeCast_apply bk _ (ix2 h cc) (ix1 (Cert.Mha.col h cc)) ?_
  rw [Shape.rowMajor_val_one, Shape.rowMajor_val_two]
  rfl

/-- The bias array at head h and column 128 + c is the v bias at the head's column c. -/
theorem biasTerm_v (bq bk bv : S1024.Idx → EReal) (h : Fin 16) (cc : Fin 64) :
    biasTerm bq bk bv (ix3 h (0 : Fin 1) (⟨128 + cc.val, by omega⟩ : Fin 192)) = bv (ix1 (Cert.Mha.col h cc)) := by
  unfold biasTerm
  refine (shapeCast_apply _ _ (ix3 h (0 : Fin 1) (⟨128 + cc.val, by omega⟩ : Fin 192)) (ix2 h (⟨128 + cc.val, by omega⟩ : Fin 192)) ?_).trans ?_
  · rw [Shape.rowMajor_val_two, Shape.rowMajor_val_three]
    show h.val * 192 + (128 + cc.val) = (h.val * 1 + 0) * 192 + (128 + cc.val)
    omega
  refine (shapeCast_apply _ _ (ix2 h (⟨128 + cc.val, by omega⟩ : Fin 192)) (ix3 h (⟨2, by omega⟩ : Fin 3) cc) ?_).trans ?_
  · rw [Shape.rowMajor_val_three, Shape.rowMajor_val_two]
    show (h.val * 3 + 2) * 64 + cc.val = h.val * 192 + (128 + cc.val)
    omega
  refine (concatenate_apply_piece (t := S16x3x64) (1 : Fin 3) [⟨S16x1x64, biasPiece bq⟩, ⟨S16x1x64, biasPiece bk⟩, ⟨S16x1x64, biasPiece bv⟩] concatenates_S16x1x64_S16x1x64_S16x1x64_S16x3x64_d1 (ix3 h (⟨2, by omega⟩ : Fin 3) cc) 2 (by show (2 : Nat) < 3; omega) S16x1x64 (biasPiece bv) rfl rfl 2 rfl
    (ix3 h (0 : Fin 1) cc) (fun b hb => ?_) ?_).trans ?_
  · match b with
    | ⟨0, _⟩ => rfl
    | ⟨1, _⟩ => exact absurd rfl hb
    | ⟨2, _⟩ => rfl
  · rfl
  refine (broadcastInDim_apply _ _ _ (ix3 h (0 : Fin 1) cc) (ix2 h cc) (fun a => ?_)).trans ?_
  · match a with
    | ⟨0, _⟩ => show h.val = if (16 : Nat) = 1 then 0 else h.val; rw [if_neg (by decide)]
    | ⟨1, _⟩ => show cc.val = if (64 : Nat) = 1 then 0 else cc.val; rw [if_neg (by decide)]
  refine shapeCast_apply bv _ (ix2 h cc) (ix1 (Cert.Mha.col h cc)) ?_
  rw [Shape.rowMajor_val_one, Shape.rowMajor_val_two]
  rfl

/-- The weight array at head h, row d and column c is the q weight at row d and the head's column c. -/
theorem weightTerm_q (Wq Wk Wv : S1024x1024.Idx → EReal) (h : Fin 16) (d : Fin 1024) (cc : Fin 64) :
    weightTerm Wq Wk Wv (ix3 h d (⟨cc.val, by omega⟩ : Fin 192)) = Wq (ix2 d (Cert.Mha.col h cc)) := by
  unfold weightTerm
  refine (truncf_apply (ψ := .bf16) _ bitsLt_bf16_f32 _).trans ?_
  refine (transpose_apply _ _ _ (ix3 h d (⟨cc.val, by omega⟩ : Fin 192)) (ix3 d h (⟨cc.val, by omega⟩ : Fin 192)) (fun b => ?_)).trans ?_
  · match b with
    | ⟨0, _⟩ => rfl
    | ⟨1, _⟩ => rfl
    | ⟨2, _⟩ => rfl
  refine (shapeCast_apply _ _ (ix3 d h (⟨cc.val, by omega⟩ : Fin 192)) (ix4 d h (⟨0, by omega⟩ : Fin 3) cc) ?_).trans ?_
  · rw [Shape.rowMajor_val_four, Shape.rowMajor_val_three]
    show ((d.val * 16 + h.val) * 3 + 0) * 64 + cc.val = (d.val * 16 + h.val) * 192 + (cc.val)
    omega
  refine (concatenate_apply_piece (t := S1024x16x3x64) (2 : Fin 4) [⟨S1024x16x1x64, weightPiece Wq⟩, ⟨S1024x16x1x64, weightPiece Wk⟩, ⟨S1024x16x1x64, weightPiece Wv⟩] concatenates_S1024x16x1x64_S1024x16x1x64_S1024x16x1x64_S1024x16x3x64_d2 (ix4 d h (⟨0, by omega⟩ : Fin 3) cc) 0 (by show (0 : Nat) < 3; omega) S1024x16x1x64 (weightPiece Wq) rfl rfl 0 rfl
    (ix4 d h (0 : Fin 1) cc) (fun b hb => ?_) ?_).trans ?_
  · match b with
    | ⟨0, _⟩ => rfl
    | ⟨1, _⟩ => rfl
    | ⟨2, _⟩ => exact absurd rfl hb
    | ⟨3, _⟩ => rfl
  · rfl
  refine (broadcastInDim_apply _ _ _ (ix4 d h (0 : Fin 1) cc) (ix3 d h cc) (fun a => ?_)).trans ?_
  · match a with
    | ⟨0, _⟩ => show d.val = if (1024 : Nat) = 1 then 0 else d.val; rw [if_neg (by decide)]
    | ⟨1, _⟩ => show h.val = if (16 : Nat) = 1 then 0 else h.val; rw [if_neg (by decide)]
    | ⟨2, _⟩ => show cc.val = if (64 : Nat) = 1 then 0 else cc.val; rw [if_neg (by decide)]
  refine shapeCast_apply Wq _ (ix3 d h cc) (ix2 d (Cert.Mha.col h cc)) ?_
  rw [Shape.rowMajor_val_two, Shape.rowMajor_val_three]
  show d.val * 1024 + (h.val * 64 + cc.val) = (d.val * 16 + h.val) * 64 + cc.val
  omega

/-- The weight array at head h, row d and column 64 + c is the k weight at row d and the head's column c. -/
theorem weightTerm_k (Wq Wk Wv : S1024x1024.Idx → EReal) (h : Fin 16) (d : Fin 1024) (cc : Fin 64) :
    weightTerm Wq Wk Wv (ix3 h d (⟨64 + cc.val, by omega⟩ : Fin 192)) = Wk (ix2 d (Cert.Mha.col h cc)) := by
  unfold weightTerm
  refine (truncf_apply (ψ := .bf16) _ bitsLt_bf16_f32 _).trans ?_
  refine (transpose_apply _ _ _ (ix3 h d (⟨64 + cc.val, by omega⟩ : Fin 192)) (ix3 d h (⟨64 + cc.val, by omega⟩ : Fin 192)) (fun b => ?_)).trans ?_
  · match b with
    | ⟨0, _⟩ => rfl
    | ⟨1, _⟩ => rfl
    | ⟨2, _⟩ => rfl
  refine (shapeCast_apply _ _ (ix3 d h (⟨64 + cc.val, by omega⟩ : Fin 192)) (ix4 d h (⟨1, by omega⟩ : Fin 3) cc) ?_).trans ?_
  · rw [Shape.rowMajor_val_four, Shape.rowMajor_val_three]
    show ((d.val * 16 + h.val) * 3 + 1) * 64 + cc.val = (d.val * 16 + h.val) * 192 + (64 + cc.val)
    omega
  refine (concatenate_apply_piece (t := S1024x16x3x64) (2 : Fin 4) [⟨S1024x16x1x64, weightPiece Wq⟩, ⟨S1024x16x1x64, weightPiece Wk⟩, ⟨S1024x16x1x64, weightPiece Wv⟩] concatenates_S1024x16x1x64_S1024x16x1x64_S1024x16x1x64_S1024x16x3x64_d2 (ix4 d h (⟨1, by omega⟩ : Fin 3) cc) 1 (by show (1 : Nat) < 3; omega) S1024x16x1x64 (weightPiece Wk) rfl rfl 1 rfl
    (ix4 d h (0 : Fin 1) cc) (fun b hb => ?_) ?_).trans ?_
  · match b with
    | ⟨0, _⟩ => rfl
    | ⟨1, _⟩ => rfl
    | ⟨2, _⟩ => exact absurd rfl hb
    | ⟨3, _⟩ => rfl
  · rfl
  refine (broadcastInDim_apply _ _ _ (ix4 d h (0 : Fin 1) cc) (ix3 d h cc) (fun a => ?_)).trans ?_
  · match a with
    | ⟨0, _⟩ => show d.val = if (1024 : Nat) = 1 then 0 else d.val; rw [if_neg (by decide)]
    | ⟨1, _⟩ => show h.val = if (16 : Nat) = 1 then 0 else h.val; rw [if_neg (by decide)]
    | ⟨2, _⟩ => show cc.val = if (64 : Nat) = 1 then 0 else cc.val; rw [if_neg (by decide)]
  refine shapeCast_apply Wk _ (ix3 d h cc) (ix2 d (Cert.Mha.col h cc)) ?_
  rw [Shape.rowMajor_val_two, Shape.rowMajor_val_three]
  show d.val * 1024 + (h.val * 64 + cc.val) = (d.val * 16 + h.val) * 64 + cc.val
  omega

/-- The weight array at head h, row d and column 128 + c is the v weight at row d and the head's column c. -/
theorem weightTerm_v (Wq Wk Wv : S1024x1024.Idx → EReal) (h : Fin 16) (d : Fin 1024) (cc : Fin 64) :
    weightTerm Wq Wk Wv (ix3 h d (⟨128 + cc.val, by omega⟩ : Fin 192)) = Wv (ix2 d (Cert.Mha.col h cc)) := by
  unfold weightTerm
  refine (truncf_apply (ψ := .bf16) _ bitsLt_bf16_f32 _).trans ?_
  refine (transpose_apply _ _ _ (ix3 h d (⟨128 + cc.val, by omega⟩ : Fin 192)) (ix3 d h (⟨128 + cc.val, by omega⟩ : Fin 192)) (fun b => ?_)).trans ?_
  · match b with
    | ⟨0, _⟩ => rfl
    | ⟨1, _⟩ => rfl
    | ⟨2, _⟩ => rfl
  refine (shapeCast_apply _ _ (ix3 d h (⟨128 + cc.val, by omega⟩ : Fin 192)) (ix4 d h (⟨2, by omega⟩ : Fin 3) cc) ?_).trans ?_
  · rw [Shape.rowMajor_val_four, Shape.rowMajor_val_three]
    show ((d.val * 16 + h.val) * 3 + 2) * 64 + cc.val = (d.val * 16 + h.val) * 192 + (128 + cc.val)
    omega
  refine (concatenate_apply_piece (t := S1024x16x3x64) (2 : Fin 4) [⟨S1024x16x1x64, weightPiece Wq⟩, ⟨S1024x16x1x64, weightPiece Wk⟩, ⟨S1024x16x1x64, weightPiece Wv⟩] concatenates_S1024x16x1x64_S1024x16x1x64_S1024x16x1x64_S1024x16x3x64_d2 (ix4 d h (⟨2, by omega⟩ : Fin 3) cc) 2 (by show (2 : Nat) < 3; omega) S1024x16x1x64 (weightPiece Wv) rfl rfl 2 rfl
    (ix4 d h (0 : Fin 1) cc) (fun b hb => ?_) ?_).trans ?_
  · match b with
    | ⟨0, _⟩ => rfl
    | ⟨1, _⟩ => rfl
    | ⟨2, _⟩ => exact absurd rfl hb
    | ⟨3, _⟩ => rfl
  · rfl
  refine (broadcastInDim_apply _ _ _ (ix4 d h (0 : Fin 1) cc) (ix3 d h cc) (fun a => ?_)).trans ?_
  · match a with
    | ⟨0, _⟩ => show d.val = if (1024 : Nat) = 1 then 0 else d.val; rw [if_neg (by decide)]
    | ⟨1, _⟩ => show h.val = if (16 : Nat) = 1 then 0 else h.val; rw [if_neg (by decide)]
    | ⟨2, _⟩ => show cc.val = if (64 : Nat) = 1 then 0 else cc.val; rw [if_neg (by decide)]
  refine shapeCast_apply Wv _ (ix3 d h cc) (ix2 d (Cert.Mha.col h cc)) ?_
  rw [Shape.rowMajor_val_two, Shape.rowMajor_val_three]
  show d.val * 1024 + (h.val * 64 + cc.val) = (d.val * 16 + h.val) * 64 + cc.val
  omega

/-- The weight array as the region finds it, at head h, row d and column c: the q weight argument at row d
    and column h * 64 + c. -/
theorem weight_q (c : Dev nD) (h : Fin 16) (d : Fin 1024) (cc : Fin 64) :
    (Run.vProj m ρ c main_v9 : S16x1024x192.Idx → EReal) (ix3 h d (⟨cc.val, by omega⟩ : Fin 192))
      = (m ((c : Thread nD τ).loc main_arg1) : S1024x1024.Idx → EReal) (ix2 d (Cert.Mha.col h cc)) :=
  (congrFun (vProj_weight m ρ c) _).trans (weightTerm_q _ _ _ h d cc)

/-- The bias array as the region finds it, at head h and column c: the q bias argument at h * 64 + c. -/
theorem bias_q (c : Dev nD) (h : Fin 16) (cc : Fin 64) :
    (Run.vProj m ρ c main_v18 : S16x1x192.Idx → EReal) (ix3 h (0 : Fin 1) (⟨cc.val, by omega⟩ : Fin 192))
      = (m ((c : Thread nD τ).loc main_arg2) : S1024.Idx → EReal) (ix1 (Cert.Mha.col h cc)) :=
  (congrFun (vProj_bias m ρ c) _).trans (biasTerm_q _ _ _ h cc)

/-- The weight array as the region finds it, at head h, row d and column 64 + c: the k weight argument at row d
    and column h * 64 + c. -/
theorem weight_k (c : Dev nD) (h : Fin 16) (d : Fin 1024) (cc : Fin 64) :
    (Run.vProj m ρ c main_v9 : S16x1024x192.Idx → EReal) (ix3 h d (⟨64 + cc.val, by omega⟩ : Fin 192))
      = (m ((c : Thread nD τ).loc main_arg3) : S1024x1024.Idx → EReal) (ix2 d (Cert.Mha.col h cc)) :=
  (congrFun (vProj_weight m ρ c) _).trans (weightTerm_k _ _ _ h d cc)

/-- The bias array as the region finds it, at head h and column 64 + c: the k bias argument at h * 64 + c. -/
theorem bias_k (c : Dev nD) (h : Fin 16) (cc : Fin 64) :
    (Run.vProj m ρ c main_v18 : S16x1x192.Idx → EReal) (ix3 h (0 : Fin 1) (⟨64 + cc.val, by omega⟩ : Fin 192))
      = (m ((c : Thread nD τ).loc main_arg4) : S1024.Idx → EReal) (ix1 (Cert.Mha.col h cc)) :=
  (congrFun (vProj_bias m ρ c) _).trans (biasTerm_k _ _ _ h cc)

/-- The weight array as the region finds it, at head h, row d and column 128 + c: the v weight argument at row d
    and column h * 64 + c. -/
theorem weight_v (c : Dev nD) (h : Fin 16) (d : Fin 1024) (cc : Fin 64) :
    (Run.vProj m ρ c main_v9 : S16x1024x192.Idx → EReal) (ix3 h d (⟨128 + cc.val, by omega⟩ : Fin 192))
      = (m ((c : Thread nD τ).loc main_arg5) : S1024x1024.Idx → EReal) (ix2 d (Cert.Mha.col h cc)) :=
  (congrFun (vProj_weight m ρ c) _).trans (weightTerm_v _ _ _ h d cc)

/-- The bias array as the region finds it, at head h and column 128 + c: the v bias argument at h * 64 + c. -/
theorem bias_v (c : Dev nD) (h : Fin 16) (cc : Fin 64) :
    (Run.vProj m ρ c main_v18 : S16x1x192.Idx → EReal) (ix3 h (0 : Fin 1) (⟨128 + cc.val, by omega⟩ : Fin 192))
      = (m ((c : Thread nD τ).loc main_arg6) : S1024.Idx → EReal) (ix1 (Cert.Mha.col h cc)) :=
  (congrFun (vProj_bias m ρ c) _).trans (biasTerm_v _ _ _ h cc)

/-! ## The blocks: point t is batch t / 16 and head t % 16 -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The six windows' index maps at every grid point. -/
theorem idx_facts : ∀ t : Fin cfg0.N,
    (win0_0.index t (0 : Fin 3) = t.val / 16 ∧ win0_0.index t (1 : Fin 3) = 0 ∧ win0_0.index t (2 : Fin 3) = 0)
    ∧ (win0_1.index t (0 : Fin 3) = t.val % 16 ∧ win0_1.index t (1 : Fin 3) = 0 ∧ win0_1.index t (2 : Fin 3) = 0)
    ∧ (win0_2.index t (0 : Fin 3) = t.val % 16 ∧ win0_2.index t (1 : Fin 3) = 0 ∧ win0_2.index t (2 : Fin 3) = 0)
    ∧ (win0_3.index t (0 : Fin 4) = t.val / 16 ∧ win0_3.index t (1 : Fin 4) = t.val % 16 ∧ win0_3.index t (2 : Fin 4) = 0 ∧ win0_3.index t (3 : Fin 4) = 0)
    ∧ (win0_4.index t (0 : Fin 4) = t.val / 16 ∧ win0_4.index t (1 : Fin 4) = t.val % 16 ∧ win0_4.index t (2 : Fin 4) = 0 ∧ win0_4.index t (3 : Fin 4) = 0)
    ∧ (win0_5.index t (0 : Fin 4) = t.val / 16 ∧ win0_5.index t (1 : Fin 4) = t.val % 16 ∧ win0_5.index t (2 : Fin 4) = 0 ∧ win0_5.index t (3 : Fin 4) = 0) :=
  (by decide +kernel : ∀ t : Fin grid0.N, _)

variable (V : (c : Dev nD) → (b : Ref sig .tc) → Buf (Elt Ideal) ((c : Thread nD τ).loc b))

/-- The activation block at point t is batch t / 16 of the array. -/
theorem iblk0_apply (c : Dev nD) (t : Fin cfg0.N) (z : S1x2048x1024.Idx) (k : S2x2048x1024.Idx)
    (hk0 : (k 0).val = t.val / 16) (hk1 : (k 1).val = (z 1).val) (hk2 : (k 2).val = (z 2).val) :
    (Projection.iblk V c 0 t : Vec Ideal S1x2048x1024 .f32) z = (V c main_arg0 : S2x2048x1024.Idx → EReal) k := by
  obtain ⟨⟨e0, e1, e2⟩, -⟩ := idx_facts t
  have hz0 : (z 0).val < 1 := (z 0).isLt
  unfold Projection.iblk
  rw [View.read_apply]
  show V c main_arg0 _ = V c main_arg0 _
  congr 1
  funext a
  apply Fin.ext
  match a with
  | ⟨0, _⟩ => show win0_0.index t 0 * 1 + 1 * (z 0).val = (k 0).val; rw [e0, hk0]; omega
  | ⟨1, _⟩ => show win0_0.index t 1 * 2048 + 1 * (z 1).val = (k 1).val; rw [e1, hk1]; omega
  | ⟨2, _⟩ => show win0_0.index t 2 * 1024 + 1 * (z 2).val = (k 2).val; rw [e2, hk2]; omega

/-- The weight block at point t is head t % 16 of the array. -/
theorem iblk1_apply (c : Dev nD) (t : Fin cfg0.N) (z : S1x1024x192.Idx) (k : S16x1024x192.Idx)
    (hk0 : (k 0).val = t.val % 16) (hk1 : (k 1).val = (z 1).val) (hk2 : (k 2).val = (z 2).val) :
    (Projection.iblk V c 1 t : Vec Ideal S1x1024x192 .bf16) z = (V c main_v9 : S16x1024x192.Idx → EReal) k := by
  obtain ⟨-, ⟨e0, e1, e2⟩, -⟩ := idx_facts t
  have hz0 : (z 0).val < 1 := (z 0).isLt
  unfold Projection.iblk
  rw [View.read_apply]
  show V c main_v9 _ = V c main_v9 _
  congr 1
  funext a
  apply Fin.ext
  match a with
  | ⟨0, _⟩ => show win0_1.index t 0 * 1 + 1 * (z 0).val = (k 0).val; rw [e0, hk0]; omega
  | ⟨1, _⟩ => show win0_1.index t 1 * 1024 + 1 * (z 1).val = (k 1).val; rw [e1, hk1]; omega
  | ⟨2, _⟩ => show win0_1.index t 2 * 192 + 1 * (z 2).val = (k 2).val; rw [e2, hk2]; omega

/-- The bias block at point t is head t % 16 of the array. -/
theorem iblk2_apply (c : Dev nD) (t : Fin cfg0.N) (z : S1x1x192.Idx) (k : S16x1x192.Idx)
    (hk0 : (k 0).val = t.val % 16) (hk1 : (k 1).val = (z 1).val) (hk2 : (k 2).val = (z 2).val) :
    (Projection.iblk V c 2 t : Vec Ideal S1x1x192 .f32) z = (V c main_v18 : S16x1x192.Idx → EReal) k := by
  obtain ⟨-, -, ⟨e0, e1, e2⟩, -⟩ := idx_facts t
  have hz0 : (z 0).val < 1 := (z 0).isLt
  unfold Projection.iblk
  rw [View.read_apply]
  show V c main_v18 _ = V c main_v18 _
  congr 1
  funext a
  apply Fin.ext
  match a with
  | ⟨0, _⟩ => show win0_2.index t 0 * 1 + 1 * (z 0).val = (k 0).val; rw [e0, hk0]; omega
  | ⟨1, _⟩ => show win0_2.index t 1 * 1 + 1 * (z 1).val = (k 1).val; rw [e1, hk1]; omega
  | ⟨2, _⟩ => show win0_2.index t 2 * 192 + 1 * (z 2).val = (k 2).val; rw [e2, hk2]; omega

/-- At point t the body's q payload at block index y is the q projection at any array index i with the point's
    batch and head and y's row and column. -/
theorem q_block (c : Dev nD) (t : Fin cfg0.N) (y : S1x1x2048x64.Idx) (i : S2x16x2048x64.Idx)
    (i0 : (i 0).val = t.val / 16) (i1 : (i 1).val = t.val % 16) (i2 : (i 2).val = (y 2).val) (i3 : (i 3).val = (y 3).val) :
    k0_pay2 (Projection.iblk (Run.vProj m ρ) c 0 t) (Projection.iblk (Run.vProj m ρ) c 1 t) (Projection.iblk (Run.vProj m ρ) c 2 t) y
      = Cert.Mha.proj (m ((c : Thread nD τ).loc main_arg0)) (m ((c : Thread nD τ).loc main_arg1)) (m ((c : Thread nD τ).loc main_arg2))
          (i 0) (i 1) (i 2) (i 3) := by
  have h3 : (y 3).val < 64 := (y 3).isLt
  refine (pay2_at (Projection.iblk (Run.vProj m ρ) c 0 t) (Projection.iblk (Run.vProj m ρ) c 1 t) (Projection.iblk (Run.vProj m ρ) c 2 t) y).trans ?_
  unfold Cert.Mha.proj
  refine congrArg₂ (· + ·) (Finset.sum_congr rfl fun d _ => congrArg₂ (· * ·) ?_ ?_) ?_
  · exact (iblk0_apply (Run.vProj m ρ) c t (ix3 (0 : Fin 1) (y 2) d) (ix3 (i 0) (i 2) d) i0 i2 rfl).trans
      (congrFun (vProj_x m ρ c) (ix3 (i 0) (i 2) d))
  · exact (iblk1_apply (Run.vProj m ρ) c t (ix3 (0 : Fin 1) d (⟨(y 3).val, by omega⟩ : Fin 192))
        (ix3 (i 1) d (⟨(i 3).val, by have h : (i 3).val < 64 := (i 3).isLt; omega⟩ : Fin 192)) i1 rfl (by show (i 3).val = (y 3).val; omega)).trans
      (weight_q m ρ c (i 1) d (i 3))
  · exact (iblk2_apply (Run.vProj m ρ) c t (ix3 (0 : Fin 1) (0 : Fin 1) (⟨(y 3).val, by omega⟩ : Fin 192))
        (ix3 (i 1) (0 : Fin 1) (⟨(i 3).val, by have h : (i 3).val < 64 := (i 3).isLt; omega⟩ : Fin 192)) i1 rfl (by show (i 3).val = (y 3).val; omega)).trans
      (bias_q m ρ c (i 1) (i 3))

/-- What point t writes back into the q array is block t of the q projection of the arguments. -/
theorem flushed_q (c : Dev nD) (t : Fin cfg0.N) :
    (Projection.dat (F := Ideal) (Run.vProj m ρ) c).flushed 3 t = ((cfg0.win 3).blk t).view.read (Elt Ideal)
      (fun i : S2x16x2048x64.Idx => Cert.Mha.proj (m ((c : Thread nD τ).loc main_arg0)) (m ((c : Thread nD τ).loc main_arg1)) (m ((c : Thread nD τ).loc main_arg2)) (i 0) (i 1) (i 2) (i 3)) := by
  show (cfg0.win 3).cut (grid0.coords t) ((Projection.dat (F := Ideal) (Run.vProj m ρ) c).after 3 t) = _
  rw [Projection.after_3]
  unfold Projection.outQ
  rw [View.canon_unit_zero hz4]
  simp only [View.ld_unit_zero (S := S1x2048x1024) hz3, View.ld_unit_zero (S := S1x1024x192) hz3, View.ld_unit_zero (S := S1x1x192) hz3]
  obtain ⟨-, -, -, ⟨e0, e1, e2, e3⟩, -, -⟩ := idx_facts t
  funext y
  have hy0 : (y 0).val < 1 := (y 0).isLt
  have hy1 : (y 1).val < 1 := (y 1).isLt
  exact q_block m ρ c t y (((cfg0.win 3).blk t).view.emb y)
    (by show win0_3.index t 0 * 1 + 1 * (y 0).val = t.val / 16; rw [e0]; omega)
    (by show win0_3.index t 1 * 1 + 1 * (y 1).val = t.val % 16; rw [e1]; omega)
    (by show win0_3.index t 2 * 2048 + 1 * (y 2).val = (y 2).val; rw [e2]; omega)
    (by show win0_3.index t 3 * 64 + 1 * (y 3).val = (y 3).val; rw [e3]; omega)

/-- An index of the q array is in point t's block iff each coordinate is in the block's range on its axis. -/
theorem mem_blk_q (t : Fin cfg0.N) (i : S2x16x2048x64.Idx) :
    i ∈ ((cfg0.win 3).blk t).view.set ↔ ∀ a : Fin 4, win0_3.index t a * S1x1x2048x64.size a ≤ (i a).val ∧ (i a).val < win0_3.index t a * S1x1x2048x64.size a + S1x1x2048x64.size a := by
  show i ∈ ((View.whole main_v19_0).slice (win0_3.rect t)).set ↔ _
  rw [View.set_slice_whole, Rect.mem_set_unit]
  exact Iff.rfl

/-- Every index (b, h, n, c) of the q array is in the block of point b * 16 + h. -/
theorem cover_q (i : S2x16x2048x64.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 2048 := (i 2).isLt
  have h3 : (i 3).val < 64 := (i 3).isLt
  have hN : (i 0).val * 16 + (i 1).val < cfg0.N := by rw [show cfg0.N = 32 from N_0]; omega
  refine ⟨⟨(i 0).val * 16 + (i 1).val, hN⟩, flush0_3 _, ?_⟩
  obtain ⟨-, -, -, ⟨e0, e1, e2, e3⟩, -, -⟩ := idx_facts ⟨(i 0).val * 16 + (i 1).val, hN⟩
  rw [mem_blk_q]
  intro a
  match a with
  | ⟨0, _⟩ => show win0_3.index _ 0 * 1 ≤ (i 0).val ∧ (i 0).val < win0_3.index _ 0 * 1 + 1; rw [e0]; show ((i 0).val * 16 + (i 1).val) / 16 * 1 ≤ (i 0).val ∧ (i 0).val < ((i 0).val * 16 + (i 1).val) / 16 * 1 + 1; omega
  | ⟨1, _⟩ => show win0_3.index _ 1 * 1 ≤ (i 1).val ∧ (i 1).val < win0_3.index _ 1 * 1 + 1; rw [e1]; show ((i 0).val * 16 + (i 1).val) % 16 * 1 ≤ (i 1).val ∧ (i 1).val < ((i 0).val * 16 + (i 1).val) % 16 * 1 + 1; omega
  | ⟨2, _⟩ => show win0_3.index _ 2 * 2048 ≤ (i 2).val ∧ (i 2).val < win0_3.index _ 2 * 2048 + 2048; rw [e2]; omega
  | ⟨3, _⟩ => show win0_3.index _ 3 * 64 ≤ (i 3).val ∧ (i 3).val < win0_3.index _ 3 * 64 + 64; rw [e3]; omega

/-- The q array after the region: the q projection of the arguments, laid out by head. -/
theorem proj_q (c : Dev nD) :
    (Projection.dat (F := Ideal) (Run.vProj m ρ) c).arrAt 3 cfg0.N
      = fun i : S2x16x2048x64.Idx => Cert.Mha.proj (m ((c : Thread nD τ).loc main_arg0)) (m ((c : Thread nD τ).loc main_arg1)) (m ((c : Thread nD τ).loc main_arg2)) (i 0) (i 1) (i 2) (i 3) :=
  (Projection.dat (F := Ideal) (Run.vProj m ρ) c).arrAt_eq_of_cover 3 _ (fun t _ => flushed_q m ρ c t) cover_q

/-- At point t the body's k payload at block index y is the k projection at any array index i with the point's
    batch and head and y's row and column. -/
theorem k_block (c : Dev nD) (t : Fin cfg0.N) (y : S1x1x2048x64.Idx) (i : S2x16x2048x64.Idx)
    (i0 : (i 0).val = t.val / 16) (i1 : (i 1).val = t.val % 16) (i2 : (i 2).val = (y 2).val) (i3 : (i 3).val = (y 3).val) :
    k0_pay3 (Projection.iblk (Run.vProj m ρ) c 0 t) (Projection.iblk (Run.vProj m ρ) c 1 t) (Projection.iblk (Run.vProj m ρ) c 2 t) y
      = Cert.Mha.proj (m ((c : Thread nD τ).loc main_arg0)) (m ((c : Thread nD τ).loc main_arg3)) (m ((c : Thread nD τ).loc main_arg4))
          (i 0) (i 1) (i 2) (i 3) := by
  have h3 : (y 3).val < 64 := (y 3).isLt
  refine (pay3_at (Projection.iblk (Run.vProj m ρ) c 0 t) (Projection.iblk (Run.vProj m ρ) c 1 t) (Projection.iblk (Run.vProj m ρ) c 2 t) y).trans ?_
  unfold Cert.Mha.proj
  refine congrArg₂ (· + ·) (Finset.sum_congr rfl fun d _ => congrArg₂ (· * ·) ?_ ?_) ?_
  · exact (iblk0_apply (Run.vProj m ρ) c t (ix3 (0 : Fin 1) (y 2) d) (ix3 (i 0) (i 2) d) i0 i2 rfl).trans
      (congrFun (vProj_x m ρ c) (ix3 (i 0) (i 2) d))
  · exact (iblk1_apply (Run.vProj m ρ) c t (ix3 (0 : Fin 1) d (⟨64 + (y 3).val, by omega⟩ : Fin 192))
        (ix3 (i 1) d (⟨64 + (i 3).val, by have h : (i 3).val < 64 := (i 3).isLt; omega⟩ : Fin 192)) i1 rfl (by show 64 + (i 3).val = 64 + (y 3).val; omega)).trans
      (weight_k m ρ c (i 1) d (i 3))
  · exact (iblk2_apply (Run.vProj m ρ) c t (ix3 (0 : Fin 1) (0 : Fin 1) (⟨64 + (y 3).val, by omega⟩ : Fin 192))
        (ix3 (i 1) (0 : Fin 1) (⟨64 + (i 3).val, by have h : (i 3).val < 64 := (i 3).isLt; omega⟩ : Fin 192)) i1 rfl (by show 64 + (i 3).val = 64 + (y 3).val; omega)).trans
      (bias_k m ρ c (i 1) (i 3))

/-- What point t writes back into the k array is block t of the k projection of the arguments. -/
theorem flushed_k (c : Dev nD) (t : Fin cfg0.N) :
    (Projection.dat (F := Ideal) (Run.vProj m ρ) c).flushed 4 t = ((cfg0.win 4).blk t).view.read (Elt Ideal)
      (fun i : S2x16x2048x64.Idx => Cert.Mha.proj (m ((c : Thread nD τ).loc main_arg0)) (m ((c : Thread nD τ).loc main_arg3)) (m ((c : Thread nD τ).loc main_arg4)) (i 0) (i 1) (i 2) (i 3)) := by
  show (cfg0.win 4).cut (grid0.coords t) ((Projection.dat (F := Ideal) (Run.vProj m ρ) c).after 4 t) = _
  rw [Projection.after_4]
  unfold Projection.outK
  rw [View.canon_unit_zero hz4]
  simp only [View.ld_unit_zero (S := S1x2048x1024) hz3, View.ld_unit_zero (S := S1x1024x192) hz3, View.ld_unit_zero (S := S1x1x192) hz3]
  obtain ⟨-, -, -, -, ⟨e0, e1, e2, e3⟩, -⟩ := idx_facts t
  funext y
  have hy0 : (y 0).val < 1 := (y 0).isLt
  have hy1 : (y 1).val < 1 := (y 1).isLt
  exact k_block m ρ c t y (((cfg0.win 4).blk t).view.emb y)
    (by show win0_4.index t 0 * 1 + 1 * (y 0).val = t.val / 16; rw [e0]; omega)
    (by show win0_4.index t 1 * 1 + 1 * (y 1).val = t.val % 16; rw [e1]; omega)
    (by show win0_4.index t 2 * 2048 + 1 * (y 2).val = (y 2).val; rw [e2]; omega)
    (by show win0_4.index t 3 * 64 + 1 * (y 3).val = (y 3).val; rw [e3]; omega)

/-- An index of the k array is in point t's block iff each coordinate is in the block's range on its axis. -/
theorem mem_blk_k (t : Fin cfg0.N) (i : S2x16x2048x64.Idx) :
    i ∈ ((cfg0.win 4).blk t).view.set ↔ ∀ a : Fin 4, win0_4.index t a * S1x1x2048x64.size a ≤ (i a).val ∧ (i a).val < win0_4.index t a * S1x1x2048x64.size a + S1x1x2048x64.size a := by
  show i ∈ ((View.whole main_v19_1).slice (win0_4.rect t)).set ↔ _
  rw [View.set_slice_whole, Rect.mem_set_unit]
  exact Iff.rfl

/-- Every index (b, h, n, c) of the k array is in the block of point b * 16 + h. -/
theorem cover_k (i : S2x16x2048x64.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  have hN : (i 0).val * 16 + (i 1).val < cfg0.N := by rw [show cfg0.N = 32 from N_0]; omega
  refine ⟨⟨(i 0).val * 16 + (i 1).val, hN⟩, flush0_4 _, ?_⟩
  obtain ⟨-, -, -, -, ⟨e0, e1, e2, e3⟩, -⟩ := idx_facts ⟨(i 0).val * 16 + (i 1).val, hN⟩
  rw [mem_blk_k]
  intro a
  match a with
  | ⟨0, _⟩ => show win0_4.index _ 0 * 1 ≤ (i 0).val ∧ (i 0).val < win0_4.index _ 0 * 1 + 1; rw [e0]; show ((i 0).val * 16 + (i 1).val) / 16 * 1 ≤ (i 0).val ∧ (i 0).val < ((i 0).val * 16 + (i 1).val) / 16 * 1 + 1; omega
  | ⟨1, _⟩ => show win0_4.index _ 1 * 1 ≤ (i 1).val ∧ (i 1).val < win0_4.index _ 1 * 1 + 1; rw [e1]; show ((i 0).val * 16 + (i 1).val) % 16 * 1 ≤ (i 1).val ∧ (i 1).val < ((i 0).val * 16 + (i 1).val) % 16 * 1 + 1; omega
  | ⟨2, _⟩ => show win0_4.index _ 2 * 2048 ≤ (i 2).val ∧ (i 2).val < win0_4.index _ 2 * 2048 + 2048; rw [e2]; omega
  | ⟨3, _⟩ => show win0_4.index _ 3 * 64 ≤ (i 3).val ∧ (i 3).val < win0_4.index _ 3 * 64 + 64; rw [e3]; omega

/-- The k array after the region: the k projection of the arguments, laid out by head. -/
theorem proj_k (c : Dev nD) :
    (Projection.dat (F := Ideal) (Run.vProj m ρ) c).arrAt 4 cfg0.N
      = fun i : S2x16x2048x64.Idx => Cert.Mha.proj (m ((c : Thread nD τ).loc main_arg0)) (m ((c : Thread nD τ).loc main_arg3)) (m ((c : Thread nD τ).loc main_arg4)) (i 0) (i 1) (i 2) (i 3) :=
  (Projection.dat (F := Ideal) (Run.vProj m ρ) c).arrAt_eq_of_cover 4 _ (fun t _ => flushed_k m ρ c t) cover_k

/-- At point t the body's v payload at block index y is the v projection at any array index i with the point's
    batch and head and y's row and column. -/
theorem v_block (c : Dev nD) (t : Fin cfg0.N) (y : S1x1x2048x64.Idx) (i : S2x16x2048x64.Idx)
    (i0 : (i 0).val = t.val / 16) (i1 : (i 1).val = t.val % 16) (i2 : (i 2).val = (y 2).val) (i3 : (i 3).val = (y 3).val) :
    k0_pay4 (Projection.iblk (Run.vProj m ρ) c 0 t) (Projection.iblk (Run.vProj m ρ) c 1 t) (Projection.iblk (Run.vProj m ρ) c 2 t) y
      = Cert.Mha.proj (m ((c : Thread nD τ).loc main_arg0)) (m ((c : Thread nD τ).loc main_arg5)) (m ((c : Thread nD τ).loc main_arg6))
          (i 0) (i 1) (i 2) (i 3) := by
  have h3 : (y 3).val < 64 := (y 3).isLt
  refine (pay4_at (Projection.iblk (Run.vProj m ρ) c 0 t) (Projection.iblk (Run.vProj m ρ) c 1 t) (Projection.iblk (Run.vProj m ρ) c 2 t) y).trans ?_
  unfold Cert.Mha.proj
  refine congrArg₂ (· + ·) (Finset.sum_congr rfl fun d _ => congrArg₂ (· * ·) ?_ ?_) ?_
  · exact (iblk0_apply (Run.vProj m ρ) c t (ix3 (0 : Fin 1) (y 2) d) (ix3 (i 0) (i 2) d) i0 i2 rfl).trans
      (congrFun (vProj_x m ρ c) (ix3 (i 0) (i 2) d))
  · exact (iblk1_apply (Run.vProj m ρ) c t (ix3 (0 : Fin 1) d (⟨128 + (y 3).val, by omega⟩ : Fin 192))
        (ix3 (i 1) d (⟨128 + (i 3).val, by have h : (i 3).val < 64 := (i 3).isLt; omega⟩ : Fin 192)) i1 rfl (by show 128 + (i 3).val = 128 + (y 3).val; omega)).trans
      (weight_v m ρ c (i 1) d (i 3))
  · exact (iblk2_apply (Run.vProj m ρ) c t (ix3 (0 : Fin 1) (0 : Fin 1) (⟨128 + (y 3).val, by omega⟩ : Fin 192))
        (ix3 (i 1) (0 : Fin 1) (⟨128 + (i 3).val, by have h : (i 3).val < 64 := (i 3).isLt; omega⟩ : Fin 192)) i1 rfl (by show 128 + (i 3).val = 128 + (y 3).val; omega)).trans
      (bias_v m ρ c (i 1) (i 3))

/-- What point t writes back into the v array is block t of the v projection of the arguments. -/
theorem flushed_v (c : Dev nD) (t : Fin cfg0.N) :
    (Projection.dat (F := Ideal) (Run.vProj m ρ) c).flushed 5 t = ((cfg0.win 5).blk t).view.read (Elt Ideal)
      (fun i : S2x16x2048x64.Idx => Cert.Mha.proj (m ((c : Thread nD τ).loc main_arg0)) (m ((c : Thread nD τ).loc main_arg5)) (m ((c : Thread nD τ).loc main_arg6)) (i 0) (i 1) (i 2) (i 3)) := by
  show (cfg0.win 5).cut (grid0.coords t) ((Projection.dat (F := Ideal) (Run.vProj m ρ) c).after 5 t) = _
  rw [Projection.after_5]
  unfold Projection.outV
  rw [View.canon_unit_zero hz4]
  simp only [View.ld_unit_zero (S := S1x2048x1024) hz3, View.ld_unit_zero (S := S1x1024x192) hz3, View.ld_unit_zero (S := S1x1x192) hz3]
  obtain ⟨-, -, -, -, -, ⟨e0, e1, e2, e3⟩⟩ := idx_facts t
  funext y
  have hy0 : (y 0).val < 1 := (y 0).isLt
  have hy1 : (y 1).val < 1 := (y 1).isLt
  exact v_block m ρ c t y (((cfg0.win 5).blk t).view.emb y)
    (by show win0_5.index t 0 * 1 + 1 * (y 0).val = t.val / 16; rw [e0]; omega)
    (by show win0_5.index t 1 * 1 + 1 * (y 1).val = t.val % 16; rw [e1]; omega)
    (by show win0_5.index t 2 * 2048 + 1 * (y 2).val = (y 2).val; rw [e2]; omega)
    (by show win0_5.index t 3 * 64 + 1 * (y 3).val = (y 3).val; rw [e3]; omega)

/-- An index of the v array is in point t's block iff each coordinate is in the block's range on its axis. -/
theorem mem_blk_v (t : Fin cfg0.N) (i : S2x16x2048x64.Idx) :
    i ∈ ((cfg0.win 5).blk t).view.set ↔ ∀ a : Fin 4, win0_5.index t a * S1x1x2048x64.size a ≤ (i a).val ∧ (i a).val < win0_5.index t a * S1x1x2048x64.size a + S1x1x2048x64.size a := by
  show i ∈ ((View.whole main_v19_2).slice (win0_5.rect t)).set ↔ _
  rw [View.set_slice_whole, Rect.mem_set_unit]
  exact Iff.rfl

/-- Every index (b, h, n, c) of the v array is in the block of point b * 16 + h. -/
theorem cover_v (i : S2x16x2048x64.Idx) : ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 64 := (i 3).isLt
  have hN : (i 0).val * 16 + (i 1).val < cfg0.N := by rw [show cfg0.N = 32 from N_0]; omega
  refine ⟨⟨(i 0).val * 16 + (i 1).val, hN⟩, flush0_5 _, ?_⟩
  obtain ⟨-, -, -, -, -, ⟨e0, e1, e2, e3⟩⟩ := idx_facts ⟨(i 0).val * 16 + (i 1).val, hN⟩
  rw [mem_blk_v]
  intro a
  match a with
  | ⟨0, _⟩ => show win0_5.index _ 0 * 1 ≤ (i 0).val ∧ (i 0).val < win0_5.index _ 0 * 1 + 1; rw [e0]; show ((i 0).val * 16 + (i 1).val) / 16 * 1 ≤ (i 0).val ∧ (i 0).val < ((i 0).val * 16 + (i 1).val) / 16 * 1 + 1; omega
  | ⟨1, _⟩ => show win0_5.index _ 1 * 1 ≤ (i 1).val ∧ (i 1).val < win0_5.index _ 1 * 1 + 1; rw [e1]; show ((i 0).val * 16 + (i 1).val) % 16 * 1 ≤ (i 1).val ∧ (i 1).val < ((i 0).val * 16 + (i 1).val) % 16 * 1 + 1; omega
  | ⟨2, _⟩ => show win0_5.index _ 2 * 2048 ≤ (i 2).val ∧ (i 2).val < win0_5.index _ 2 * 2048 + 2048; rw [e2]; omega
  | ⟨3, _⟩ => show win0_5.index _ 3 * 64 ≤ (i 3).val ∧ (i 3).val < win0_5.index _ 3 * 64 + 64; rw [e3]; omega

/-- The v array after the region: the v projection of the arguments, laid out by head. -/
theorem proj_v (c : Dev nD) :
    (Projection.dat (F := Ideal) (Run.vProj m ρ) c).arrAt 5 cfg0.N
      = fun i : S2x16x2048x64.Idx => Cert.Mha.proj (m ((c : Thread nD τ).loc main_arg0)) (m ((c : Thread nD τ).loc main_arg5)) (m ((c : Thread nD τ).loc main_arg6)) (i 0) (i 1) (i 2) (i 3) :=
  (Projection.dat (F := Ideal) (Run.vProj m ρ) c).arrAt_eq_of_cover 5 _ (fun t _ => flushed_v m ρ c t) cover_v

end Cert.KernelIdeal.ProjValue

end
-- ==== Proof.KernelIdeal.Between.lean ====
/-
  Between the two regions: what the attention region finds in the buffers it reads that the second stretch of host
  operations or the projection region produced.

    wo_apply   the output weight split by head (a reshape 1024x1024 -> 16x64x1024, then a format change that is the
               identity on extended reals): entry (h, c', e) is the launch weight at (h*64 + c', e);
    bo_apply   the output bias as a row (a reshape 1024 -> 1x1024): entry (0, e) is the launch bias at e;
    q_in, k_in, v_in   no operation of the second stretch writes the three projection outputs, so the attention
               region reads them as the projection region's write-backs left them.

  An argument array is still at its launch contents when the second stretch starts: it is no output of the
  projection region and no operation of the first stretch writes it (arg7_before, arg8_before).
-/
import proofs.«174402_j5239860101318_2_alg».proof.Proof.KernelIdeal.Run
import proofs.«174402_j5239860101318_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Between

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-! ## An argument array is still at its launch contents when the second host stretch starts -/

/-- The output weight, as the second host stretch finds it, is the launch memory's. -/
theorem arg7_before : Run.afterProj m ρ c (Proc.devRef .tc main_arg7) = m ((c : Thread nD τ).loc main_arg7) :=
  calc Run.afterProj m ρ c (Proc.devRef .tc main_arg7)
    _ = Run.atProj m ρ c (Proc.devRef .tc main_arg7) := Run.afterProj_of_ne m ρ c main_arg7 (by decide)
    _ = Run.atLaunch m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg7) := rfl

/-- The output bias, as the second host stretch finds it, is the launch memory's. -/
theorem arg8_before : Run.afterProj m ρ c (Proc.devRef .tc main_arg8) = m ((c : Thread nD τ).loc main_arg8) :=
  calc Run.afterProj m ρ c (Proc.devRef .tc main_arg8)
    _ = Run.atProj m ρ c (Proc.devRef .tc main_arg8) := Run.afterProj_of_ne m ρ c main_arg8 (by decide)
    _ = Run.atLaunch m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg8) := rfl

/-! ## The output weight and bias as the attention region finds them -/

/-- The attention region's output weight, split by head: entry (h, c', e) is the launch weight at row h*64 + c',
    column e (a reshape, then a format change that is the identity on extended reals). -/
theorem wo_apply (h : Fin 16) (c' : Fin 64) (e : Fin 1024) :
    Run.vAttn m ρ c main_v21 (ix3 h c' e) = m ((c : Thread nD τ).loc main_arg7) (ix2 (Cert.Mha.col h c') e) := by
  dsimp only [Run.vAttn, Run.atAttn, hostOps1]
  after_results
  rw [arg7_before]
  show shapeCast S16x64x1024 (m ((c : Thread nD τ).loc main_arg7) : S1024x1024.Idx → EReal)
    shapeCasts_S1024x1024_S16x64x1024 (ix3 h c' e) = _
  exact shapeCast_apply _ shapeCasts_S1024x1024_S16x64x1024 (ix3 h c' e) (ix2 (Cert.Mha.col h c') e)
    (by rewrite [Shape.rowMajor_val_two, Shape.rowMajor_val_three]
        show (h.val * 64 + c'.val) * 1024 + e.val = (h.val * 64 + c'.val) * 1024 + e.val
        rfl)

/-- The attention region's output bias, as a row: entry (0, e) is the launch bias at e. -/
theorem bo_apply (e : Fin 1024) :
    Run.vAttn m ρ c main_v22 (ix2 (0 : Fin 1) e) = m ((c : Thread nD τ).loc main_arg8) (ix1 e) := by
  dsimp only [Run.vAttn, Run.atAttn, hostOps1]
  after_results
  rw [arg8_before]
  show shapeCast S1x1024 (m ((c : Thread nD τ).loc main_arg8) : S1024.Idx → EReal)
    shapeCasts_S1024_S1x1024 (ix2 (0 : Fin 1) e) = _
  exact shapeCast_apply _ shapeCasts_S1024_S1x1024 (ix2 (0 : Fin 1) e) (ix1 e)
    (by rewrite [Shape.rowMajor_val_one, Shape.rowMajor_val_two]
        show e.val = 0 * 1024 + e.val
        omega)

/-! ## The attention region reads q, k, v as the projection region's write-backs left them -/

/-- The query array at the attention region's entry. -/
theorem q_in : (Run.vAttn m ρ c main_v19_0 : S2x16x2048x64.Idx → EReal)
    = (Cert.KernelIdeal.Projection.dat (F := Ideal) (Run.vProj m ρ) c).arrAt 3 cfg0.N := by
  refine Eq.trans ?_ (Run.afterProj_arr m ρ c 3)
  exact StableHlo.after_of_forall_not_mem (b := Proc.devRef .tc main_v19_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-- The key array at the attention region's entry. -/
theorem k_in : (Run.vAttn m ρ c main_v19_1 : S2x16x2048x64.Idx → EReal)
    = (Cert.KernelIdeal.Projection.dat (F := Ideal) (Run.vProj m ρ) c).arrAt 4 cfg0.N := by
  refine Eq.trans ?_ (Run.afterProj_arr m ρ c 4)
  exact StableHlo.after_of_forall_not_mem (b := Proc.devRef .tc main_v19_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-- The value array at the attention region's entry. -/
theorem v_in : (Run.vAttn m ρ c main_v19_2 : S2x16x2048x64.Idx → EReal)
    = (Cert.KernelIdeal.Projection.dat (F := Ideal) (Run.vProj m ρ) c).arrAt 5 cfg0.N := by
  refine Eq.trans ?_ (Run.afterProj_arr m ρ c 5)
  exact StableHlo.after_of_forall_not_mem (b := Proc.devRef .tc main_v19_2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

end Cert.KernelIdeal.Between

end
-- ==== Proof.KernelIdeal.Result.lean ====
/-
  The idealized kernel's result array is multi-head self-attention of its nine arguments.  The attention region leaves
  its closed form of the five arrays it is entered from; three of those are the projection region's outputs, which are
  the three projections laid out by head; the other two are the output weight split by head (row h*64 + c of the
  weight is head h's row c) and the bias as a row.  Substituting, the closed form is the specification, term for term.
-/
import proofs.«174402_j5239860101318_2_alg».proof.Proof.KernelIdeal.AttnValue
import proofs.«174402_j5239860101318_2_alg».proof.Proof.KernelIdeal.HeadStep
import proofs.«174402_j5239860101318_2_alg».proof.Proof.KernelIdeal.ProjValue
import proofs.«174402_j5239860101318_2_alg».proof.Proof.KernelIdeal.Between
import proofs.«174402_j5239860101318_2_alg».proof.Proof.Spec

noncomputable section

open scoped BigOperators

namespace Cert.KernelIdeal.Result

open Idealize.ShloMosaic Idealize.ShloMosaic.TcCoe Idealize.SL.Sem Idealize.ShloMosaic.ValueIdx
open Cert.KernelIdeal Cert.KernelIdeal.Gen

/-- The attention region's closed form, at the three projections by head, the weight split by head and the bias as a
    row, is the specification. -/
theorem GA_is_mha (x : Cert.Mha.Act) (Wq : Cert.Mha.Mat) (bq : Cert.Mha.Vc) (Wk : Cert.Mha.Mat) (bk : Cert.Mha.Vc) (Wv : Cert.Mha.Mat) (bv : Cert.Mha.Vc)
    (Wo : Cert.Mha.Mat) (bo : Cert.Mha.Vc) :
    AttnValue.GA (fun i : S2x16x2048x64.Idx => Cert.Mha.proj x Wq bq (i 0) (i 1) (i 2) (i 3))
        (fun i : S2x16x2048x64.Idx => Cert.Mha.proj x Wk bk (i 0) (i 1) (i 2) (i 3))
        (fun i : S2x16x2048x64.Idx => Cert.Mha.proj x Wv bv (i 0) (i 1) (i 2) (i 3))
        (fun i : S16x64x1024.Idx => Wo (ix2 (Cert.Mha.col (i 0) (i 1)) (i 2)))
        (fun i : S1x1024.Idx => bo (ix1 (i 1)))
      = Cert.Mha.mha x Wq bq Wk bk Wv bv Wo bo := by
  funext i
  rfl

variable (m : (ℓ : Loc nD τ sig) → Buf (Elt Ideal) ℓ) (ρ : Dev nD → PrngReg) (c : Dev nD)

/-- What the run leaves in the result array. -/
theorem kernel_result : Run.afterAttn m ρ c (Proc.devRef .tc main_v23)
    = Cert.Mha.mha (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hw : (Run.vAttn m ρ c main_v21 : S16x64x1024.Idx → EReal) = fun i => (m ((c : Thread nD τ).loc main_arg7)) (ix2 (Cert.Mha.col (i 0) (i 1)) (i 2)) := by
    funext i
    obtain ⟨h, c', e, rfl⟩ : ∃ (h : Fin 16) (c' : Fin 64) (e : Fin 1024), i = ix3 h c' e := ⟨i 0, i 1, i 2, eq_ix3 i⟩
    exact Between.wo_apply m ρ c h c' e
  have hb : (Run.vAttn m ρ c main_v22 : S1x1024.Idx → EReal) = fun i => (m ((c : Thread nD τ).loc main_arg8)) (ix1 (i 1)) := by
    funext i
    obtain ⟨a, e, rfl⟩ : ∃ (a : Fin 1) (e : Fin 1024), i = ix2 a e := ⟨i 0, i 1, eq_ix2 i⟩
    obtain rfl : a = 0 := Subsingleton.elim _ _
    exact Between.bo_apply m ρ c e
  calc Run.afterAttn m ρ c (Proc.devRef .tc main_v23)
      = (Attention.dat (F := Ideal) (Run.vAttn m ρ) c).arrAt 5 cfg1.N := Run.afterAttn_arr m ρ c 5
    _ = AttnValue.GA (Run.vAttn m ρ c main_v19_0) (Run.vAttn m ρ c main_v19_1) (Run.vAttn m ρ c main_v19_2) (Run.vAttn m ρ c main_v21) (Run.vAttn m ρ c main_v22) :=
        AttnValue.attn_final HeadStep.pay1_apply HeadStep.pay2_apply HeadStep.pay3_apply (Run.vAttn m ρ) c
    _ = _ := by
        rw [Between.q_in m ρ c, Between.k_in m ρ c, Between.v_in m ρ c, ProjValue.proj_q m ρ c, ProjValue.proj_k m ρ c, ProjValue.proj_v m ρ c, hw, hb]
        exact GA_is_mha _ _ _ _ _ _ _ _ _

end Cert.KernelIdeal.Result

end
-- ==== Proof.RefValue.lean ====
/-
  The reference program's result is multi-head self-attention of its nine arguments (Cert.Mha.mha), index by index,
  on every extended real.  One lemma per stage of the reference, each read at an index built from literal coordinates:

    q_eq, k_eq, v_eq   the three projections (a contraction over the model dimension plus the bias, then the model
                       dimension split into 16 heads of 64 columns and the head axis moved forward) are Mha.proj;
    score_eq           the contraction over a head's 64 columns divided by the square root of 64 is Mha.score:
                       the square root of 64 is 8 and dividing by the real 8 is multiplying by one eighth;
    max_eq             the max-reduce over the last axis from minus infinity is the fold of max over the row, and the
                       further maximum with minus infinity changes nothing (minus infinity is the bottom element);
    expo_eq, soft_eq   the shifted exponentials and their quotient by the row sum (the sum starts from zero);
    headOut_eq         the contraction of the softmax row with a head's value columns is Mha.headOut;
    out_eq             the last contraction runs over d in the model dimension; d = h*64 + c runs once over it as
                       (h, c) runs over heads and columns (colEquiv, sum_col), which gives Mha.mhaAt.
-/
import proofs.«174402_j5239860101318_2_alg».proof.Proof.Gen.ReferenceIdeal.Read
import proofs.«174402_j5239860101318_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Mha

/-- The activation array's type. -/
abbrev TA : Type := (⟨S2x2048x1024, .f32⟩ : BufTy).Contents (Elt Ideal)
/-- A weight matrix's type. -/
abbrev TW : Type := (⟨S1024x1024, .f32⟩ : BufTy).Contents (Elt Ideal)
/-- A bias vector's type. -/
abbrev TB : Type := (⟨S1024, .f32⟩ : BufTy).Contents (Elt Ideal)

/-! ## The float constants the reference spells, as extended reals -/

/-- The word of 64.0 denotes the real 64. -/
theorem ofBits_64 : Ideal.ofBits .f32 0x42800000#32 = ((64 : ℝ) : EReal) := by
  simp [Ideal.ofBits, Ideal.ieee, -EReal.coe_mul]; norm_num

/-- The word of 0.125 denotes the real one eighth. -/
theorem ofBits_eighth : Ideal.ofBits .f32 0x3E000000#32 = ((1 / 8 : ℝ) : EReal) := by
  simp [Ideal.ofBits, Ideal.ieee, -EReal.coe_mul]; norm_num

/-- The word of minus infinity denotes the bottom element. -/
theorem ofBits_neg_inf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  refine congrArg _ ?_
  rw [show (64 : ℝ) = 8 ^ 2 by norm_num, Real.sqrt_sq (by norm_num)]

/-- Dividing by the square root of 64 is multiplying by one eighth, on every extended real. -/
theorem scale_law (s : EReal) :
    Ideal.div s (Ideal.sqrt (Ideal.ofBits .f32 0x42800000#32)) = s * Ideal.ofBits .f32 0x3E000000#32 := by
  rw [ofBits_64, sqrt_64, Ideal.div_coe (by norm_num), ofBits_eighth]

/-! ## Index equations: reshape and transpose between the model dimension and (head, column) -/

/-- Splitting the model dimension into 16 heads of 64 columns and moving the head axis forward reads the
    activation at column h*64 + c. -/
theorem split_idx (bb : Fin 2) (h : Fin 16) (n : Fin 2048) (c : Fin 64) :
    idx_main_v4 (idx_main_v5 (ix4 bb h n c)) = ix3 bb n (col h c) := by
  funext a
  refine Fin.ext ?_
  have hb := bb.isLt; have hh := h.isLt; have hn := n.isLt; have hc := c.isLt
  match a with
  | ⟨0, _⟩ => show (((bb.val * 2048 + n.val) * 16 + h.val) * 64 + c.val) / 2097152 = bb.val; omega
  | ⟨1, _⟩ => show (((bb.val * 2048 + n.val) * 16 + h.val) * 64 + c.val) / 1024 % 2048 = n.val; omega
  | ⟨2, _⟩ => show (((bb.val * 2048 + n.val) * 16 + h.val) * 64 + c.val) % 1024 = h.val * 64 + c.val; omega

/-- The query projection of the reference, read by (batch, head, row, column). -/
theorem q_eq (x0 : TA) (x1 : TW) (x2 : TB) (bb : Fin 2) (h : Fin 16) (n : Fin 2048) (c : Fin 64) :
    val_main_v5 (F := Ideal) x0 x1 x2 (ix4 bb h n c) = proj x0 x1 x2 bb h n c := by
  rw [val_main_v5_apply, val_main_v4_apply]
  refine (congrArg _ (split_idx bb h n c)).trans ?_
  rw [val_main_v3_apply, val_main_v0_apply, val_main_v2_apply, val_main_v1_apply]
  have el : ∀ k : Fin 1024, lidx_main_v0 (ix3 bb n (col h c)) k = ix3 bb n k := fun k =>
    funext fun a => Fin.ext (by match a with | ⟨0, _⟩ => rfl | ⟨1, _⟩ => rfl | ⟨2, _⟩ => rfl)
  have er : ∀ k : Fin 1024, ridx_main_v0 (ix3 bb n (col h c)) k = ix2 k (col h c) := fun k =>
    funext fun a => Fin.ext (by match a with | ⟨0, _⟩ => rfl | ⟨1, _⟩ => rfl)
  have eb : idx_main_v1 (idx_main_v2 (ix3 bb n (col h c))) = ix1 (col h c) :=
    funext fun a => Fin.ext (by match a with | ⟨0, _⟩ => rfl)
  simp only [el, er, eb, Ideal.addf_def]
  rfl

/-- The key projection of the reference, read by (batch, head, row, column). -/
theorem k_eq (x0 : TA) (x3 : TW) (x4 : TB) (bb : Fin 2) (h : Fin 16) (n : Fin 2048) (c : Fin 64) :
    val_main_v11 (F := Ideal) x0 x3 x4 (ix4 bb h n c) = proj x0 x3 x4 bb h n c := by
  rw [val_main_v11_apply, val_main_v10_apply]
  refine (congrArg _ (split_idx bb h n c)).trans ?_
  rw [val_main_v9_apply, val_main_v6_apply, val_main_v8_apply, val_main_v7_apply]
  have el : ∀ k : Fin 1024, lidx_main_v6 (ix3 bb n (col h c)) k = ix3 bb n k := fun k =>
    funext fun a => Fin.ext (by match a with | ⟨0, _⟩ => rfl | ⟨1, _⟩ => rfl | ⟨2, _⟩ => rfl)
  have er : ∀ k : Fin 1024, ridx_main_v6 (ix3 bb n (col h c)) k = ix2 k (col h c) := fun k =>
    funext fun a => Fin.ext (by match a with | ⟨0, _⟩ => rfl | ⟨1, _⟩ => rfl)
  have eb : idx_main_v7 (idx_main_v8 (ix3 bb n (col h c))) = ix1 (col h c) :=
    funext fun a => Fin.ext (by match a with | ⟨0, _⟩ => rfl)
  simp only [el, er, eb, Ideal.addf_def]
  rfl

/-- The value projection of the reference, read by (batch, head, row, column). -/
theorem v_eq (x0 : TA) (x5 : TW) (x6 : TB) (bb : Fin 2) (h : Fin 16) (n : Fin 2048) (c : Fin 64) :
    val_main_v17 (F := Ideal) x0 x5 x6 (ix4 bb h n c) = proj x0 x5 x6 bb h n c := by
  rw [val_main_v17_apply, val_main_v16_apply]
  refine (congrArg _ (split_idx bb h n c)).trans ?_
  rw [val_main_v15_apply, val_main_v12_apply, val_main_v14_apply, val_main_v13_apply]
  have el : ∀ k : Fin 1024, lidx_main_v12 (ix3 bb n (col h c)) k = ix3 bb n k := fun k =>
    funext fun a => Fin.ext (by match a with | ⟨0, _⟩ => rfl | ⟨1, _⟩ => rfl | ⟨2, _⟩ => rfl)
  have er : ∀ k : Fin 1024, ridx_main_v12 (ix3 bb n (col h c)) k = ix2 k (col h c) := fun k =>
    funext fun a => Fin.ext (by match a with | ⟨0, _⟩ => rfl | ⟨1, _⟩ => rfl)
  have eb : idx_main_v13 (idx_main_v14 (ix3 bb n (col h c))) = ix1 (col h c) :=
    funext fun a => Fin.ext (by match a with | ⟨0, _⟩ => rfl)
  simp only [el, er, eb, Ideal.addf_def]
  rfl

/-! ## The scaled scores -/

/-- The reference's scores divided by the square root of 64 are the specification's scaled scores. -/
theorem score_eq (x0 : TA) (x1 : TW) (x2 : TB) (x3 : TW) (x4 : TB) (bb : Fin 2) (h : Fin 16) (n m : Fin 2048) :
    val_main_v21 (F := Ideal) x0 x1 x2 x3 x4 (ix4 bb h n m) = score (proj x0 x1 x2) (proj x0 x3 x4) bb h n m := by
  rw [val_main_v21_apply, val_main_v18_apply, val_main_v20_apply, val_main_v19_apply, val_main_cst_apply]
  have el : ∀ k : Fin 64, lidx_main_v18 (ix4 bb h n m) k = ix4 bb h n k := fun k =>
    funext fun a => Fin.ext (by match a with | ⟨0, _⟩ => rfl | ⟨1, _⟩ => rfl | ⟨2, _⟩ => rfl | ⟨3, _⟩ => rfl)
  have er : ∀ k : Fin 64, ridx_main_v18 (ix4 bb h n m) k = ix4 bb h m k := fun k =>
    funext fun a => Fin.ext (by match a with | ⟨0, _⟩ => rfl | ⟨1, _⟩ => rfl | ⟨2, _⟩ => rfl | ⟨3, _⟩ => rfl)
  simp only [el, er, q_eq, k_eq, Ideal.hostDivf_def, Ideal.hostUnary_sqrt_def, Ideal.ofBits_def, scale_law]
  rfl

/-! ## The row maximum: a fold of max over the last axis -/

/-- The reference's row maximum (a max-reduce from minus infinity, then a maximum with minus infinity) is the
    specification's fold of max from the bottom element. -/
theorem max_eq (x0 : TA) (x1 : TW) (x2 : TB) (x3 : TW) (x4 : TB) (bb : Fin 2) (h : Fin 16) (n : Fin 2048) :
    val_main_v24 (F := Ideal) x0 x1 x2 x3 x4 (ix3 bb h n) = rowMax (score (proj x0 x1 x2) (proj x0 x3 x4) bb h n) := by
  rw [val_main_v24_apply, val_main_v23_apply, val_main_cst_1_apply, Ideal.maximumf_def, Ideal.ofBits_def,
    ofBits_neg_inf, max_eq_right bot_le]
  unfold val_main_v22
  rw [Host.reduce_eq_fold_single (FloatOps.maximumf (F := Ideal) (φ := .f32)) _ _
    reducesTo_S2x16x2048x2048_S2x16x2048_d3 (by decide) h_S_]
  show (Finset.univ : Finset (Fin 2048)).fold max (Ideal.ofBits .f32 0xFF800000#32) _ = _
  unfold rowMax
  refine Finset.fold_congr fun k _ => ?_
  refine (congrArg (val_main_v21 (F := Ideal) x0 x1 x2 x3 x4) ?_).trans (score_eq x0 x1 x2 x3 x4 bb h n k)
  exact funext fun a => Fin.ext (by match a with | ⟨0, _⟩ => rfl | ⟨1, _⟩ => rfl | ⟨2, _⟩ => rfl | ⟨3, _⟩ => rfl)

/-! ## The softmax -/

/-- The reference's shifted exponentials. -/
theorem expo_eq (x0 : TA) (x1 : TW) (x2 : TB) (x3 : TW) (x4 : TB) (bb : Fin 2) (h : Fin 16) (n m : Fin 2048) :
    val_main_v28 (F := Ideal) x0 x1 x2 x3 x4 (ix4 bb h n m) = expo (score (proj x0 x1 x2) (proj x0 x3 x4) bb h n) m := by
  rw [val_main_v28_apply, val_main_v27_apply, val_main_v26_apply, val_main_v25_apply]
  have e : idx_main_v25 (idx_main_v26 (ix4 bb h n m)) = ix3 bb h n :=
    funext fun a => Fin.ext (by match a with | ⟨0, _⟩ => rfl | ⟨1, _⟩ => rfl | ⟨2, _⟩ => rfl)
  rw [e, max_eq, score_eq, Ideal.hostUnary_exp_def, Ideal.subf_def]
  rfl

/-- The reference's softmax: the exponentials over their row sum, the sum started from the zero word. -/
theorem soft_eq (x0 : TA) (x1 : TW) (x2 : TB) (x3 : TW) (x4 : TB) (bb : Fin 2) (h : Fin 16) (n m : Fin 2048) :
    val_main_v32 (F := Ideal) x0 x1 x2 x3 x4 (ix4 bb h n m) = soft (score (proj x0 x1 x2) (proj x0 x3 x4) bb h n) m := by
  rw [val_main_v32_apply, val_main_v31_apply, val_main_v30_apply]
  have e : idx_main_v30 (idx_main_v31 (ix4 bb h n m)) = ix3 bb h n :=
    funext fun a => Fin.ext (by match a with | ⟨0, _⟩ => rfl | ⟨1, _⟩ => rfl | ⟨2, _⟩ => rfl)
  rw [e, val_main_v29_apply, val_main_cst_2_apply]
  have ek : ∀ k : Fin 2048, idx_main_v29 (ix3 bb h n) k = ix4 bb h n k := fun k =>
    funext fun a => Fin.ext (by match a with | ⟨0, _⟩ => rfl | ⟨1, _⟩ => rfl | ⟨2, _⟩ => rfl | ⟨3, _⟩ => rfl)
  simp only [ek, expo_eq, Ideal.ofBits_def, Ideal.ofBits_zero_f32, zero_add, Ideal.hostDivf_def]
  rfl

/-! ## One head's output -/

/-- The reference's attention output, by (batch, head, row, column). -/
theorem headOut_eq (x0 : TA) (x1 : TW) (x2 : TB) (x3 : TW) (x4 : TB) (x5 : TW) (x6 : TB)
    (bb : Fin 2) (h : Fin 16) (n : Fin 2048) (c : Fin 64) :
    val_main_v33 (F := Ideal) x0 x1 x2 x3 x4 x5 x6 (ix4 bb h n c)
      = headOut (proj x0 x1 x2) (proj x0 x3 x4) (proj x0 x5 x6) bb h n c := by
  rw [val_main_v33_apply]
  have el : ∀ k : Fin 2048, lidx_main_v33 (ix4 bb h n c) k = ix4 bb h n k := fun k =>
    funext fun a => Fin.ext (by match a with | ⟨0, _⟩ => rfl | ⟨1, _⟩ => rfl | ⟨2, _⟩ => rfl | ⟨3, _⟩ => rfl)
  have er : ∀ k : Fin 2048, ridx_main_v33 (ix4 bb h n c) k = ix4 bb h k c := fun k =>
    funext fun a => Fin.ext (by match a with | ⟨0, _⟩ => rfl | ⟨1, _⟩ => rfl | ⟨2, _⟩ => rfl | ⟨3, _⟩ => rfl)
  simp only [el, er, soft_eq, v_eq]
  rfl

/-! ## The output projection: the sum over the model dimension regrouped by head and column -/

/-- Moving the head axis back and merging (head, column) into the model dimension reads the head output
    at head h, column c from column h*64 + c. -/
theorem merge_idx (bb : Fin 2) (n : Fin 2048) (h : Fin 16) (c : Fin 64) :
    idx_main_v34 (idx_main_v35 (ix3 bb n (col h c))) = ix4 bb h n c := by
  funext a
  refine Fin.ext ?_
  have hb := bb.isLt; have hh := h.isLt; have hn := n.isLt; have hc := c.isLt
  match a with
  | ⟨0, _⟩ => show ((bb.val * 2048 + n.val) * 1024 + (h.val * 64 + c.val)) / 2097152 = bb.val; omega
  | ⟨1, _⟩ => show ((bb.val * 2048 + n.val) * 1024 + (h.val * 64 + c.val)) / 64 % 16 = h.val; omega
  | ⟨2, _⟩ => show ((bb.val * 2048 + n.val) * 1024 + (h.val * 64 + c.val)) / 1024 % 2048 = n.val; omega
  | ⟨3, _⟩ => show ((bb.val * 2048 + n.val) * 1024 + (h.val * 64 + c.val)) % 64 = c.val; omega

/-- Column h*64 + c runs once over the model dimension as (h, c) runs over the heads and their columns. -/
def colEquiv : Fin 16 × Fin 64 ≃ Fin 1024 where
  toFun p := col p.1 p.2
  invFun k := (⟨k.val / 64, by have := k.isLt; omega⟩, ⟨k.val % 64, by omega⟩)
  left_inv p := by
    rcases p with ⟨h, c⟩
    have hh := h.isLt; have hc := c.isLt
    refine Prod.ext (Fin.ext ?_) (Fin.ext ?_)
    · show (h.val * 64 + c.val) / 64 = h.val; omega
    · show (h.val * 64 + c.val) % 64 = c.val; omega
  right_inv k := Fin.ext (by show k.val / 64 * 64 + k.val % 64 = k.val; omega)

/-- A sum over the model dimension is the double sum over heads and columns. -/
theorem sum_col {M : Type*} [AddCommMonoid M] (f : Fin 1024 → M) :
    ∑ k, f k = ∑ h : Fin 16, ∑ c : Fin 64, f (col h c) := by
  rw [← Equiv.sum_comp colEquiv f, Fintype.sum_prod_type]
  rfl

/-- The reference's result at (batch, row, output column). -/
theorem out_eq (x0 : TA) (x1 : TW) (x2 : TB) (x3 : TW) (x4 : TB) (x5 : TW) (x6 : TB) (x7 : TW) (x8 : TB)
    (bb : Fin 2) (n : Fin 2048) (e : Fin 1024) :
    val_main_v39 (F := Ideal) x0 x1 x2 x3 x4 x5 x6 x7 x8 (ix3 bb n e) = mhaAt x0 x1 x2 x3 x4 x5 x6 x7 x8 bb n e := by
  rw [val_main_v39_apply, val_main_v36_apply, val_main_v38_apply, val_main_v37_apply]
  have el : ∀ k : Fin 1024, lidx_main_v36 (ix3 bb n e) k = ix3 bb n k := fun k =>
    funext fun a => Fin.ext (by match a with | ⟨0, _⟩ => rfl | ⟨1, _⟩ => rfl | ⟨2, _⟩ => rfl)
  have er : ∀ k : Fin 1024, ridx_main_v36 (ix3 bb n e) k = ix2 k e := fun k =>
    funext fun a => Fin.ext (by match a with | ⟨0, _⟩ => rfl | ⟨1, _⟩ => rfl)
  have eb : idx_main_v37 (idx_main_v38 (ix3 bb n e)) = ix1 e :=
    funext fun a => Fin.ext (by match a with | ⟨0, _⟩ => rfl)
  have eo : ∀ (h : Fin 16) (c : Fin 64), val_main_v35 (F := Ideal) x0 x1 x2 x3 x4 x5 x6 (ix3 bb n (col h c))
      = headOut (proj x0 x1 x2) (proj x0 x3 x4) (proj x0 x5 x6) bb h n c := fun h c => by
    rw [val_main_v35_apply, val_main_v34_apply]
    exact (congrArg _ (merge_idx bb n h c)).trans (headOut_eq x0 x1 x2 x3 x4 x5 x6 bb h n c)
  simp only [el, er, eb]
  rw [sum_col]
  simp only [eo, Ideal.addf_def]
  rfl

/-! ## The reference is the specification -/

/-- The reference program's result is multi-head attention of its nine arguments, index by index. -/
theorem ref_is_mha (x0 : (⟨S2x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Cert.ReferenceIdeal.Read.val_main_v39 x0 x1 x2 x3 x4 x5 x6 x7 x8 = Cert.Mha.mha x0 x1 x2 x3 x4 x5 x6 x7 x8 := by
  funext i
  obtain ⟨bb, n, e, rfl⟩ : ∃ (bb : Fin 2) (n : Fin 2048) (e : Fin 1024), i = ix3 bb n e := ⟨i 0, i 1, i 2, eq_ix3 i⟩
  exact out_eq x0 x1 x2 x3 x4 x5 x6 x7 x8 bb n e

end Cert.ReferenceIdeal.RefValue

end
-- ==== Proof.lean ====
/-
  The certificate's claim: the three programs' frames, the idealization's (empty) ledger, and the equality of the idealized
  kernel's and the idealized reference's results as extended reals.  Each kernel program's frame is the run of its four
  segments (host re-layout, projection region, host re-layout, attention region) with every argument array read back
  through the fold of buffer contents to its launch contents; the reference's frame is its generated run with the result
  dropped.  Both idealized programs end with the result array at multi-head self-attention of the nine arguments
  (Cert.Mha.mha): the kernel by the closed form of its two regions, the reference by its run read stage by stage; no
  step uses that the inputs are finite.
-/
import proofs.«174402_j5239860101318_2_alg».proof.Defs
import proofs.«174402_j5239860101318_2_alg».proof.Proof.Gen.Kernel
import proofs.«174402_j5239860101318_2_alg».proof.Proof.Gen.KernelIdeal
import proofs.«174402_j5239860101318_2_alg».proof.Proof.Gen.ReferenceIdeal
import proofs.«174402_j5239860101318_2_alg».proof.Proof.Gen.Pre_finite_inputs
import proofs.«174402_j5239860101318_2_alg».proof.Proof.Gen.ReferenceIdeal.Run
import proofs.«174402_j5239860101318_2_alg».proof.Proof.Kernel.Run
import proofs.«174402_j5239860101318_2_alg».proof.Proof.KernelIdeal.Run
import proofs.«174402_j5239860101318_2_alg».proof.Proof.KernelIdeal.Result
import proofs.«174402_j5239860101318_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Run.frame (F := Bits) m ρ
theorem frame_kernelIdeal [Cert.KernelIdeal.Facts] [Cert.Pre_finite_inputs.Facts] : Cert.frame_KernelIdeal :=
  fun m ρ _ => Cert.KernelIdeal.Run.frame (F := Ideal) m ρ
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)
theorem preserves : Cert.preserves_Kernel_KernelIdeal := trivial

/-- Both idealized programs, from memories agreeing on the arguments, end with the result array at the same function
    of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Mha.mha (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run (Cert.KernelIdeal.defs (F := Ideal)) _ _).mono (fun r h c => ⟨?_, ?_⟩) (Cert.KernelIdeal.Run.run_all (F := Ideal) m ρ)
    · exact (h c _ (Cert.KernelIdeal.Run.mem_uc Cert.KernelIdeal.main_v23 (by decide))).trans (Cert.KernelIdeal.Result.kernel_result m ρ c)
    · exact ⟨(h c _ (Cert.KernelIdeal.Run.mem_uc Cert.KernelIdeal.main_arg0 (by decide))).trans (Cert.KernelIdeal.Run.afterAttn_main_arg0 m ρ c),
        (h c _ (Cert.KernelIdeal.Run.mem_uc Cert.KernelIdeal.main_arg1 (by decide))).trans (Cert.KernelIdeal.Run.afterAttn_main_arg1 m ρ c),
        (h c _ (Cert.KernelIdeal.Run.mem_uc Cert.KernelIdeal.main_arg2 (by decide))).trans (Cert.KernelIdeal.Run.afterAttn_main_arg2 m ρ c),
        (h c _ (Cert.KernelIdeal.Run.mem_uc Cert.KernelIdeal.main_arg3 (by decide))).trans (Cert.KernelIdeal.Run.afterAttn_main_arg3 m ρ c),
        (h c _ (Cert.KernelIdeal.Run.mem_uc Cert.KernelIdeal.main_arg4 (by decide))).trans (Cert.KernelIdeal.Run.afterAttn_main_arg4 m ρ c),
        (h c _ (Cert.KernelIdeal.Run.mem_uc Cert.KernelIdeal.main_arg5 (by decide))).trans (Cert.KernelIdeal.Run.afterAttn_main_arg5 m ρ c),
        (h c _ (Cert.KernelIdeal.Run.mem_uc Cert.KernelIdeal.main_arg6 (by decide))).trans (Cert.KernelIdeal.Run.afterAttn_main_arg6 m ρ c),
        (h c _ (Cert.KernelIdeal.Run.mem_uc Cert.KernelIdeal.main_arg7 (by decide))).trans (Cert.KernelIdeal.Run.afterAttn_main_arg7 m ρ c),
        (h c _ (Cert.KernelIdeal.Run.mem_uc Cert.KernelIdeal.main_arg8 (by decide))).trans (Cert.KernelIdeal.Run.afterAttn_main_arg8 m ρ c)⟩
  · refine (θ_run (Cert.ReferenceIdeal.defs (F := Ideal)) _ _).mono (fun r h c => ⟨?_, (h c).2⟩) (Cert.ReferenceIdeal.Value.run (F := Ideal) m' ρ')
    obtain ⟨a0, a1, a2, a3, a4, a5, a6, a7, a8⟩ := hagree c
    rw [(h c).1, Cert.ReferenceIdeal.Read.val_main_v39_eq, Cert.ReferenceIdeal.RefValue.ref_is_mha, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
